-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S40x128 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S40x128 .f32 := Host.absf main_arg6
  let main_cst_8 : FVec F S_ .f32 := constant S_ .f32 0x7F800000#32
  let main_v25 : FVec F S40x128 .f32 := broadcastInDim S40x128 ![] bcast_S_S40x128 main_cst_8
  let main_v26 : IVec S40x128 1 := cmpf .olt main_v24 main_v25
  let main_c_9 : IVec S_ 1 := constantI S_ 1 1#1
  let main_v27 : IVec S_ 1 := (fun x v => Host.reduce IntOp.andi x v reducesTo_S40x128_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S40x128 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S50000x1 : Shape := ⟨2, ![50000, 1]⟩
abbrev S5000x128 : Shape := ⟨2, ![5000, 128]⟩
abbrev S5000x1 : Shape := ⟨2, ![5000, 1]⟩
abbrev S650000x128 : Shape := ⟨2, ![650000, 128]⟩
abbrev S1x128 : Shape := ⟨2, ![1, 128]⟩
abbrev S128x40 : Shape := ⟨2, ![128, 40]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩

abbrev nBuf : Space → Nat
  | .hbm => 89
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S40x128, .f32⟩
  | .hbm, ⟨7, _⟩ => ⟨S40, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S_, .f32⟩
  | .hbm, ⟨16, _⟩ => ⟨S50000, .f32⟩
  | .hbm, ⟨17, _⟩ => ⟨S_, .f32⟩
  | .hbm, ⟨18, _⟩ => ⟨S650000, .f32⟩
  | .hbm, ⟨19, _⟩ => ⟨S_, .i32⟩
  | .hbm, ⟨20, _⟩ => ⟨S650000, .i32⟩
  | .hbm, ⟨21, _⟩ => ⟨S650000, .i1⟩
  | .hbm, ⟨22, _⟩ => ⟨S_, .i32⟩
  | .hbm, ⟨23, _⟩ => ⟨S650000, .i32⟩
  | .hbm, ⟨24, _⟩ => ⟨S650000, .i32⟩
  | .hbm, ⟨25, _⟩ => ⟨S650000, .i32⟩
  | .hbm, ⟨26, _⟩ => ⟨S650000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S128x128, .f32⟩
  | .hbm, ⟨38, _⟩ => ⟨S128x128, .bf16⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S_, .i32⟩
  | .hbm, ⟨43, _⟩ => ⟨S650000, .i32⟩
  | .hbm, ⟨44, _⟩ => ⟨S650000, .i1⟩
  | .hbm, ⟨45, _⟩ => ⟨S_, .i32⟩
  | .hbm, ⟨46, _⟩ => ⟨S650000, .i32⟩
  | .hbm, ⟨47, _⟩ => ⟨S650000, .i32⟩
  | .hbm, ⟨48, _⟩ => ⟨S650000, .i32⟩
  | .hbm, ⟨49, _⟩ => ⟨S650000x1, .i32⟩
  | .hbm, ⟨50, _⟩ => ⟨S650000x128, .f32⟩
  | .hbm, ⟨51, _⟩ => ⟨S_, .i32⟩
  | .hbm, ⟨52, _⟩ => ⟨S650000, .i32⟩
  | .hbm, ⟨53, _⟩ => ⟨S650000, .i1⟩
  | .hbm, ⟨54, _⟩ => ⟨S_, .i32⟩
  | .hbm, ⟨55, _⟩ => ⟨S650000, .i32⟩
  | .hbm, ⟨56, _⟩ => ⟨S650000, .i32⟩
  | .hbm, ⟨57, _⟩ => ⟨S650000, .i32⟩
  | .hbm, ⟨58, _⟩ => ⟨S650000x1, .i32⟩
  | .hbm, ⟨59, _⟩ => ⟨S50000x128, .f32⟩
  | .hbm, ⟨60, _⟩ => ⟨S128x128, .f32⟩
  | .hbm, ⟨61, _⟩ => ⟨S128x128, .bf16⟩
  | .hbm, ⟨62, _⟩ => ⟨S1x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S_, .i32⟩
  | .hbm, ⟨67, _⟩ => ⟨S650000, .i32⟩
  | .hbm, ⟨68, _⟩ => ⟨S650000, .i1⟩
  | .hbm, ⟨69, _⟩ => ⟨S_, .i32⟩
  | .hbm, ⟨70, _⟩ => ⟨S650000, .i32⟩
  | .hbm, ⟨71, _⟩ => ⟨S650000, .i32⟩
  | .hbm, ⟨72, _⟩ => ⟨S650000, .i32⟩
  | .hbm, ⟨73, _⟩ => ⟨S650000x1, .i32⟩
  | .hbm, ⟨74, _⟩ => ⟨S650000x128, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S50000x128, .f32⟩
  | .hbm, ⟨84, _⟩ => ⟨S128x40, .f32⟩
  | .hbm, ⟨85, _⟩ => ⟨S128x40, .bf16⟩
  | .hbm, ⟨86, _⟩ => ⟨S1x128, .f32⟩
  | .hbm, ⟨87, _⟩ => ⟨S1x40, .f32⟩
  | .hbm, ⟨88, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .bf16⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x40, .bf16⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S_S650000 : S_.BroadcastsInDim S650000 (![] : Fin 0 → Fin S650000.rank)
  bcast_S650000_S650000x1_0 : S650000.BroadcastsInDim S650000x1 (![0] : Fin 1 → Fin S650000x1.rank)
  shapeCasts_S50000_S50000x1 : S50000.ShapeCasts S50000x1
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S650000x1_S650000_n_0_0_1_wf : ScatterDims.WF S50000 S650000x1 S650000 [] [0] [0] 1
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .bf16 = 32 ∨ (Rect.block (s := S128x40) S128x40.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x40.size a ≤ S50000x40.size a
  hwx2_5 : ∀ i : grid2.Coords, EltTy.bits .f32 = 32 ∨ (Rect.block (s := S50000x40) S5000x40.size (cc2_transform_5 i) (hinb2_5 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 177
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128, .f32⟩
  | 6 => ⟨S40x128, .f32⟩
  | 7 => ⟨S40, .f32⟩
  | 8 => ⟨S50000, .i32⟩
  | 9 => ⟨S1x600000, .i32⟩
  | 10 => ⟨S600000, .i32⟩
  | 11 => ⟨S650000, .i32⟩
  | 12 => ⟨S1x600000, .i32⟩
  | 13 => ⟨S600000, .i32⟩
  | 14 => ⟨S650000, .i32⟩
  | 15 => ⟨S128x128, .f32⟩
  | 16 => ⟨S50000x128, .f32⟩
  | 17 => ⟨S_, .f32⟩
  | 18 => ⟨S50000, .f32⟩
  | 19 => ⟨S_, .f32⟩
  | 20 => ⟨S650000, .f32⟩
  | 21 => ⟨S_, .i32⟩
  | 22 => ⟨S650000, .i32⟩
  | 23 => ⟨S650000, .i1⟩
  | 24 => ⟨S_, .i32⟩
  | 25 => ⟨S650000, .i32⟩
  | 26 => ⟨S650000, .i32⟩
  | 27 => ⟨S650000, .i32⟩
  | 28 => ⟨S650000x1, .i32⟩
  | 29 => ⟨S50000, .f32⟩
  | 30 => ⟨S_, .f32⟩
  | 31 => ⟨S50000, .f32⟩
  | 32 => ⟨S50000, .i1⟩
  | 33 => ⟨S50000, .f32⟩
  | 34 => ⟨S_, .f32⟩
  | 35 => ⟨S_, .f32⟩
  | 36 => ⟨S50000, .f32⟩
  | 37 => ⟨S50000, .f32⟩
  | 38 => ⟨S_, .i32⟩
  | 39 => ⟨S650000, .i32⟩
  | 40 => ⟨S650000, .i1⟩
  | 41 => ⟨S_, .i32⟩
  | 42 => ⟨S650000, .i32⟩
  | 43 => ⟨S650000, .i32⟩
  | 44 => ⟨S650000, .i32⟩
  | 45 => ⟨S650000x1, .i32⟩
  | 46 => ⟨S650000, .f32⟩
  | 47 => ⟨S_, .i32⟩
  | 48 => ⟨S650000, .i32⟩
  | 49 => ⟨S650000, .i1⟩
  | 50 => ⟨S_, .i32⟩
  | 51 => ⟨S650000, .i32⟩
  | 52 => ⟨S650000, .i32⟩
  | 53 => ⟨S650000, .i32⟩
  | 54 => ⟨S650000x1, .i32⟩
  | 55 => ⟨S650000, .f32⟩
  | 56 => ⟨S650000, .f32⟩
  | 57 => ⟨S_, .i32⟩
  | 58 => ⟨S650000, .i32⟩
  | 59 => ⟨S650000, .i1⟩
  | 60 => ⟨S_, .i32⟩
  | 61 => ⟨S650000, .i32⟩
  | 62 => ⟨S650000, .i32⟩
  | 63 => ⟨S650000, .i32⟩
  | 64 => ⟨S650000x1, .i32⟩
  | 65 => ⟨S650000x128, .f32⟩
  | 66 => ⟨S650000x1, .f32⟩
  | 67 => ⟨S650000x128, .f32⟩
  | 68 => ⟨S650000x128, .f32⟩
  | 69 => ⟨S_, .f32⟩
  | 70 => ⟨S50000x128, .f32⟩
  | 71 => ⟨S_, .i32⟩
  | 72 => ⟨S650000, .i32⟩
  | 73 => ⟨S650000, .i1⟩
  | 74 => ⟨S_, .i32⟩
  | 75 => ⟨S650000, .i32⟩
  | 76 => ⟨S650000, .i32⟩
  | 77 => ⟨S650000, .i32⟩
  | 78 => ⟨S650000x1, .i32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S128x128, .f32⟩
  | 87 => ⟨S50000x128, .f32⟩
  | 88 => ⟨S_, .f32⟩
  | 89 => ⟨S50000, .f32⟩
  | 90 => ⟨S_, .f32⟩
  | 91 => ⟨S650000, .f32⟩
  | 92 => ⟨S_, .i32⟩
  | 93 => ⟨S650000, .i32⟩
  | 94 => ⟨S650000, .i1⟩
  | 95 => ⟨S_, .i32⟩
  | 96 => ⟨S650000, .i32⟩
  | 97 => ⟨S650000, .i32⟩
  | 98 => ⟨S650000, .i32⟩
  | 99 => ⟨S650000x1, .i32⟩
  | 100 => ⟨S50000, .f32⟩
  | 101 => ⟨S_, .f32⟩
  | 102 => ⟨S50000, .f32⟩
  | 103 => ⟨S50000, .i1⟩
  | 104 => ⟨S50000, .f32⟩
  | 105 => ⟨S_, .f32⟩
  | 106 => ⟨S_, .f32⟩
  | 107 => ⟨S50000, .f32⟩
  | 108 => ⟨S50000, .f32⟩
  | 109 => ⟨S_, .i32⟩
  | 110 => ⟨S650000, .i32⟩
  | 111 => ⟨S650000, .i1⟩
  | 112 => ⟨S_, .i32⟩
  | 113 => ⟨S650000, .i32⟩
  | 114 => ⟨S650000, .i32⟩
  | 115 => ⟨S650000, .i32⟩
  | 116 => ⟨S650000x1, .i32⟩
  | 117 => ⟨S650000, .f32⟩
  | 118 => ⟨S_, .i32⟩
  | 119 => ⟨S650000, .i32⟩
  | 120 => ⟨S650000, .i1⟩
  | 121 => ⟨S_, .i32⟩
  | 122 => ⟨S650000, .i32⟩
  | 123 => ⟨S650000, .i32⟩
  | 124 => ⟨S650000, .i32⟩
  | 125 => ⟨S650000x1, .i32⟩
  | 126 => ⟨S650000, .f32⟩
  | 127 => ⟨S650000, .f32⟩
  | _ => ⟨S50000x128, .f32⟩

abbrev hbmTy0_1 (i : Nat) : BufTy := match i % 128 with
  | 0 => ⟨S_, .i32⟩
  | 1 => ⟨S650000, .i32⟩
  | 2 => ⟨S650000, .i1⟩
  | 3 => ⟨S_, .i32⟩
  | 4 => ⟨S650000, .i32⟩
  | 5 => ⟨S650000, .i32⟩
  | 6 => ⟨S650000, .i32⟩
  | 7 => ⟨S650000x1, .i32⟩
  | 8 => ⟨S650000x128, .f32⟩
  | 9 => ⟨S650000x1, .f32⟩
  | 10 => ⟨S650000x128, .f32⟩
  | 11 => ⟨S650000x128, .f32⟩
  | 12 => ⟨S_, .f32⟩
  | 13 => ⟨S50000x128, .f32⟩
  | 14 => ⟨S_, .i32⟩
  | 15 => ⟨S650000, .i32⟩
  | 16 => ⟨S650000, .i1⟩
  | 17 => ⟨S_, .i32⟩
  | 18 => ⟨S650000, .i32⟩
  | 19 => ⟨S650000, .i32⟩
  | 20 => ⟨S650000, .i32⟩
  | 21 => ⟨S650000x1, .i32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S128x40, .f32⟩
  | 30 => ⟨S50000x40, .f32⟩
  | 31 => ⟨S1x40, .f32⟩
  | 32 => ⟨S50000x40, .f32⟩
  | 33 => ⟨S50000x40, .f32⟩
  | 34 => ⟨S_, .f32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x40, .f32⟩
  | 41 => ⟨S50000x40, .f32⟩
  | 42 => ⟨S50000x40, .f32⟩
  | 43 => ⟨S_, .f32⟩
  | 44 => ⟨S50000, .f32⟩
  | 45 => ⟨S50000x1, .f32⟩
  | 46 => ⟨S50000x1, .f32⟩
  | 47 => ⟨S50000x40, .f32⟩
  | 48 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_c_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_c_11 : Ref sig .tc := ⟨.hbm, 71, rfl⟩
abbrev main_v48 : Ref sig .tc := ⟨.hbm, 72, rfl⟩
abbrev main_v49 : Ref sig .tc := ⟨.hbm, 73, rfl⟩
abbrev main_c_12 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_call1_cst : Ref sig .tc := ⟨.hbm, 83, rfl⟩
abbrev main_call1_v0 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_call2_v0 : Ref sig .tc := ⟨.hbm, 106, rfl⟩
abbrev main_call2_v1 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_c_20 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_21 : Ref sig .tc := ⟨.hbm, 118, rfl⟩
abbrev main_v81 : Ref sig .tc := ⟨.hbm, 119, rfl⟩
abbrev main_v82 : Ref sig .tc := ⟨.hbm, 120, rfl⟩
abbrev main_c_22 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_23 : Ref sig .tc := ⟨.hbm, 128, rfl⟩
abbrev main_v89 : Ref sig .tc := ⟨.hbm, 129, rfl⟩
abbrev main_v90 : Ref sig .tc := ⟨.hbm, 130, rfl⟩
abbrev main_c_24 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_25 : Ref sig .tc := ⟨.hbm, 140, rfl⟩
abbrev main_v99 : Ref sig .tc := ⟨.hbm, 141, rfl⟩
abbrev main_c_26 : Ref sig .tc := ⟨.hbm, 142, rfl⟩
abbrev main_v100 : Ref sig .tc := ⟨.hbm, 143, rfl⟩
abbrev main_v101 : Ref sig .tc := ⟨.hbm, 144, rfl⟩
abbrev main_c_27 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_call3_cst : Ref sig .tc := ⟨.hbm, 154, rfl⟩
abbrev main_call3_v0 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call4_cst : Ref sig .tc := ⟨.hbm, 162, rfl⟩
abbrev main_call4_v0 : Ref sig .tc := ⟨.hbm, 163, rfl⟩
abbrev main_call4_cst_0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_call4_v5 : Ref sig .tc := ⟨.hbm, 169, rfl⟩
abbrev main_call4_v6 : Ref sig .tc := ⟨.hbm, 170, rfl⟩
abbrev main_call4_cst_1 : Ref sig .tc := ⟨.hbm, 171, rfl⟩
abbrev main_call4_v7 : Ref sig .tc := ⟨.hbm, 172, rfl⟩
abbrev main_call4_v8 : Ref sig .tc := ⟨.hbm, 173, rfl⟩
abbrev main_call4_v9 : Ref sig .tc := ⟨.hbm, 174, rfl⟩
abbrev main_call4_v10 : Ref sig .tc := ⟨.hbm, 175, rfl⟩
abbrev main_v116 : Ref sig .tc := ⟨.hbm, 176, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  transposes_S128x128_S128x128_1_0 : S128x128.Transposes [1, 0] S128x128
  bcast_S_S50000 : S_.BroadcastsInDim S50000 (![] : Fin 0 → Fin S50000.rank)
  bcast_S_S650000 : S_.BroadcastsInDim S650000 (![] : Fin 0 → Fin S650000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run with its result kept.

  The program is three pipelined regions among stretches of host operations. Its run is followed from the launch through
  the segments: after each stretch every buffer holds what the stretch's operations compute from the contents before it, and
  after each region the region's arrays hold what its write-backs leave and every other buffer what it held. The last
  boundary's contents `W8` therefore describe every unscoped buffer of the final state: the eight argument arrays, which no
  operation and no region writes, and the result array `main_v62`, stated here at `W8`'s value for it. What that value is, as
  a function of the arguments, is read off the fold by the modules that import this one.
-/
import proofs.«177027_j7722351198605_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program terminates without a fault, with the result
    array at the last boundary's contents and the argument arrays as launched. -/
theorem run_result : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibConcatenateCongr.lean ====
/-
  A concatenation of two pieces, rewritten piece by piece.

  `concatenate t a [⟨s₁, x⟩, ⟨s₂, y⟩] h` joins `x` and `y` along axis `a`; its side condition `h` speaks of the pieces'
  SHAPES only (`Shape.Concatenates [s₁, s₂] t a`), so replacing `x` and `y` by equal arrays leaves it in place.  Stated in
  the form of a congruence rule (hypotheses `x = x'`, `y = y'`): tagged `congr`, it lets a rewriting pass reach the two
  pieces, which sit inside a list of shape-indexed pairs that no automatically derived congruence enters.
-/
import Idealize.ShloMosaic.PureOps.ShapeOps

namespace Cert.Lib

open Idealize.ShloMosaic

/-- Two-piece concatenations of equal pieces are equal; the side condition, which depends on the shapes alone, is the
    same on both sides.  Use as `attribute [local congr] Cert.Lib.concatenate_pair_congr`. -/
theorem concatenate_pair_congr {α : Type} (t : Shape) (a : Fin t.rank) (s₁ s₂ : Shape) (x : s₁.Idx → α) (y : s₂.Idx → α)
    {x' : s₁.Idx → α} {y' : s₂.Idx → α} (h : Shape.Concatenates [s₁, s₂] t a) (hx : x = x') (hy : y = y') :
    concatenate t a [⟨s₁, x⟩, ⟨s₂, y⟩] h = concatenate t a [⟨s₁, x'⟩, ⟨s₂, y'⟩] h := by
  subst hx; subst hy; rfl

end Cert.Lib
-- ==== Proof.LibEdgeIndexOps.lean ====
/-
  THREE STABLEHLO INDEX OPERATIONS READ AT AN INDEX, over natural-number extents.

  A gather of whole rows of a matrix (`rowGatherDims`, `rowGather_apply`): result row `e` is the operand's row at the
  start index of `e`, read signed and clamped into `[0, N − 1]`. A scatter of whole rows (`rowScatterDims`), a scatter of
  single points of a matrix (`pointScatterDims`) and a scatter of single points of a flat array (`flatScatterDims`): an
  update lands on an operand element exactly when its start index, read signed and NOT clamped, names that element (and,
  for rows, the columns agree). The three scatter statements all come from one general fact (`resultIdx?_eq_some_iff`):
  an update lands on `i` exactly when, on every operand axis, start plus window coordinate is `i`'s coordinate.
-/
import Idealize.ShloMosaic.Lib.ValueIdx
import Idealize.ShloMosaic.PureOps.Ideal

noncomputable section

namespace Idealize.ShloMosaic.EdgeIdx

open Idealize.ShloMosaic Idealize.ShloMosaic.ValueIdx

/-! ## A gather of rows: operand `[N, C]`, start indices `[E, 1]`, result `[E, C]`

What `x[idx]` of a matrix `x : [N, C]` at a column of row numbers lowers to: offset_dims `[1]`, collapsed_slice_dims
`[0]`, start_index_map `[0]`, slice_sizes `[1, C]`, index_vector_dim 1. Result element `(e, c)` is `x` at row
`idx[e, 0]` (read signed, clamped into `[0, N − 1]`) and column `c`. -/

section RowGather
variable {α : Type}

/-- The row gather's dimension numbers for an operand `[N, C]`, start indices `[E, 1]` and result `[E, C]`; their
    conditions `wf` are decided on a program's literal shapes. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the row the start index `idx[e, 0]` names, read signed and clamped
    into `[0, N − 1]`, and at column `c`. On the row axis the slice has one row, so the clamp's upper end is `N − 1`, and
    that axis is collapsed (no offset); the column axis is not in the start index map (start `0`) and its offset is the
    result's column. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    unfold GatherDims.start
    rw [dif_neg (show (1 : Fin 2) ∉ (rowGatherDims N E C wf).startIndexMap from
      (by decide : (1 : Fin 2) ∉ ([0] : List (Fin 2))))]
    unfold GatherDims.offCoord
    rw [dif_pos (show (1 : Fin 2) ∈ (rowGatherDims N E C wf).sKept from (GatherDims.mem_sKept _ _).mpr
      ⟨(by decide : (1 : Fin 2) ∉ ([0] : List (Fin 2))), List.not_mem_nil⟩)]
    simp only [Nat.zero_add, Nat.add_zero]
    rfl

end RowGather

/-! ## Where a scatter's update lands, axis by axis -/

section General

/-- An update lands on the operand element `i` exactly when, on every operand axis, the start (read signed, not clamped)
    plus the window coordinate is `i`'s coordinate: then the sum is inside the operand on every axis, and it is `i`;
    and if the update is dropped, or lands elsewhere, some axis disagrees. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro heq a
      have h1 := congrArg (fun f => (f a).val) heq
      simp only at h1
      have h2 := h a
      omega
    · intro hall
      funext a
      refine Fin.ext ?_
      have h1 := hall a
      simp only
      omega
  · rename_i h
    constructor
    · intro h'
      exact absurd h' (by simp)
    · intro hall
      exfalso
      apply h
      intro a
      have h1 := hall a
      have h2 := (i a).isLt
      omega

end General

/-! ## A scatter of rows: operand `[N, C]`, scatter indices `[E, 1]`, updates `[E, C]`

What `x.at[idx].add(upd)` of a matrix at a column of row numbers lowers to: update_window_dims `[1]`,
inserted_window_dims `[0]`, scatter_dims_to_operand_dims `[0]`, index_vector_dim 1. -/

section RowScatter

/-- The row scatter's dimension numbers for an operand `[N, C]`, scatter indices `[E, 1]` and updates `[E, C]`; their
    conditions `wf` are decided on a program's literal shapes. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the row scatter's start is the scatter index `idx[e, 0]` read signed. -/
theorem rowScatter_start0 {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx ⟨0, Nat.zero_lt_two⟩ = (idx (ix2 e ⟨0, Nat.one_pos⟩)).toInt := by
  unfold ScatterDims.start
  rw [dif_pos (show (⟨0, Nat.zero_lt_two⟩ : Fin 2) ∈ (rowScatterDims N E C wf).scatterDimsToOperandDims from
    List.mem_singleton.mpr rfl)]
  have hsi : (rowScatterDims N E C wf).siIdx (ix2 e c')
      ⟨List.idxOf (⟨0, Nat.zero_lt_two⟩ : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The column axis is not scattered: its start is `0`. -/
theorem rowScatter_start1 {N E C w : Nat} (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx ⟨1, Nat.one_lt_two⟩ = 0 := by
  unfold ScatterDims.start
  rw [dif_neg (show (⟨1, Nat.one_lt_two⟩ : Fin 2) ∉ (rowScatterDims N E C wf).scatterDimsToOperandDims from
    (by decide : (⟨1, Nat.one_lt_two⟩ : Fin 2) ∉ ([0] : List (Fin 2))))]

/-- The row axis is an inserted window axis: its window coordinate is `0`. -/
theorem rowScatter_window0 {N E C : Nat} (wf : ScatterDims.WF ⟨2, ![N, C]⟩ ⟨2, ![E, 1]⟩ ⟨2, ![E, C]⟩ [1] [0] [0] 1)
    (e : Fin E) (c' : Fin C) : (rowScatterDims N E C wf).window (ix2 e c') ⟨0, Nat.zero_lt_two⟩ = 0 := by
  unfold ScatterDims.window
  rw [dif_neg (show (⟨0, Nat.zero_lt_two⟩ : Fin 2) ∉ (rowScatterDims N E C wf).sKept from
    (by decide : (⟨0, Nat.zero_lt_two⟩ : Fin 2) ∉ (List.finRange 2).filter (· ∉ ([0] : List (Fin 2)))))]

/-- On the column axis the window coordinate is the update's column. -/
theorem rowScatter_window1 {N E C : Nat} (wf : ScatterDims.WF ⟨2, ![N, C]⟩ ⟨2, ![E, 1]⟩ ⟨2, ![E, C]⟩ [1] [0] [0] 1)
    (e : Fin E) (c' : Fin C) : (rowScatterDims N E C wf).window (ix2 e c') ⟨1, Nat.one_lt_two⟩ = c'.val := by
  unfold ScatterDims.window
  rw [dif_pos (show (⟨1, Nat.one_lt_two⟩ : Fin 2) ∈ (rowScatterDims N E C wf).sKept from
    (by decide : (⟨1, Nat.one_lt_two⟩ : Fin 2) ∈ (List.finRange 2).filter (· ∉ ([0] : List (Fin 2)))))]
  rfl

/-- WHERE A ROW UPDATE LANDS: update `(e, c')` lands on `(d, c)` exactly when its scatter index `idx[e, 0]`, read signed
    and not clamped, is `d`, and the columns agree. -/
theorem rowScatter_resultIdx_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (d : Fin N) (c : Fin C) :
    (rowScatterDims N E C wf).resultIdx? (ix2 e c') idx = some (ix2 d c) ↔
      (idx (ix2 e ⟨0, Nat.one_pos⟩)).toInt = (d.val : Int) ∧ c' = c := by
  rw [resultIdx?_eq_some_iff]
  constructor
  · intro h
    have h0 : (rowScatterDims N E C wf).start (ix2 e c') idx ⟨0, Nat.zero_lt_two⟩
        + ((rowScatterDims N E C wf).window (ix2 e c') ⟨0, Nat.zero_lt_two⟩ : Int) = (d.val : Int) := h ⟨0, Nat.zero_lt_two⟩
    have h1 : (rowScatterDims N E C wf).start (ix2 e c') idx ⟨1, Nat.one_lt_two⟩
        + ((rowScatterDims N E C wf).window (ix2 e c') ⟨1, Nat.one_lt_two⟩ : Int) = (c.val : Int) := h ⟨1, Nat.one_lt_two⟩
    rw [rowScatter_start0, rowScatter_window0] at h0
    rw [rowScatter_start1, rowScatter_window1] at h1
    exact ⟨by omega, Fin.ext (by omega)⟩
  · rintro ⟨h0, rfl⟩ a
    match a with
    | ⟨0, _⟩ =>
      show (rowScatterDims N E C wf).start (ix2 e c') idx ⟨0, Nat.zero_lt_two⟩
        + ((rowScatterDims N E C wf).window (ix2 e c') ⟨0, Nat.zero_lt_two⟩ : Int) = (d.val : Int)
      rw [rowScatter_start0, rowScatter_window0]
      omega
    | ⟨1, _⟩ =>
      show (rowScatterDims N E C wf).start (ix2 e c') idx ⟨1, Nat.one_lt_two⟩
        + ((rowScatterDims N E C wf).window (ix2 e c') ⟨1, Nat.one_lt_two⟩ : Int) = (c'.val : Int)
      rw [rowScatter_start1, rowScatter_window1]
      omega

end RowScatter

/-! ## A scatter of points of a matrix: operand `[N, M]`, scatter indices `[E, 2]`, updates `[E]`

What `x.at[rows, cols].add(upd)` of a matrix at a list of (row, column) pairs lowers to: no update window axes, both
operand axes inserted, scatter_dims_to_operand_dims `[0, 1]`, index_vector_dim 1. -/

section PointScatter

/-- The point scatter's dimension numbers for an operand `[N, M]`, scatter indices `[E, 2]` and updates `[E]`; their
    conditions `wf` are decided on a program's literal shapes. -/
abbrev pointScatterDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- On the row axis the point scatter's start is the first component `idx[e, 0]` of the scatter index, read signed. -/
theorem pointScatter_start0 {N M E w : Nat} (wf : ScatterDims.WF ⟨2, ![N, M]⟩ ⟨2, ![E, 2]⟩ ⟨1, ![E]⟩ [] [0, 1] [0, 1] 1)
    (idx : IVec ⟨2, ![E, 2]⟩ w) (e : Fin E) :
    (pointScatterDims N M E wf).start (ix1 e) idx ⟨0, Nat.zero_lt_two⟩
      = (idx (ix2 e (⟨0, Nat.zero_lt_two⟩ : Fin 2))).toInt := by
  have hmem : (⟨0, Nat.zero_lt_two⟩ : Fin 2) ∈ (pointScatterDims N M E wf).scatterDimsToOperandDims :=
    (by decide : (⟨0, Nat.zero_lt_two⟩ : Fin 2) ∈ ([0, 1] : List (Fin 2)))
  unfold ScatterDims.start
  rw [dif_pos hmem]
  have hsi : (pointScatterDims N M E wf).siIdx (ix1 e)
      ⟨List.idxOf (⟨0, Nat.zero_lt_two⟩ : Fin 2) (pointScatterDims N M E wf).scatterDimsToOperandDims,
        List.idxOf_lt_length_iff.2 hmem⟩ = ix2 e (⟨0, Nat.zero_lt_two⟩ : Fin 2) := by
    funext b; refine Fin.ext ?_
    match b with
    | ⟨0, _⟩ => rfl
    | ⟨1, _⟩ => rfl
  rw [hsi]

/-- On the column axis the point scatter's start is the second component `idx[e, 1]`, read signed. -/
theorem pointScatter_start1 {N M E w : Nat} (wf : ScatterDims.WF ⟨2, ![N, M]⟩ ⟨2, ![E, 2]⟩ ⟨1, ![E]⟩ [] [0, 1] [0, 1] 1)
    (idx : IVec ⟨2, ![E, 2]⟩ w) (e : Fin E) :
    (pointScatterDims N M E wf).start (ix1 e) idx ⟨1, Nat.one_lt_two⟩
      = (idx (ix2 e (⟨1, Nat.one_lt_two⟩ : Fin 2))).toInt := by
  have hmem : (⟨1, Nat.one_lt_two⟩ : Fin 2) ∈ (pointScatterDims N M E wf).scatterDimsToOperandDims :=
    (by decide : (⟨1, Nat.one_lt_two⟩ : Fin 2) ∈ ([0, 1] : List (Fin 2)))
  unfold ScatterDims.start
  rw [dif_pos hmem]
  have hsi : (pointScatterDims N M E wf).siIdx (ix1 e)
      ⟨List.idxOf (⟨1, Nat.one_lt_two⟩ : Fin 2) (pointScatterDims N M E wf).scatterDimsToOperandDims,
        List.idxOf_lt_length_iff.2 hmem⟩ = ix2 e (⟨1, Nat.one_lt_two⟩ : Fin 2) := by
    funext b; refine Fin.ext ?_
    match b with
    | ⟨0, _⟩ => rfl
    | ⟨1, _⟩ => rfl
  rw [hsi]

/-- Both operand axes are inserted window axes: every window coordinate is `0`. -/
theorem pointScatter_window {N M E : Nat} (wf : ScatterDims.WF ⟨2, ![N, M]⟩ ⟨2, ![E, 2]⟩ ⟨1, ![E]⟩ [] [0, 1] [0, 1] 1)
    (e : Fin E) (a : Fin 2) : (pointScatterDims N M E wf).window (ix1 e) a = 0 := by
  unfold ScatterDims.window
  rw [dif_neg (show a ∉ (pointScatterDims N M E wf).sKept from
    (by revert a; decide : ∀ a : Fin 2, a ∉ (List.finRange 2).filter (· ∉ ([0, 1] : List (Fin 2)))) a)]

/-- WHERE A POINT UPDATE LANDS: update `e` lands on `(d, s)` exactly when its scatter index `(idx[e, 0], idx[e, 1])`,
    read signed and not clamped, is `(d, s)`. -/
theorem pointScatter_resultIdx_eq_some_iff {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (d : Fin N) (s : Fin M) :
    (pointScatterDims N M E wf).resultIdx? (ix1 e) idx = some (ix2 d s) ↔
      (idx (ix2 e (⟨0, Nat.zero_lt_two⟩ : Fin 2))).toInt = (d.val : Int)
        ∧ (idx (ix2 e (⟨1, Nat.one_lt_two⟩ : Fin 2))).toInt = (s.val : Int) := by
  rw [resultIdx?_eq_some_iff]
  constructor
  · intro h
    have h0 : (pointScatterDims N M E wf).start (ix1 e) idx ⟨0, Nat.zero_lt_two⟩
        + ((pointScatterDims N M E wf).window (ix1 e) ⟨0, Nat.zero_lt_two⟩ : Int) = (d.val : Int) := h ⟨0, Nat.zero_lt_two⟩
    have h1 : (pointScatterDims N M E wf).start (ix1 e) idx ⟨1, Nat.one_lt_two⟩
        + ((pointScatterDims N M E wf).window (ix1 e) ⟨1, Nat.one_lt_two⟩ : Int) = (s.val : Int) := h ⟨1, Nat.one_lt_two⟩
    rw [pointScatter_start0, pointScatter_window] at h0
    rw [pointScatter_start1, pointScatter_window] at h1
    exact ⟨by omega, by omega⟩
  · rintro ⟨h0, h1⟩ a
    match a with
    | ⟨0, _⟩ =>
      show (pointScatterDims N M E wf).start (ix1 e) idx ⟨0, Nat.zero_lt_two⟩
        + ((pointScatterDims N M E wf).window (ix1 e) ⟨0, Nat.zero_lt_two⟩ : Int) = (d.val : Int)
      rw [pointScatter_start0, pointScatter_window]
      omega
    | ⟨1, _⟩ =>
      show (pointScatterDims N M E wf).start (ix1 e) idx ⟨1, Nat.one_lt_two⟩
        + ((pointScatterDims N M E wf).window (ix1 e) ⟨1, Nat.one_lt_two⟩ : Int) = (s.val : Int)
      rw [pointScatter_start1, pointScatter_window]
      omega

end PointScatter

/-! ## A scatter of points of a flat array: operand `[N]`, scatter indices `[E, 1]`, updates `[E]`

What `x.at[idx].add(upd)` of a flat array lowers to: no update window axes, the operand's one axis inserted,
scatter_dims_to_operand_dims `[0]`, index_vector_dim 1. -/

section FlatScatter

/-- The flat scatter's dimension numbers for an operand `[N]`, scatter indices `[E, 1]` and updates `[E]`; their
    conditions `wf` are decided on a program's literal shapes. -/
abbrev flatScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The flat scatter's start on the operand's one axis is the scatter index `idx[e, 0]` read signed. -/
theorem flatScatter_start {N E w : Nat} (wf : ScatterDims.WF ⟨1, ![N]⟩ ⟨2, ![E, 1]⟩ ⟨1, ![E]⟩ [] [0] [0] 1)
    (idx : IVec ⟨2, ![E, 1]⟩ w) (e : Fin E) :
    (flatScatterDims N E wf).start (ix1 e) idx ⟨0, Nat.one_pos⟩ = (idx (ix2 e ⟨0, Nat.one_pos⟩)).toInt := by
  unfold ScatterDims.start
  rw [dif_pos (show (⟨0, Nat.one_pos⟩ : Fin 1) ∈ (flatScatterDims N E wf).scatterDimsToOperandDims from
    List.mem_singleton.mpr rfl)]
  have hsi : (flatScatterDims N E wf).siIdx (ix1 e)
      ⟨List.idxOf (⟨0, Nat.one_pos⟩ : Fin 1) (flatScatterDims N E wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- The operand's one axis is an inserted window axis: its window coordinate is `0`. -/
theorem flatScatter_window {N E : Nat} (wf : ScatterDims.WF ⟨1, ![N]⟩ ⟨2, ![E, 1]⟩ ⟨1, ![E]⟩ [] [0] [0] 1)
    (e : Fin E) : (flatScatterDims N E wf).window (ix1 e) ⟨0, Nat.one_pos⟩ = 0 := by
  unfold ScatterDims.window
  rw [dif_neg (show (⟨0, Nat.one_pos⟩ : Fin 1) ∉ (flatScatterDims N E wf).sKept from
    (by decide : (⟨0, Nat.one_pos⟩ : Fin 1) ∉ (List.finRange 1).filter (· ∉ ([0] : List (Fin 1)))))]

/-- WHERE A FLAT UPDATE LANDS: update `e` lands on element `d` exactly when its scatter index `idx[e, 0]`, read signed
    and not clamped, is `d`. -/
theorem flatScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (d : Fin N) :
    (flatScatterDims N E wf).resultIdx? (ix1 e) idx = some (ix1 d) ↔
      (idx (ix2 e ⟨0, Nat.one_pos⟩)).toInt = (d.val : Int) := by
  rw [resultIdx?_eq_some_iff]
  constructor
  · intro h
    have h0 : (flatScatterDims N E wf).start (ix1 e) idx ⟨0, Nat.one_pos⟩
        + ((flatScatterDims N E wf).window (ix1 e) ⟨0, Nat.one_pos⟩ : Int) = (d.val : Int) := h ⟨0, Nat.one_pos⟩
    rw [flatScatter_start, flatScatter_window] at h0
    omega
  · intro h0 a
    match a with
    | ⟨0, _⟩ =>
      show (flatScatterDims N E wf).start (ix1 e) idx ⟨0, Nat.one_pos⟩
        + ((flatScatterDims N E wf).window (ix1 e) ⟨0, Nat.one_pos⟩ : Int) = (d.val : Int)
      rw [flatScatter_start, flatScatter_window]
      omega

end FlatScatter

end Idealize.ShloMosaic.EdgeIdx

end
-- ==== Proof.ScaledAggregation.lean ====
/-
  Scaling by a node's inverse square-root degree commutes with the aggregation over the edges that end at the node.

  An accumulating scatter at an operand element `i` is the operand's entry plus the sum of the updates that land on `i`.
  On the extended reals a factor `a` with `0 ≤ a < ⊤` distributes over every finite sum, so `a` times such a scatter is the
  scatter of the updates each multiplied by `a` — and it is enough to know the products for the updates that DO land on `i`.
  For a scatter of rows by destination node, the updates that land on row `r` are the edges whose destination index, read
  signed, is `r`; for those, the destination index clamped into the node range is `r` too. Hence, with `d` a node scale in
  `[0, ⊤)`, `H` any array of node rows, `s e` and `t e` the clamped source and destination of edge `e`:
      d r · Σ_{e lands on r} (d (s e) · H (s e) c)  =  Σ_{e lands on r} H (s e) c · (d (s e) · d (t e)),
  the left side being the kernel's form (rows pre-scaled, the sum post-scaled) and the right side the reference's (each edge's
  row times the edge's weight). No entry of `H` has to be finite. The scale itself, `where (deg > 0) (rsqrt deg) 0`, lies in
  `[0, ⊤)` for every extended real `deg`.
-/
import Idealize.ShloMosaic.PureOps.Ideal
import Idealize.ShloMosaic.PureOps.Ideal.Laws
import Idealize.ShloMosaic.Lib.ValueIdx
import proofs.«177027_j7722351198605_2_alg».proof.Proof.LibEdgeIndexOps

noncomputable section

namespace Cert.ScaledAggregation

open Idealize.ShloMosaic Idealize.ShloMosaic.ValueIdx Idealize.ShloMosaic.EdgeIdx

/-! ## A factor in `[0, ⊤)` distributes over finite sums -/

theorem mul_sum_of_nonneg_of_ne_top {ι : Type} (S : Finset ι) (f : ι → EReal) {a : EReal} (h0 : 0 ≤ a) (ht : a ≠ ⊤) :
    a * ∑ i ∈ S, f i = ∑ i ∈ S, a * f i := by
  classical
  induction S using Finset.induction_on with
  | empty => simp
  | insert x S hx ih =>
    rw [Finset.sum_insert hx, Finset.sum_insert hx, EReal.left_distrib_of_nonneg_of_ne_top h0 ht, ih]

/-! ## A scaled accumulating scatter -/

/-- `a` times an accumulating scatter at `i` is the scatter of the scaled operand and updates at `i`; the updates' products
    are needed only for the updates that land on `i`. -/
theorem hostScatterAdd_scale {s si su : Shape} (d : ScatterDims s si su) {w : Nat} (Z Z' : s.Idx → EReal) (idx : IVec si w)
    (U U' : su.Idx → EReal) (i : s.Idx) {a : EReal} (h0 : 0 ≤ a) (ht : a ≠ ⊤) (hZ : a * Z i = Z' i)
    (hU : ∀ j, d.resultIdx? j idx = some i → a * U j = U' j) :
    a * Ideal.hostScatterAdd d Z idx U i = Ideal.hostScatterAdd d Z' idx U' i := by
  unfold Ideal.hostScatterAdd
  rw [EReal.left_distrib_of_nonneg_of_ne_top h0 ht, mul_sum_of_nonneg_of_ne_top _ _ h0 ht, hZ]
  congr 1
  exact Finset.sum_congr rfl fun j hj => hU j (Finset.mem_filter.mp hj).2

/-! ## The node scale lies in `[0, ⊤)` -/

/-- `where (x > 0) (rsqrt x) 0` is a non-negative real for every extended real `x`: `0` unless `x` is positive, and for
    a positive real the inverse of its square root, for `⊤` zero. -/
theorem guardedRsqrt_bounds (x : EReal) :
    0 ≤ Scalar.select (Ideal.cmp .ogt x 0) (Ideal.rsqrt x) 0 ∧ Scalar.select (Ideal.cmp .ogt x 0) (Ideal.rsqrt x) 0 ≠ ⊤ := by
  induction x using EReal.rec with
  | bot =>
    have h : Ideal.cmp .ogt (⊥ : EReal) 0 = 0#1 := by simp [Ideal.cmp]
    rw [h, select_zero]; exact ⟨le_refl _, EReal.zero_ne_top⟩
  | top =>
    have h : Ideal.cmp .ogt (⊤ : EReal) 0 = 1#1 := by simp [Ideal.cmp]
    rw [h, select_one]; exact ⟨le_refl _, EReal.zero_ne_top⟩
  | coe r =>
    by_cases hr : 0 < r
    · have h : Ideal.cmp .ogt ((r : ℝ) : EReal) 0 = 1#1 := by
        simp [Ideal.cmp, hr]
      rw [h, select_one]
      have hv : Ideal.rsqrt ((r : ℝ) : EReal) = (((Real.sqrt r)⁻¹ : ℝ) : EReal) := by
        show (if r < 0 then (⊥ : EReal) else if r = 0 then ⊤ else (((Real.sqrt r)⁻¹ : ℝ) : EReal)) = _
        rw [if_neg (not_lt.mpr hr.le), if_neg hr.ne']
      rw [hv]
      exact ⟨EReal.coe_nonneg.mpr (inv_nonneg.mpr (Real.sqrt_nonneg r)), EReal.coe_ne_top _⟩
    · have h : Ideal.cmp .ogt ((r : ℝ) : EReal) 0 = 0#1 := by
        simp [Ideal.cmp, hr]
      rw [h, select_zero]; exact ⟨le_refl _, EReal.zero_ne_top⟩

/-! ## A gather of single entries of a flat array: operand `[N]`, start indices `[E, 1]`, result `[E]` -/

section FlatGather
variable {α : Type}

/-- The dimension numbers of `x[idx]` for a flat array `x : [N]` at a column of entry numbers. -/
abbrev flatGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The flat gather read at `e`: the operand at the start index `idx[e, 0]`, read signed and clamped into `[0, N − 1]`. -/
theorem flatGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGatherDims N E wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (flatGatherDims N E wf).start (ix1 e) idx 0 + (flatGatherDims N E wf).batchCoord (ix1 e) 0
    + (flatGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N E wf).startIndexMap from List.mem_singleton.mpr rfl)]
  have hsi : (flatGatherDims N E wf).siIdx (ix1 e) ⟨List.idxOf (0 : Fin 1) (flatGatherDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end FlatGather

/-! ## The layer law -/

/-- The node an index word names, read signed and clamped into `[0, N − 1]`. -/
abbrev clampedNode {N E w : Nat} (hN : 0 < N) (idx : IVec ⟨2, ![E, 1]⟩ w) (e : Fin E) : Fin N :=
  ⟨min (idx (ix2 e ⟨0, Nat.one_pos⟩)).toInt.toNat (N - 1), by omega⟩

/-- THE LAW. `U` holds, per edge, the pre-scaled source row; `U'` holds the source row times the edge weight
    `d (source) · d (destination)`; both are scattered by destination into zeros. Then the row-`r` sums differ by the
    factor `d r`. -/
theorem scaled_aggregation {N E C w : Nat} (hN : 0 < N)
    (wfS : ScatterDims.WF ⟨2, ![N, C]⟩ ⟨2, ![E, 1]⟩ ⟨2, ![E, C]⟩ [1] [0] [0] 1)
    (d : Fin N → EReal) (hd : ∀ i, 0 ≤ d i ∧ d i ≠ ⊤) (H : Fin N → Fin C → EReal)
    (src dst : IVec ⟨2, ![E, 1]⟩ w)
    (Z Z' : (⟨2, ![N, C]⟩ : Shape).Idx → EReal) (hZ : ∀ i, Z i = 0) (hZ' : ∀ i, Z' i = 0)
    (U U' : (⟨2, ![E, C]⟩ : Shape).Idx → EReal)
    (hU : ∀ (e : Fin E) (c : Fin C), U (ix2 e c) = d (clampedNode hN src e) * H (clampedNode hN src e) c)
    (hU' : ∀ (e : Fin E) (c : Fin C),
      U' (ix2 e c) = H (clampedNode hN src e) c * (d (clampedNode hN src e) * d (clampedNode hN dst e)))
    (r : Fin N) (c : Fin C) :
    d r * Ideal.hostScatterAdd (rowScatterDims N E C wfS) Z dst U (ix2 r c)
      = Ideal.hostScatterAdd (rowScatterDims N E C wfS) Z' dst U' (ix2 r c) := by
  refine hostScatterAdd_scale _ Z Z' dst U U' (ix2 r c) (hd r).1 (hd r).2 (by rw [hZ, hZ', mul_zero]) fun j hj => ?_
  obtain ⟨e, c', rfl⟩ : ∃ (e : Fin E) (c' : Fin C), j = ix2 e c' := ⟨j 0, j 1, eq_ix2 j⟩
  obtain ⟨hland, rfl⟩ := (rowScatter_resultIdx_eq_some_iff wfS dst e c' r c).mp hj
  have hr : clampedNode hN dst e = r := by
    refine Fin.ext ?_
    show min (dst (ix2 e ⟨0, Nat.one_pos⟩)).toInt.toNat (N - 1) = r.val
    rw [hland]
    have := r.isLt
    simp only [Int.toNat_natCast]
    omega
  rw [hU, hU', hr]
  rw [mul_comm (H _ _), mul_comm (d (clampedNode hN src e)) (d r), mul_assoc]

end Cert.ScaledAggregation

end
-- ==== Proof.HostValues.lean ====
/-
  What the idealized kernel's host operations leave in the buffers its three regions read.

  From the edge list the program builds, once: the edges' source and destination words (each row of the edge list followed
  by the node numbers `0 … N − 1`, the self loops), each turned into a column of start indices in which a negative word has
  the node count added; the degree array (ones scattered by destination into zeros); and the node scale
  `where (deg > 0) (rsqrt deg) 0`, reshaped to a column. Between the regions it gathers the rows of the previous region's
  result at the source column and scatters them, accumulating, into zeros at the destination column (`aggregate`). The
  weights enter each region transposed, the biases as one-row matrices.
  Each lemma below says what one buffer holds when a region is entered, by following the program's operations back from
  that boundary: a buffer no operation of a stretch writes is unchanged across the stretch, a buffer that is not one of a
  region's arrays, or is one of its input arrays, is unchanged across the region.
-/
import proofs.«177027_j7722351198605_2_alg».proof.Proof.Gen.KernelIdeal.Frame
import proofs.«177027_j7722351198605_2_alg».proof.Proof.LibConcatenateCongr
import proofs.«177027_j7722351198605_2_alg».proof.Proof.ScaledAggregation
import Idealize.ShloMosaic.PureOps.Ideal
import Idealize.ShloMosaic.PureOps.Ideal.Laws

set_option maxRecDepth 16384

noncomputable section

namespace Cert.KernelIdeal.HostValues

open Cert.KernelIdeal Cert.KernelIdeal.Gen Idealize.ShloMosaic Idealize.ShloMosaic.TcCoe Idealize.SL.Sem
open Idealize.ShloMosaic.StableHlo

/-! ## The values, as functions of the argument arrays -/

/-- The edges' source words: row 0 of the edge list, then the node numbers. -/
def srcWords (ei : IVec S2x600000 32) : IVec S650000 32 :=
  concatenate S650000 0 [⟨S600000, shapeCast S600000 (extractStridedSlice S1x600000 ![0, 0] ei slices_S2x600000_S1x600000_0_0) shapeCasts_S1x600000_S600000⟩, ⟨S50000, iotaInDim S50000 32 0⟩] concatenates_S600000_S50000_S650000_d0

/-- The edges' destination words: row 1 of the edge list, then the node numbers. -/
def dstWords (ei : IVec S2x600000 32) : IVec S650000 32 :=
  concatenate S650000 0 [⟨S600000, shapeCast S600000 (extractStridedSlice S1x600000 ![1, 0] ei slices_S2x600000_S1x600000_1_0) shapeCasts_S1x600000_S600000⟩, ⟨S50000, iotaInDim S50000 32 0⟩] concatenates_S600000_S50000_S650000_d0

/-- A column of start indices from node words: a negative word has the node count added. -/
def indexColumn (v : IVec S650000 32) : IVec S650000x1 32 :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- The all-zero node array the degrees accumulate into. -/
def zeroNodes : FVec Ideal S50000 .f32 := broadcastInDim S50000 ![] bcast_S_S50000 (constant (F := Ideal) S_ .f32 0x00000000#32)

/-- The degree of every node: ones scattered by destination, accumulating, into zeros. -/
def degree (ei : IVec S2x600000 32) : FVec Ideal S50000 .f32 :=
  Host.scatterAdd (F := Ideal) scatter_S50000_S650000x1_S650000_n_0_0_1 zeroNodes (indexColumn (dstWords ei))
    (broadcastInDim S650000 ![] bcast_S_S650000 (constant (F := Ideal) S_ .f32 0x3F800000#32))

/-- The node scale `where (deg > 0) (rsqrt deg) 0`. -/
def nodeScale (ei : IVec S2x600000 32) : FVec Ideal S50000 .f32 :=
  select (cmpf .ogt (degree ei) zeroNodes) (Host.rsqrt (degree ei)) zeroNodes

/-- The node scale as a column. -/
def scaleColumn (ei : IVec S2x600000 32) : FVec Ideal S50000x1 .f32 :=
  shapeCast S50000x1 (nodeScale ei) shapeCasts_S50000_S50000x1

/-- The all-zero array of node rows the aggregation accumulates into. -/
def zeroRows : FVec Ideal S50000x128 .f32 :=
  broadcastInDim S50000x128 ![] bcast_S_S50000x128 (constant (F := Ideal) S_ .f32 0x00000000#32)

/-- The aggregation: each edge's source row of `P`, scattered by destination, accumulating, into zeros. -/
def aggregate (ei : IVec S2x600000 32) (P : FVec Ideal S50000x128 .f32) : FVec Ideal S50000x128 .f32 :=
  Host.scatterAdd (F := Ideal) scatter_S50000x128_S650000x1_S650000x128_1_0_0_1 zeroRows (indexColumn (dstWords ei))
    (Host.gather gather_S50000x128_S650000x1_S650000x128_1_0_n_n_0_1_1128 P (indexColumn (srcWords ei)))

/-- A layer's weights as the regions read them: transposed. -/
def transposedWeights (W : FVec Ideal S128x128 .f32) : FVec Ideal S128x128 .bf16 :=
  truncf .bf16 (transpose S128x128 [1, 0] W transposes_S128x128_S128x128_1_0) bitsLt_bf16_f32

/-- The head's weights as the last region reads them: transposed. -/
def transposedHead (W : FVec Ideal S40x128 .f32) : FVec Ideal S128x40 .bf16 :=
  truncf .bf16 (transpose S128x40 [1, 0] W transposes_S40x128_S128x40_1_0) bitsLt_bf16_f32

/-- A layer's bias as a one-row matrix. -/
def biasRow (b : FVec Ideal S128 .f32) : FVec Ideal S1x128 .f32 := shapeCast S1x128 b shapeCasts_S128_S1x128

/-- The head's bias as a one-row matrix. -/
def headBiasRow (b : FVec Ideal S40 .f32) : FVec Ideal S1x40 .f32 := shapeCast S1x40 b shapeCasts_S40_S1x40

/-! ## The node scale lies in `[0, ⊤)`, and the zero arrays are zero -/

theorem zeroNodes_apply (i : S50000.Idx) : zeroNodes i = 0 := by
  show Ideal.ofBits .f32 0x00000000#32 = 0
  exact Ideal.ofBits_zero_f32

theorem zeroRows_apply (i : S50000x128.Idx) : zeroRows i = 0 := by
  show Ideal.ofBits .f32 0x00000000#32 = 0
  exact Ideal.ofBits_zero_f32

/-- A guarded inverse square root of arrays, read at an index. -/
theorem guarded_apply (D Z : FVec Ideal S50000 .f32) (i : S50000.Idx) :
    (select (cmpf .ogt D Z) (Host.rsqrt D) Z : FVec Ideal S50000 .f32) i
      = Scalar.select (Ideal.cmp .ogt (D i) (Z i)) (Ideal.rsqrt (D i)) (Z i) := rfl

/-- The node scale is a non-negative real at every node, whatever the degree. -/
theorem nodeScale_bounds (ei : IVec S2x600000 32) (i : S50000.Idx) : 0 ≤ nodeScale ei i ∧ nodeScale ei i ≠ ⊤ := by
  unfold nodeScale
  rw [guarded_apply, zeroNodes_apply]
  exact Cert.ScaledAggregation.guardedRsqrt_bounds _

/-! ## Following a buffer back across a stretch of host operations -/

/-- A buffer that no operation of a literal stretch writes holds after the stretch what it held before. -/
macro "unwritten" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

variable (m : (ℓ : Loc nD τ sig) → Buf (Elt Ideal) ℓ) (ρ : Dev nD → PrngReg)

-- the pass that evaluates a stretch of operations reaches the two joined pieces of a concatenation through this rule
attribute [local congr] Cert.Lib.concatenate_pair_congr

/-! ## Region 0's entry -/

theorem entry0_rows (c : Dev nD) : V3 m ρ c main_arg0 = m ((c : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c : Thread nD τ).loc main_arg0) := rfl

theorem entry0_weights (c : Dev nD) : V3 m ρ c main_v22 = transposedWeights (m ((c : Thread nD τ).loc main_arg2)) := by
  show StableHlo.after hostOps0_2 (StableHlo.after hostOps0_1 (StableHlo.after hostOps0 (W0 m ρ c))) (Proc.devRef .tc main_v22) = _
  after_results_simp
  rfl

/-- The degree array, after the first stretch. -/
theorem stretch0_degree (c : Dev nD) : W1 m ρ c (Proc.devRef .tc main_v15) = degree (m ((c : Thread nD τ).loc main_arg1)) := by
  show StableHlo.after hostOps0 (W0 m ρ c) (Proc.devRef .tc main_v15) = _
  after_results_simp
  rfl

/-- The comparison `deg > 0`, after the first stretch. -/
theorem stretch0_positive (c : Dev nD) :
    W1 m ρ c (Proc.devRef .tc main_v17) = cmpf .ogt (degree (m ((c : Thread nD τ).loc main_arg1))) zeroNodes := by
  show StableHlo.after hostOps0 (W0 m ρ c) (Proc.devRef .tc main_v17) = _
  after_results_simp
  rfl

/-- `rsqrt deg`, after the first stretch. -/
theorem stretch0_rsqrt (c : Dev nD) :
    W1 m ρ c (Proc.devRef .tc main_v18) = Host.rsqrt (degree (m ((c : Thread nD τ).loc main_arg1))) := by
  show StableHlo.after hostOps0 (W0 m ρ c) (Proc.devRef .tc main_v18) = _
  after_results_simp
  rfl

/-- The scalar zero the selection falls back to, after the first stretch. -/
theorem stretch0_zero (c : Dev nD) :
    W1 m ρ c (Proc.devRef .tc main_cst_3) = constant (F := Ideal) S_ .f32 0x00000000#32 := by
  show StableHlo.after hostOps0 (W0 m ρ c) (Proc.devRef .tc main_cst_3) = _
  after_results_simp

/-- The selection `where (deg > 0) (rsqrt deg) 0` over any contents of the three buffers it reads. -/
theorem stretch1_select (Wb : Valuation τ sig (Elt Ideal)) :
    StableHlo.after hostOps0_1 Wb (Proc.devRef .tc main_v19)
      = (select (Wb (Proc.devRef .tc main_v17)) (Wb (Proc.devRef .tc main_v18))
          (broadcastInDim S50000 ![] bcast_S_S50000 (Wb (Proc.devRef .tc main_cst_3))) : FVec Ideal S50000 .f32) := by
  after_results_simp
  rfl

/-- The reshape to a column over any contents of the buffer it reads. -/
theorem stretch2_column (Wb : Valuation τ sig (Elt Ideal)) :
    StableHlo.after hostOps0_2 Wb (Proc.devRef .tc main_v20)
      = (shapeCast S50000x1 (Wb (Proc.devRef .tc main_v19)) shapeCasts_S50000_S50000x1 : FVec Ideal S50000x1 .f32) := by
  after_results_simp
  rfl

theorem entry0_scale (c : Dev nD) : V3 m ρ c main_v20 = scaleColumn (m ((c : Thread nD τ).loc main_arg1)) := by
  show StableHlo.after hostOps0_2 (W2 m ρ c) (Proc.devRef .tc main_v20) = _
  rw [stretch2_column]
  show shapeCast S50000x1 (StableHlo.after hostOps0_1 (W1 m ρ c) (Proc.devRef .tc main_v19)) shapeCasts_S50000_S50000x1 = _
  rw [stretch1_select, stretch0_positive m ρ c, stretch0_rsqrt m ρ c, stretch0_zero m ρ c]
  rfl

/-- The source words, at region 0's entry. -/
theorem entry0_src (c : Dev nD) : V3 m ρ c main_v3 = srcWords (m ((c : Thread nD τ).loc main_arg1)) := by
  show StableHlo.after hostOps0_2 (StableHlo.after hostOps0_1 (StableHlo.after hostOps0 (W0 m ρ c))) (Proc.devRef .tc main_v3) = _
  after_results_simp
  rfl

/-- The destination words, at region 0's entry. -/
theorem entry0_dst (c : Dev nD) : V3 m ρ c main_v6 = dstWords (m ((c : Thread nD τ).loc main_arg1)) := by
  show StableHlo.after hostOps0_2 (StableHlo.after hostOps0_1 (StableHlo.after hostOps0 (W0 m ρ c))) (Proc.devRef .tc main_v6) = _
  after_results_simp
  rfl

/-! ## Across region 0 -/

theorem exit0_src (c : Dev nD) : W4 m ρ c (Proc.devRef .tc main_v3) = srcWords (m ((c : Thread nD τ).loc main_arg1)) :=
  (W4_of_ne m ρ c main_v3 (by decide)).trans (entry0_src m ρ c)

theorem exit0_dst (c : Dev nD) : W4 m ρ c (Proc.devRef .tc main_v6) = dstWords (m ((c : Thread nD τ).loc main_arg1)) :=
  (W4_of_ne m ρ c main_v6 (by decide)).trans (entry0_dst m ρ c)

/-- The scale column is an input array of region 0: the region leaves it as it found it. -/
theorem exit0_scale (c : Dev nD) : W4 m ρ c (Proc.devRef .tc main_v20) = scaleColumn (m ((c : Thread nD τ).loc main_arg1)) :=
  ((W4_arr m ρ c 2).trans (((dat0 (V3 m ρ) c).arrAt_in 2 rfl _).trans (A_eq0 (V3 m ρ) c 2))).trans (entry0_scale m ρ c)

/-- An argument array that region 0 does not touch, at region 0's exit. -/
theorem exit0_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c : Thread nD τ).loc main_arg3) := rfl

theorem exit0_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c : Thread nD τ).loc main_arg4) := rfl

theorem exit0_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c : Thread nD τ).loc main_arg5) := rfl

theorem exit0_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c : Thread nD τ).loc main_arg6) := rfl

theorem exit0_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by unwritten hostOps0_2
    _ = W1 m ρ c (Proc.devRef .tc main_arg7) := by unwritten hostOps0_1
    _ = W0 m ρ c (Proc.devRef .tc main_arg7) := by unwritten hostOps0
    _ = m ((c : Thread nD τ).loc main_arg7) := rfl

/-! ## Region 1's entry -/

/-- The first aggregation, of region 0's result. -/
theorem entry1_aggregated (c : Dev nD) :
    V5 m ρ c main_v38 = aggregate (m ((c : Thread nD τ).loc main_arg1)) (W4 m ρ c (Proc.devRef .tc main_v23)) := by
  show StableHlo.after hostOps1 (W4 m ρ c) (Proc.devRef .tc main_v38) = _
  after_results_simp
  rw [exit0_src m ρ c, exit0_dst m ρ c]
  rfl

theorem entry1_scale (c : Dev nD) : V5 m ρ c main_v20 = scaleColumn (m ((c : Thread nD τ).loc main_arg1)) :=
  calc W5 m ρ c (Proc.devRef .tc main_v20)
    _ = W4 m ρ c (Proc.devRef .tc main_v20) := by unwritten hostOps1
    _ = _ := exit0_scale m ρ c

theorem entry1_bias (c : Dev nD) : V5 m ρ c main_v41 = biasRow (m ((c : Thread nD τ).loc main_arg3)) := by
  show StableHlo.after hostOps1 (W4 m ρ c) (Proc.devRef .tc main_v41) = _
  after_results_simp
  rw [exit0_arg3 m ρ c]
  rfl

theorem entry1_weights (c : Dev nD) : V5 m ρ c main_v40 = transposedWeights (m ((c : Thread nD τ).loc main_arg4)) := by
  show StableHlo.after hostOps1 (W4 m ρ c) (Proc.devRef .tc main_v40) = _
  after_results_simp
  rw [exit0_arg4 m ρ c]
  rfl

/-! ## Across the second stretch and region 1 -/

theorem exit1_src (c : Dev nD) : W6 m ρ c (Proc.devRef .tc main_v3) = srcWords (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by unwritten hostOps1
    _ = _ := exit0_src m ρ c

theorem exit1_dst (c : Dev nD) : W6 m ρ c (Proc.devRef .tc main_v6) = dstWords (m ((c : Thread nD τ).loc main_arg1)) :=
  calc W6 m ρ c (Proc.devRef .tc main_v6)
    _ = W5 m ρ c (Proc.devRef .tc main_v6) := W6_of_ne m ρ c main_v6 (by decide)
    _ = W4 m ρ c (Proc.devRef .tc main_v6) := by unwritten hostOps1
    _ = _ := exit0_dst m ρ c

/-- The scale column is an input array of region 1 too. -/
theorem exit1_scale (c : Dev nD) : W6 m ρ c (Proc.devRef .tc main_v20) = scaleColumn (m ((c : Thread nD τ).loc main_arg1)) :=
  ((W6_arr m ρ c 1).trans (((dat1 (V5 m ρ) c).arrAt_in 1 rfl _).trans (A_eq1 (V5 m ρ) c 1))).trans (entry1_scale m ρ c)

theorem exit1_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := by unwritten hostOps1
    _ = _ := exit0_arg5 m ρ c

theorem exit1_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by unwritten hostOps1
    _ = _ := exit0_arg6 m ρ c

theorem exit1_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by unwritten hostOps1
    _ = _ := exit0_arg7 m ρ c

/-! ## Region 2's entry -/

/-- The second aggregation, of region 1's result. -/
theorem entry2_aggregated (c : Dev nD) :
    V7 m ρ c main_v57 = aggregate (m ((c : Thread nD τ).loc main_arg1)) (W6 m ρ c (Proc.devRef .tc main_v42)) := by
  show StableHlo.after hostOps2 (W6 m ρ c) (Proc.devRef .tc main_v57) = _
  after_results_simp
  rw [exit1_src m ρ c, exit1_dst m ρ c]
  rfl

theorem entry2_scale (c : Dev nD) : V7 m ρ c main_v20 = scaleColumn (m ((c : Thread nD τ).loc main_arg1)) :=
  calc W7 m ρ c (Proc.devRef .tc main_v20)
    _ = W6 m ρ c (Proc.devRef .tc main_v20) := by unwritten hostOps2
    _ = _ := exit1_scale m ρ c

theorem entry2_bias (c : Dev nD) : V7 m ρ c main_v60 = biasRow (m ((c : Thread nD τ).loc main_arg5)) := by
  show StableHlo.after hostOps2 (W6 m ρ c) (Proc.devRef .tc main_v60) = _
  after_results_simp
  rw [exit1_arg5 m ρ c]
  rfl

theorem entry2_weights (c : Dev nD) : V7 m ρ c main_v59 = transposedHead (m ((c : Thread nD τ).loc main_arg6)) := by
  show StableHlo.after hostOps2 (W6 m ρ c) (Proc.devRef .tc main_v59) = _
  after_results_simp
  rw [exit1_arg6 m ρ c]
  rfl

theorem entry2_headBias (c : Dev nD) : V7 m ρ c main_v61 = headBiasRow (m ((c : Thread nD τ).loc main_arg7)) := by
  show StableHlo.after hostOps2 (W6 m ρ c) (Proc.devRef .tc main_v61) = _
  after_results_simp
  rw [exit1_arg7 m ρ c]
  rfl

end Cert.KernelIdeal.HostValues

end
-- ==== Proof.LayerFunctions.lean ====
/-
  The layers of a two-layer graph convolution with a linear head, as functions of arrays of extended reals, index by index.

  With `D` a column of per-node scales (the inverse square roots of the node degrees), `A` a matrix of node rows and `Wt` a
  transposed weight matrix:
  * `scaledProduct D A Wt` has entry `(r, q)` equal to `D[r] · Σ_k A[r, k] · Wt[k, q]`: the rows of a matrix product, each
    scaled by its node's scale;
  * `activation D AGG B` has entry `(r, k)` equal to `max (D[r] · AGG[r, k] + B[k]) 0`: an aggregated row scaled by its
    node's scale, shifted by the bias and rectified;
  * `logits A Wt BL` has entry `(r, q)` equal to `Σ_k A[r, k] · Wt[k, q] + BL[q]`;
  * `logSoftmaxRows Lg` has entry `(r, q)` equal to `(Lg[r, q] − M_r) − log Σ_q' exp (Lg[r, q'] − M_r)`, where `M_r`
    (`rowMax`) is the largest entry of row `r`, taken from `−∞`.
  The number of rows is a parameter: a block of rows of each function is the same function of the blocks.
-/
import Idealize.ShloMosaic.PureOps.Ideal
import Idealize.ShloMosaic.Lib.ValueIdx

noncomputable section

namespace Cert.GraphLayers

open Idealize.ShloMosaic Idealize.ShloMosaic.ValueIdx

/-- The f32 word of `+0.0`, as the extended real it denotes. -/
abbrev zeroWord : EReal := Ideal.ofBits .f32 0x00000000#32

/-- The f32 word of `−∞`, as the extended real it denotes. -/
abbrev negInfWord : EReal := Ideal.ofBits .f32 0xFF800000#32

/-- Rows of a matrix product, each scaled by its node's scale: entry `(r, q)` is `D[r, 0] · Σ_k A[r, k] · Wt[k, q]`. -/
def scaledProduct {R K Q : Nat} (D : (⟨2, ![R, 1]⟩ : Shape).Idx → EReal) (A : (⟨2, ![R, K]⟩ : Shape).Idx → EReal)
    (Wt : (⟨2, ![K, Q]⟩ : Shape).Idx → EReal) : (⟨2, ![R, Q]⟩ : Shape).Idx → EReal :=
  fun i => D (ix2 (⟨(i 0).val, (i 0).isLt⟩ : Fin R) (⟨0, Nat.one_pos⟩ : Fin 1))
    * ∑ k : Fin K, A (ix2 (⟨(i 0).val, (i 0).isLt⟩ : Fin R) k) * Wt (ix2 k (⟨(i 1).val, (i 1).isLt⟩ : Fin Q))

theorem scaledProduct_apply {R K Q : Nat} (D : (⟨2, ![R, 1]⟩ : Shape).Idx → EReal) (A : (⟨2, ![R, K]⟩ : Shape).Idx → EReal)
    (Wt : (⟨2, ![K, Q]⟩ : Shape).Idx → EReal) (r : Fin R) (q : Fin Q) :
    scaledProduct D A Wt (ix2 r q) = D (ix2 r (⟨0, Nat.one_pos⟩ : Fin 1)) * ∑ k : Fin K, A (ix2 r k) * Wt (ix2 k q) := rfl

/-- A layer's activation: entry `(r, k)` is `max (D[r, 0] · AGG[r, k] + B[0, k]) 0`. -/
def activation {R K : Nat} (D : (⟨2, ![R, 1]⟩ : Shape).Idx → EReal) (AGG : (⟨2, ![R, K]⟩ : Shape).Idx → EReal)
    (B : (⟨2, ![1, K]⟩ : Shape).Idx → EReal) : (⟨2, ![R, K]⟩ : Shape).Idx → EReal :=
  fun i => max (D (ix2 (⟨(i 0).val, (i 0).isLt⟩ : Fin R) (⟨0, Nat.one_pos⟩ : Fin 1)) * AGG i
    + B (ix2 (⟨0, Nat.one_pos⟩ : Fin 1) (⟨(i 1).val, (i 1).isLt⟩ : Fin K))) zeroWord

theorem activation_apply {R K : Nat} (D : (⟨2, ![R, 1]⟩ : Shape).Idx → EReal) (AGG : (⟨2, ![R, K]⟩ : Shape).Idx → EReal)
    (B : (⟨2, ![1, K]⟩ : Shape).Idx → EReal) (r : Fin R) (k : Fin K) :
    activation D AGG B (ix2 r k)
      = max (D (ix2 r (⟨0, Nat.one_pos⟩ : Fin 1)) * AGG (ix2 r k) + B (ix2 (⟨0, Nat.one_pos⟩ : Fin 1) k)) zeroWord := rfl

/-- The head's logits: entry `(r, q)` is `Σ_k A[r, k] · Wt[k, q] + BL[0, q]`. -/
def logits {R K Q : Nat} (A : (⟨2, ![R, K]⟩ : Shape).Idx → EReal) (Wt : (⟨2, ![K, Q]⟩ : Shape).Idx → EReal)
    (BL : (⟨2, ![1, Q]⟩ : Shape).Idx → EReal) : (⟨2, ![R, Q]⟩ : Shape).Idx → EReal :=
  fun i => (∑ k : Fin K, A (ix2 (⟨(i 0).val, (i 0).isLt⟩ : Fin R) k) * Wt (ix2 k (⟨(i 1).val, (i 1).isLt⟩ : Fin Q)))
    + BL (ix2 (⟨0, Nat.one_pos⟩ : Fin 1) (⟨(i 1).val, (i 1).isLt⟩ : Fin Q))

theorem logits_apply {R K Q : Nat} (A : (⟨2, ![R, K]⟩ : Shape).Idx → EReal) (Wt : (⟨2, ![K, Q]⟩ : Shape).Idx → EReal)
    (BL : (⟨2, ![1, Q]⟩ : Shape).Idx → EReal) (r : Fin R) (q : Fin Q) :
    logits A Wt BL (ix2 r q) = (∑ k : Fin K, A (ix2 r k) * Wt (ix2 k q)) + BL (ix2 (⟨0, Nat.one_pos⟩ : Fin 1) q) := rfl

/-- The largest entry of row `r`, taken from `−∞`. -/
def rowMax {R Q : Nat} (Lg : (⟨2, ![R, Q]⟩ : Shape).Idx → EReal) (r : Fin R) : EReal :=
  (Finset.univ : Finset (Fin Q)).fold max negInfWord (fun q => Lg (ix2 r q))

/-- Log-softmax along rows: entry `(r, q)` is `(Lg[r, q] − M_r) − log Σ_q' exp (Lg[r, q'] − M_r)`, `M_r` the row's maximum. -/
def logSoftmaxRows {R Q : Nat} (Lg : (⟨2, ![R, Q]⟩ : Shape).Idx → EReal) : (⟨2, ![R, Q]⟩ : Shape).Idx → EReal :=
  fun i => (Lg i - rowMax Lg (⟨(i 0).val, (i 0).isLt⟩ : Fin R))
    - Ideal.log (∑ q : Fin Q, Ideal.exp (Lg (ix2 (⟨(i 0).val, (i 0).isLt⟩ : Fin R) q) - rowMax Lg (⟨(i 0).val, (i 0).isLt⟩ : Fin R)))

theorem logSoftmaxRows_apply {R Q : Nat} (Lg : (⟨2, ![R, Q]⟩ : Shape).Idx → EReal) (r : Fin R) (q : Fin Q) :
    logSoftmaxRows Lg (ix2 r q)
      = (Lg (ix2 r q) - rowMax Lg r) - Ideal.log (∑ q' : Fin Q, Ideal.exp (Lg (ix2 r q') - rowMax Lg r)) := rfl

end Cert.GraphLayers

end
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibColumnCast.lean ====
/-
  A vector reshaped to a column.
-/
import Idealize.ShloMosaic.Lib.Pipeline.Value
import Idealize.ShloMosaic.Lib.ValueIdx

namespace Cert.Lib

open Idealize.ShloMosaic Idealize.ShloMosaic.ValueIdx

/-- An `[a]` array reshaped to the column `[a, 1]` reads, at `(i, u)`, the operand at `i`, whatever the unit
    coordinate `u`: both positions have the same row-major offset `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.RegionScaledProduct.lean ====
/-
  The first kernel region, read as one function of its arrays.

  Each of the region's ten grid points holds rows `5000·t … 5000·t + 4999` of the node array, of the scale column
  and of the output, and the whole transposed weight matrix.  At a point the body writes, at `(p, q)` of its block,
  the node's scale times `Σ_k x[p, k] · w[k, q]`; the ten blocks tile the output array, which therefore ends holding
  `scaledProduct` of the scale column, the node array and the weight matrix.
-/
import proofs.«177027_j7722351198605_2_alg».proof.Proof.Gen.KernelIdeal.Frame
import proofs.«177027_j7722351198605_2_alg».proof.Proof.LayerFunctions
import proofs.«177027_j7722351198605_2_alg».proof.Proof.LibColumnBroadcast
import proofs.«177027_j7722351198605_2_alg».proof.Proof.LibColumnCast
import proofs.«177027_j7722351198605_2_alg».proof.Proof.LibDotSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Cert.GraphLayers
open Idealize.ShloMosaic Idealize.ShloMosaic.TcCoe Idealize.SL.Sem Idealize.ShloMosaic.ValueIdx
open Idealize.ShloMosaic.Pipeline (Dat)

/-! ## The matrix product's operand indices -/

/-- The dimension record of the `[5000,128] · [128,128]` product: axis 1 of the left operand is contracted with
    axis 0 of the right. -/
abbrev rowDot : DotDims S5000x128 S128x128 S5000x128 := dot_S5000x128_S128x128_S5000x128_1_0_0_1_n_n

/-- The left operand's row is the output's row. -/
theorem rowDot_lhs_row (i : S5000x128.Idx) (k : rowDot.contr.Idx) : (rowDot.lhsIdx i k 0).val = (i 0).val := by
  unfold DotDims.lhsIdx
  rw [dif_neg (show ¬(0 : Fin S5000x128.rank) ∈ rowDot.lhsBatch by decide),
    dif_pos (show (0 : Fin S5000x128.rank) ∈ rowDot.lhsNonContracting by decide)]
  rfl

/-- The left operand's column is the contraction position. -/
theorem rowDot_lhs_col (i : S5000x128.Idx) (k : rowDot.contr.Idx) : (rowDot.lhsIdx i k 1).val = (k ⟨0, by decide⟩).val :=
  rowDot.lhsIdx_val_of_single rfl i k

/-- The right operand's row is the contraction position. -/
theorem rowDot_rhs_row (i : S5000x128.Idx) (k : rowDot.contr.Idx) : (rowDot.rhsIdx i k 0).val = (k ⟨0, by decide⟩).val :=
  rowDot.rhsIdx_val_of_single rfl i k

/-- The right operand's column is the output's column. -/
theorem rowDot_rhs_col (i : S5000x128.Idx) (k : rowDot.contr.Idx) : (rowDot.rhsIdx i k 1).val = (i 1).val := by
  unfold DotDims.rhsIdx
  rw [dif_neg (show ¬(1 : Fin S128x128.rank) ∈ rowDot.rhsBatch by decide),
    dif_pos (show (1 : Fin S128x128.rank) ∈ rowDot.rhsNonContracting by decide)]
  rfl

/-- The product into a zero accumulator, at `(p, q)`: `Σ_k a[p, k] · b[k, q]`. -/
theorem matmul_zero_apply (a : FVec Ideal S5000x128 .bf16) (b : FVec Ideal S128x128 .bf16) (p : Fin 5000) (q : Fin 128) :
    (matmul rowDot none a b (constant (F := Ideal) S5000x128 .f32 0x00000000#32) : FVec Ideal S5000x128 .f32) (ix2 p q)
      = ∑ k : Fin 128, a (ix2 p k) * b (ix2 k q) := by
  refine (Ideal.matmul_constant_zero_apply rowDot none a b (ix2 p q)).trans ?_
  refine Cert.LibDotSum.sum_contr_eq rowDot 128 rfl rfl a b (ix2 p q) (fun k => a (ix2 p k)) (fun k => b (ix2 k q))
    (fun k => ?_) (fun k => ?_)
  · have hk := contrEquiv1_symm_val rowDot 128 rfl rfl k
    refine congrArg a (funext fun ax => Fin.ext ?_)
    match ax with
    | ⟨0, _⟩ => exact rowDot_lhs_row _ _
    | ⟨1, _⟩ => exact (rowDot_lhs_col _ _).trans hk
  · have hk := contrEquiv1_symm_val rowDot 128 rfl rfl k
    refine congrArg b (funext fun ax => Fin.ext ?_)
    match ax with
    | ⟨0, _⟩ => exact (rowDot_rhs_row _ _).trans hk
    | ⟨1, _⟩ => exact rowDot_rhs_col _ _

/-! ## The body's payload -/

/-- What the body stores, as a function of the blocks it loads: the scaled product of the 5000 rows of the block. -/
theorem prescaleLinear_eq (x0 : Vec Ideal S5000x128 .f32) (w : Vec Ideal S128x128 .bf16) (d : Vec Ideal S5000x1 .f32) :
    k0_pay1 (F := Ideal) x0 w d = scaledProduct (R := 5000) (K := 128) (Q := 128) d x0 w := by
  funext j
  obtain ⟨p, q, rfl⟩ : ∃ (p : Fin 5000) (q : Fin 128), j = ix2 p q := ⟨j 0, j 1, eq_ix2 j⟩
  unfold k0_pay1
  rw [scaledProduct_apply]
  refine (mulf_apply _ _ _).trans ?_
  congr 1
  · rw [shapeCast_self, shapeCast_self]
    exact Cert.Lib.broadcastTo_a1_ab_apply d _ p q
  · rw [shapeCast_self]
    exact matmul_zero_apply _ _ p q

/-! ## A block of rows of the scaled product -/

/-- Row `p` of the scaled product of blocks is row `r` of the scaled product of the arrays, when row `p` of the scale
    block and of the node block are row `r` of their arrays and the weight block is the weight matrix. -/
theorem scaledProduct_row {D : S50000x1.Idx → EReal} {A : S50000x128.Idx → EReal} {Wt : S128x128.Idx → EReal}
    {dB : S5000x1.Idx → EReal} {aB : S5000x128.Idx → EReal} {wB : S128x128.Idx → EReal}
    (p : Fin 5000) (r : Fin 50000) (q : Fin 128)
    (hd : dB (ix2 p (⟨0, Nat.one_pos⟩ : Fin 1)) = D (ix2 r (⟨0, Nat.one_pos⟩ : Fin 1)))
    (ha : ∀ k : Fin 128, aB (ix2 p k) = A (ix2 r k)) (hw : ∀ k : Fin 128, wB (ix2 k q) = Wt (ix2 k q)) :
    scaledProduct (R := 5000) (K := 128) (Q := 128) dB aB wB (ix2 p q)
      = scaledProduct (R := 50000) (K := 128) (Q := 128) D A Wt (ix2 r q) := by
  rw [scaledProduct_apply, scaledProduct_apply, hd]
  congr 1
  exact Finset.sum_congr rfl fun k _ => by rw [ha k, hw k]

/-! ## The windows' blocks at a grid point -/

section Region
variable (V : (c : Dev nD) → (b : Ref sig .tc) → Buf (Elt Ideal) ((c : Thread nD τ).loc b))

theorem zeroOffsets : (![0, 0] : Fin 2 → Nat) = fun _ => 0 := funext fun a => by fin_cases a <;> rfl

/-- The block indices, decided over the ten grid points: the node, scale and output windows are at block row `t`,
    block column `0`; the weight window is at block `(0, 0)` throughout. -/
theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The node window's block at point `t` holds rows `5000·t …` of the node array. -/
theorem nodeBlock_apply (c : Dev nD) (t : Fin cfg0.N) (p : Fin 5000) (k : Fin 128) (r : Fin 50000)
    (hr : r.val = 5000 * t.val + p.val) :
    (iblk0 V c 0 t : Vec Ideal S5000x128 .f32) (ix2 p k) = (V c main_arg0 : S50000x128.Idx → EReal) (ix2 r k) := by
  obtain ⟨e0, e1, -, -, -, -, -, -⟩ := blockIndex_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight window's block is the weight matrix at every point. -/
theorem weightBlock_apply (c : Dev nD) (t : Fin cfg0.N) (k : Fin 128) (q : Fin 128) :
    (iblk0 V c 1 t : Vec Ideal S128x128 .bf16) (ix2 k q) = (V c main_v22 : S128x128.Idx → EReal) (ix2 k q) := by
  obtain ⟨-, -, e0, e1, -, -, -, -⟩ := blockIndex_facts t
  unfold iblk0
  rw [View.read_apply]
  show V c main_v22 _ = V c main_v22 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- The scale window's block at point `t` holds rows `5000·t …` of the scale column. -/
theorem scaleBlock_apply (c : Dev nD) (t : Fin cfg0.N) (p : Fin 5000) (r : Fin 50000)
    (hr : r.val = 5000 * t.val + p.val) :
    (iblk0 V c 2 t : Vec Ideal S5000x1 .f32) (ix2 p (⟨0, Nat.one_pos⟩ : Fin 1))
      = (V c main_v20 : S50000x1.Idx → EReal) (ix2 r (⟨0, Nat.one_pos⟩ : Fin 1)) := by
  obtain ⟨-, -, -, -, e0, e1, -, -⟩ := blockIndex_facts t
  unfold iblk0
  rw [View.read_apply]
  show V c main_v20 _ = V c main_v20 _
  congr 1
  funext a
  apply Fin.ext
  match a with
  | ⟨0, _⟩ => show win0_2.index t (0 : Fin 2) * 5000 + 1 * p.val = r.val; omega
  | ⟨1, _⟩ => show win0_2.index t (1 : Fin 2) * 1 + 1 * 0 = 0; omega

/-- Where row `p`, column `q` of the output window's block at point `t` sits in the output array. -/
theorem outBlock_emb (t : Fin cfg0.N) (p : Fin 5000) (q : Fin 128) (r : Fin 50000) (hr : r.val = 5000 * t.val + p.val) :
    ((cfg0.win 3).blk t).view.emb (ix2 p q : S5000x128.Idx) = (ix2 r q : S50000x128.Idx) := by
  obtain ⟨-, -, -, -, -, -, e0, e1⟩ := blockIndex_facts t
  funext a
  apply Fin.ext
  match a with
  | ⟨0, _⟩ => show win0_3.index t (0 : Fin 2) * 5000 + 1 * p.val = r.val; omega
  | ⟨1, _⟩ => show win0_3.index t (1 : Fin 2) * 128 + 1 * q.val = q.val; omega

/-! ## What a point writes back -/

/-- Point `t` writes back block `t` of the scaled product of the arrays as the region finds them. -/
theorem flushed_eq (c : Dev nD) (t : Fin cfg0.N) :
    (dat0 (F := Ideal) V c).flushed 3 t
      = ((cfg0.win 3).blk t).view.read (Elt Ideal)
          (scaledProduct (R := 50000) (K := 128) (Q := 128) (V c main_v20) (V c main_arg0) (V c main_v22)) := by
  show (cfg0.win 3).cut (grid0.coords t) ((dat0 (F := Ideal) V c).after 3 t) = _
  rw [after0_3]
  unfold out0_3
  rw [View.canon_unit_zero zeroOffsets]
  simp only [View.ld_unit_zero (S := S5000x128) zeroOffsets, View.ld_unit_zero (S := S128x128) zeroOffsets,
    View.ld_unit_zero (S := S5000x1) zeroOffsets]
  rw [prescaleLinear_eq]
  refine funext fun (j : S5000x128.Idx) => ?_
  obtain ⟨p, q, rfl⟩ : ∃ (p : Fin 5000) (q : Fin 128), j = ix2 p q := ⟨j 0, j 1, eq_ix2 j⟩
  have hlt : 5000 * t.val + p.val < 50000 := by
    have ht : t.val < 10 := lt_of_lt_of_eq t.isLt N_0
    have hp := p.isLt
    omega
  rw [View.read_apply, outBlock_emb t p q ⟨5000 * t.val + p.val, hlt⟩ rfl]
  exact scaledProduct_row p ⟨5000 * t.val + p.val, hlt⟩ q (scaleBlock_apply V c t p _ rfl)
    (fun k => nodeBlock_apply V c t p k _ rfl) (fun k => weightBlock_apply V c t k q)

/-! ## The blocks tile the output array -/

/-- An index of the output array is in point `t`'s block iff each coordinate is in the block's range on its axis. -/
theorem mem_outBlock (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v23).slice (win0_3.rect t)).set ↔ _
  rw [View.set_slice_whole, Rect.mem_set_unit]
  exact Iff.rfl

/-- Row `r` of the output array is in the block of point `r / 5000`, which is written back. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, -, e0, e1⟩ := blockIndex_facts ⟨(i 0).val / 5000, ht⟩
  have e0' : win0_3.index ⟨(i 0).val / 5000, ht⟩ (0 : Fin 2) = (i 0).val / 5000 := e0
  refine ⟨⟨(i 0).val / 5000, ht⟩, flush0_3 _, ?_⟩
  rw [mem_outBlock]
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e0']; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e1]; omega

/-! ## The output array after the region -/

/-- After the last point the output array holds the scaled product of the scale column, the node array and the
    weight matrix as the region finds them. -/
theorem final0 (c : Dev nD) :
    (dat0 (F := Ideal) V c).arrAt 3 cfg0.N
      = scaledProduct (R := 50000) (K := 128) (Q := 128) (V c main_v20) (V c main_arg0) (V c main_v22) :=
  (dat0 (F := Ideal) V c).arrAt_eq_of_cover 3
    (scaledProduct (R := 50000) (K := 128) (Q := 128) (V c main_v20) (V c main_arg0) (V c main_v22))
    (fun t _ => flushed_eq V c t) cover

end Region

end Cert.KernelIdeal.RegionValue

end
-- ==== Proof.RegionHiddenLayer.lean ====
/-
  The hidden layer of the graph convolution, from its blocks of rows to the whole array.

  The region works on ten blocks of 5000 node rows. On a block it takes the aggregated rows `a`, the block `d` of the
  node-scale column, the bias row `b` and the transposed weights `w`, and leaves
  `d[p] · Σ_k max (d[p] · a[p, k] + b[k]) 0 · w[k, q]` at `(p, q)`: the rows of `activation d a b · w`, each scaled by its
  node's scale (`pay1_eq`). Block `t` of each row-blocked array holds rows `5000 t … 5000 t + 4999`, and the bias row and
  the weights are whole at every point, so what point `t` writes back is block `t` of the same function of the whole arrays
  (`flushed1_eq`); row `r` lies in the block of point `r / 5000`, so the ten blocks cover the array (`cover1`) and the
  array ends holding that function (`final1`).
-/
import proofs.«177027_j7722351198605_2_alg».proof.Proof.Gen.KernelIdeal.Frame
import proofs.«177027_j7722351198605_2_alg».proof.Proof.LayerFunctions
import proofs.«177027_j7722351198605_2_alg».proof.Proof.LibColumnBroadcast
import proofs.«177027_j7722351198605_2_alg».proof.Proof.LibColumnCast
import proofs.«177027_j7722351198605_2_alg».proof.Proof.LibDotSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Cert.GraphLayers Idealize.ShloMosaic Idealize.ShloMosaic.TcCoe Idealize.SL.Sem Idealize.ShloMosaic.ValueIdx
open Idealize.ShloMosaic.Pipeline (Dat)

/-! ## The block payload, entry by entry -/

/-- The node-scale column, cast to itself twice and broadcast along the rows, read at `(p, q)`: the column's entry in row `p`. -/
theorem scaleColumn1_apply (d : Vec Ideal S5000x1 .f32) (p : Fin 5000) (q : Fin 128) :
    broadcastTo S5000x128 (shapeCast S5000x1 (shapeCast S5000x1 d shapeCasts_S5000x1_S5000x1) shapeCasts_S5000x1_S5000x1)
        broadcasts_S5000x1_S5000x128 (ix2 p q)
      = d (ix2 p (⟨0, Nat.one_pos⟩ : Fin 1)) := by
  rw [shapeCast_self, shapeCast_self]
  exact Cert.Lib.broadcastTo_a1_ab_apply d broadcasts_S5000x1_S5000x128 p q

/-- The bias row, cast to itself twice and broadcast over the rows, read at `(p, q)`: the row's entry in column `q`. -/
theorem biasRow1_apply (b : Vec Ideal S1x128 .f32) (p : Fin 5000) (q : Fin 128) :
    broadcastTo S5000x128 (shapeCast S1x128 (shapeCast S1x128 b shapeCasts_S1x128_S1x128) shapeCasts_S1x128_S1x128)
        broadcasts_S1x128_S5000x128 (ix2 p q)
      = b (ix2 (⟨0, Nat.one_pos⟩ : Fin 1) q) := by
  rw [shapeCast_self, shapeCast_self]
  exact broadcastTo_1b_ab_apply b broadcasts_S1x128_S5000x128 p q

/-- The rectified, shifted, scaled block, narrowed (the identity on extended reals), read at `(p, k)`: the activation there. -/
theorem hidden1_apply (a : Vec Ideal S5000x128 .f32) (d : Vec Ideal S5000x1 .f32) (b : Vec Ideal S1x128 .f32)
    (p : Fin 5000) (k : Fin 128) :
    (truncf .bf16
        (maximumf
          (addf
            (mulf
              (broadcastTo S5000x128
                (shapeCast S5000x1 (shapeCast S5000x1 d shapeCasts_S5000x1_S5000x1) shapeCasts_S5000x1_S5000x1)
                broadcasts_S5000x1_S5000x128)
              (shapeCast S5000x128 a shapeCasts_S5000x128_S5000x128))
            (broadcastTo S5000x128
              (shapeCast S1x128 (shapeCast S1x128 b shapeCasts_S1x128_S1x128) shapeCasts_S1x128_S1x128)
              broadcasts_S1x128_S5000x128))
          (broadcast S5000x128 (Scalar.ofBits (F := Ideal) .f32 0x00000000#32)))
        bitsLt_bf16_f32 : FVec Ideal S5000x128 .bf16) (ix2 p k)
      = activation (R := 5000) (K := 128) d a b (ix2 p k) := by
  rw [activation_apply]
  refine (truncf_apply _ bitsLt_bf16_f32 (ix2 p k)).trans ?_
  refine (maximumf_apply _ _ (ix2 p k)).trans ?_
  refine congrArg₂ max ?_ rfl
  refine (addf_apply _ _ (ix2 p k)).trans ?_
  refine congrArg₂ (· + ·) ?_ (biasRow1_apply b p k)
  refine (mulf_apply _ _ (ix2 p k)).trans ?_
  refine congrArg₂ (· * ·) (scaleColumn1_apply d p k) ?_
  rw [shapeCast_self]

/-- The left operand's index of the block's matrix product: row of the output index, … -/
theorem dotLhs1_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … column the contraction position. -/
theorem dotLhs1_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's index: row the contraction position, … -/
theorem dotRhs1_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … column that of the output index. -/
theorem dotRhs1_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- At output index `(p, q)` and contraction coordinate `k` the left operand is read at `(p, k)` … -/
theorem dotLhs1_eq (p : Fin 5000) (q : Fin 128) (k : Fin 128) :
    dot_S5000x128_S128x128_S5000x128_1_0_0_1_n_n.lhsIdx (ix2 p q)
        ((contrEquiv1 dot_S5000x128_S128x128_S5000x128_1_0_0_1_n_n 128 rfl rfl).symm k) = ix2 p k :=
  funext fun a => Fin.ext (by
    have hk := contrEquiv1_symm_val dot_S5000x128_S128x128_S5000x128_1_0_0_1_n_n 128 rfl rfl k
    match a with
    | ⟨0, _⟩ => exact dotLhs1_0 _ _
    | ⟨1, _⟩ => exact (dotLhs1_1 _ _).trans hk)
/-- … and the right operand at `(k, q)`. -/
theorem dotRhs1_eq (p : Fin 5000) (q : Fin 128) (k : Fin 128) :
    dot_S5000x128_S128x128_S5000x128_1_0_0_1_n_n.rhsIdx (ix2 p q)
        ((contrEquiv1 dot_S5000x128_S128x128_S5000x128_1_0_0_1_n_n 128 rfl rfl).symm k) = ix2 k q :=
  funext fun a => Fin.ext (by
    have hk := contrEquiv1_symm_val dot_S5000x128_S128x128_S5000x128_1_0_0_1_n_n 128 rfl rfl k
    match a with
    | ⟨0, _⟩ => exact (dotRhs1_0 _ _).trans hk
    | ⟨1, _⟩ => exact dotRhs1_1 _ _)

/-- THE BLOCK PAYLOAD: of an aggregated block `a`, the block `d` of the node-scale column, the bias row `b` and the
    transposed weights `w`, the rows of `activation d a b · w`, each scaled by its node's scale. -/
theorem pay1_eq (a : Vec Ideal S5000x128 .f32) (d : Vec Ideal S5000x1 .f32) (b : Vec Ideal S1x128 .f32)
    (w : Vec Ideal S128x128 .bf16) :
    k1_pay1 (F := Ideal) a d b w
      = scaledProduct (R := 5000) (K := 128) (Q := 128) d (activation (R := 5000) (K := 128) d a b) w := by
  funext j
  obtain ⟨p, q, rfl⟩ : ∃ (p : Fin 5000) (q : Fin 128), j = ix2 p q := ⟨j 0, j 1, eq_ix2 j⟩
  rw [scaledProduct_apply]
  unfold k1_pay1
  refine (mulf_apply _ _ (ix2 p q)).trans ?_
  refine congrArg₂ (· * ·) (scaleColumn1_apply d p q) ?_
  refine (Ideal.matmul_constant_zero_apply dot_S5000x128_S128x128_S5000x128_1_0_0_1_n_n none _ _ (ix2 p q)).trans ?_
  refine Cert.LibDotSum.sum_contr_eq dot_S5000x128_S128x128_S5000x128_1_0_0_1_n_n 128 rfl rfl _ _ (ix2 p q)
    (fun k => activation (R := 5000) (K := 128) d a b (ix2 p k)) (fun k => w (ix2 k q)) (fun k => ?_) (fun k => ?_)
  · rw [dotLhs1_eq p q k]
    exact hidden1_apply a d b p k
  · rw [dotRhs1_eq p q k, shapeCast_self]

/-! ## From the blocks to the array -/

/-- A block of rows of the layer is the layer of the blocks: if the blocks `d`, `a` hold the rows `row p` of the arrays
    `D`, `A`, and `b`, `w` are all of `B`, `W`, then entry `(p, q)` of the block's layer is entry `(row p, q)` of the array's. -/
theorem layerOfBlocks1 (D : S50000x1.Idx → EReal) (A : S50000x128.Idx → EReal) (B : S1x128.Idx → EReal)
    (W : S128x128.Idx → EReal) (d : S5000x1.Idx → EReal) (a : S5000x128.Idx → EReal) (b : S1x128.Idx → EReal)
    (w : S128x128.Idx → EReal) (row : Fin 5000 → Fin 50000)
    (hd : ∀ p : Fin 5000, d (ix2 p (⟨0, Nat.one_pos⟩ : Fin 1)) = D (ix2 (row p) (⟨0, Nat.one_pos⟩ : Fin 1)))
    (ha : ∀ (p : Fin 5000) (k : Fin 128), a (ix2 p k) = A (ix2 (row p) k))
    (hb : ∀ k : Fin 128, b (ix2 (⟨0, Nat.one_pos⟩ : Fin 1) k) = B (ix2 (⟨0, Nat.one_pos⟩ : Fin 1) k))
    (hw : ∀ k q : Fin 128, w (ix2 k q) = W (ix2 k q)) (p : Fin 5000) (q : Fin 128) :
    scaledProduct (R := 5000) (K := 128) (Q := 128) d (activation (R := 5000) (K := 128) d a b) w (ix2 p q)
      = scaledProduct (R := 50000) (K := 128) (Q := 128) D (activation (R := 50000) (K := 128) D A B) W (ix2 (row p) q) := by
  rw [scaledProduct_apply, scaledProduct_apply, hd p]
  refine congrArg _ (Finset.sum_congr rfl fun k _ => ?_)
  rw [activation_apply, activation_apply, hd p, ha p k, hb k, hw k q]

section Region
variable (V : (c : Dev nD) → (b : Ref sig .tc) → Buf (Elt Ideal) ((c : Thread nD τ).loc b))

/-- The zero offsets of a whole-buffer access, as the constant function. -/
theorem zeroOffsets1 : (![0, 0] : Fin 2 → Nat) = fun _ => 0 := funext fun a => by fin_cases a <;> rfl

/-- The index maps over the grid: at point `t` the row-blocked windows (aggregated rows, node scales, output) are at block
    row `t`, block column `0`; the bias row and the weights are at block `(0, 0)`. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The grid has ten points. -/
theorem point_lt1 (t : Fin cfg1.N) : t.val < 10 := by
  have h : t.val < grid1.N := t.isLt
  rw [N_1] at h; exact h

/-- Entry `(p, k)` of the aggregated block at point `t` is row `5000 t + p` of the aggregated array. -/
theorem aggBlock1_apply (c : Dev nD) (t : Fin cfg1.N) (p : Fin 5000) (k : Fin 128) (h : t.val * 5000 + p.val < 50000) :
    iblk1 (F := Ideal) V c 0 t (ix2 p k) = V c main_v38 (ix2 (⟨t.val * 5000 + p.val, h⟩ : Fin 50000) k) := by
  obtain ⟨e0, e1, -⟩ := blockIndex1 t
  show V c main_v38 (((cfg1.win 0).blk t).view.emb (ix2 p k)) = _
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

/-- Entry `(p, 0)` of the node-scale block at point `t` is row `5000 t + p` of the node-scale column. -/
theorem scaleBlock1_apply (c : Dev nD) (t : Fin cfg1.N) (p : Fin 5000) (h : t.val * 5000 + p.val < 50000) :
    iblk1 (F := Ideal) V c 1 t (ix2 p (⟨0, Nat.one_pos⟩ : Fin 1))
      = V c main_v20 (ix2 (⟨t.val * 5000 + p.val, h⟩ : Fin 50000) (⟨0, Nat.one_pos⟩ : Fin 1)) := by
  obtain ⟨-, -, e0, e1, -⟩ := blockIndex1 t
  show V c main_v20 (((cfg1.win 1).blk t).view.emb (ix2 p (⟨0, Nat.one_pos⟩ : Fin 1))) = _
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 1 + 1 * 0 = 0; rw [e1]

/-- The bias window's block at any point is the whole bias row. -/
theorem biasBlock1_apply (c : Dev nD) (t : Fin cfg1.N) (k : Fin 128) :
    iblk1 (F := Ideal) V c 2 t (ix2 (⟨0, Nat.one_pos⟩ : Fin 1) k) = V c main_v41 (ix2 (⟨0, Nat.one_pos⟩ : Fin 1) k) := by
  obtain ⟨-, -, -, -, e0, e1, -⟩ := blockIndex1 t
  show V c main_v41 (((cfg1.win 2).blk t).view.emb (ix2 (⟨0, Nat.one_pos⟩ : Fin 1) k)) = _
  refine congrArg _ (funext fun a => Fin.ext ?_)
  match a with
  | ⟨0, _⟩ => show win1_2.index t (0 : Fin 2) * 1 + 1 * 0 = 0; rw [e0]
  | ⟨1, _⟩ => show win1_2.index t (1 : Fin 2) * 128 + 1 * k.val = k.val; rw [e1]; omega

/-- The weight window's block at any point is the whole weight matrix. -/
theorem weightBlock1_apply (c : Dev nD) (t : Fin cfg1.N) (k q : Fin 128) :
    iblk1 (F := Ideal) V c 3 t (ix2 k q) = V c main_v40 (ix2 k q) := by
  obtain ⟨-, -, -, -, -, -, e0, e1, -⟩ := blockIndex1 t
  show V c main_v40 (((cfg1.win 3).blk t).view.emb (ix2 k q)) = _
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- Entry `(p, q)` of the output block at point `t` sits at row `5000 t + p`, column `q` of the output array. -/
theorem outBlock1_emb (t : Fin cfg1.N) (p : Fin 5000) (q : Fin 128) (h : t.val * 5000 + p.val < 50000) :
    ((cfg1.win 4).blk t).view.emb (ix2 p q) = ix2 (⟨t.val * 5000 + p.val, h⟩ : Fin 50000) q := by
  obtain ⟨-, -, -, -, -, -, -, -, e0, e1⟩ := blockIndex1 t
  refine funext fun a => Fin.ext ?_
  match a with
  | ⟨0, _⟩ => show win1_4.index t (0 : Fin 2) * 5000 + 1 * p.val = t.val * 5000 + p.val; rw [e0]; omega
  | ⟨1, _⟩ => show win1_4.index t (1 : Fin 2) * 128 + 1 * q.val = q.val; rw [e1]; omega

/-- WHAT POINT `t` WRITES BACK is block `t` of the hidden layer of the arrays as the region finds them. -/
theorem flushed1_eq (c : Dev nD) (t : Fin cfg1.N) :
    (dat1 (F := Ideal) V c).flushed 4 t
      = ((cfg1.win 4).blk t).view.read (Elt Ideal)
          (scaledProduct (R := 50000) (K := 128) (Q := 128) (V c main_v20)
            (activation (R := 50000) (K := 128) (V c main_v20) (V c main_v38) (V c main_v41)) (V c main_v40)) := by
  show (cfg1.win 4).cut (grid1.coords t) ((dat1 V c).after 4 t) = _
  rw [after1_4]
  unfold out1_4
  rw [View.canon_unit_zero zeroOffsets1]
  simp only [View.ld_unit_zero (S := S5000x128) zeroOffsets1, View.ld_unit_zero (S := S5000x1) zeroOffsets1,
    View.ld_unit_zero (S := S1x128) zeroOffsets1, View.ld_unit_zero (S := S128x128) zeroOffsets1]
  rw [pay1_eq]
  funext j
  obtain ⟨p, q, rfl⟩ : ∃ (p : Fin 5000) (q : Fin 128), j = ix2 p q := ⟨j 0, j 1, eq_ix2 j⟩
  have ht : t.val < 10 := point_lt1 t
  have hrow : ∀ p : Fin 5000, t.val * 5000 + p.val < 50000 := fun p => by have := p.isLt; omega
  refine (layerOfBlocks1 (V c main_v20) (V c main_v38) (V c main_v41) (V c main_v40) _ _ _ _
    (fun p => ⟨t.val * 5000 + p.val, hrow p⟩)
    (fun p => scaleBlock1_apply V c t p (hrow p)) (fun p k => aggBlock1_apply V c t p k (hrow p))
    (fun k => biasBlock1_apply V c t k) (fun k q => weightBlock1_apply V c t k q) p q).trans ?_
  exact congrArg _ (outBlock1_emb t p q (hrow p)).symm

/-- An index of the array is in point `t`'s block iff each coordinate is in the block's range on its axis. -/
theorem mem_block1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v42).slice (win1_4.rect t)).set ↔ _
  rw [View.set_slice_whole, Rect.mem_set_unit]
  exact Iff.rfl

/-- THE BLOCKS COVER THE ARRAY: row `r` is in the block of point `r / 5000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 5000 < cfg1.N := by
    show (i 0).val / 5000 < grid1.N
    rw [N_1]; omega
  refine ⟨⟨(i 0).val / 5000, ht⟩, flush1_4 _, ?_⟩
  rw [mem_block1]
  obtain ⟨-, -, -, -, -, -, -, -, e0, e1⟩ := blockIndex1 ⟨(i 0).val / 5000, ht⟩
  have e0' : win1_4.index ⟨(i 0).val / 5000, ht⟩ (0 : Fin 2) = (i 0).val / 5000 := e0
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e0']; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e1]; omega

/-- THE OUTPUT ARRAY after the region: the hidden layer of the arrays as the region finds them — the rows of
    `activation · weights`, each scaled by its node's scale. -/
theorem final1 (c : Dev nD) :
    (dat1 (F := Ideal) V c).arrAt 4 cfg1.N
      = scaledProduct (R := 50000) (K := 128) (Q := 128) (V c main_v20)
          (activation (R := 50000) (K := 128) (V c main_v20) (V c main_v38) (V c main_v41)) (V c main_v40) :=
  (dat1 V c).arrAt_eq_of_cover 4 _ (fun t _ => flushed1_eq V c t) cover1

end Region

end Cert.KernelIdeal.RegionValue

end
-- ==== Proof.RegionLogSoftmax.lean ====
/-
  The third kernel region: the classifier head with its row-wise log-softmax.

  Each grid point holds a block of 5000 node rows.  On a block the body computes the layer's activation
  (the aggregated rows scaled by the node scales, shifted by the bias row and rectified), multiplies it by the
  head's weight block, adds the head's bias row, and then, row by row, subtracts the row maximum and the logarithm
  of the row's sum of exponentials.  Rows do not interact, so the block of the log-softmax of the whole array is the
  log-softmax of the block, and the ten blocks tile the 50000 rows of the output array.
-/
import proofs.«177027_j7722351198605_2_alg».proof.Proof.Gen.KernelIdeal.Frame
import proofs.«177027_j7722351198605_2_alg».proof.Proof.LayerFunctions
import proofs.«177027_j7722351198605_2_alg».proof.Proof.LibColumnBroadcast
import proofs.«177027_j7722351198605_2_alg».proof.Proof.LibColumnCast
import proofs.«177027_j7722351198605_2_alg».proof.Proof.LibDotSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RegionValue

open Cert.KernelIdeal Cert.KernelIdeal.Gen Cert.GraphLayers Idealize.ShloMosaic Idealize.ShloMosaic.TcCoe Idealize.SL.Sem Idealize.ShloMosaic.ValueIdx
open Idealize.ShloMosaic.Pipeline (Dat)

/-! ## The body's payload on a block of rows -/

/-- The index of the logits block that a row `p` and a coordinate `k` of the reduced axis name. -/
theorem lift2_eq (p : Fin 5000) (k : Fin 40) : reduces_S5000x40_S5000.lift (ix1 p) k = ix2 p k := by
  funext ax; apply Fin.ext
  match ax with
  | ⟨0, _⟩ => rfl
  | ⟨1, _⟩ => rfl

/-- The maximum along axis 1, from `−∞`, read at row `p`: the row's maximum. -/
theorem rowMax2_apply (Lg : FVec Ideal S5000x40 .f32) (p : Fin 5000) :
    multiReduction (F := Ideal) .maximumf [1] S5000 Lg 0xFF800000#32 reduces_S5000x40_S5000 (.inl rfl) rfl (ix1 p)
      = rowMax (R := 5000) (Q := 40) Lg p := by
  refine (Ideal.multiReduction_maximumf_single Lg 0xFF800000#32 reduces_S5000x40_S5000 (.inl rfl) rfl (ix1 p)).trans ?_
  unfold rowMax
  exact congrArg (fun f => (Finset.univ : Finset (Fin 40)).fold max negInfWord f)
    (funext fun q => congrArg Lg (lift2_eq p q))

/-- The sum along axis 1 read at row `p`: the row's sum. -/
theorem rowSum2_apply (E : FVec Ideal S5000x40 .f32) (p : Fin 5000) :
    multiReduction (F := Ideal) .add [1] S5000 E 0x00000000#32 reduces_S5000x40_S5000 (.inl rfl) rfl (ix1 p)
      = ∑ q : Fin 40, E (ix2 p q) := by
  refine (Ideal.multiReduction_add_single E 0x00000000#32 reduces_S5000x40_S5000 (.inl rfl) rfl (ix1 p)).trans ?_
  exact Finset.sum_congr rfl fun q _ => congrArg E (lift2_eq p q)

/-- A vector of per-row values, reshaped to a column and broadcast along the rows, reads at `(p, q)` the value of row `p`. -/
theorem rowBroadcast2_apply (m : FVec Ideal S5000 .f32) (p : Fin 5000) (q : Fin 40) :
    broadcastTo S5000x40 (shapeCast S5000x1 m shapeCasts_S5000_S5000x1) broadcasts_S5000x1_S5000x40 (ix2 p q) = m (ix1 p) :=
  (Cert.Lib.broadcastTo_a1_ab_apply _ broadcasts_S5000x1_S5000x40 p q).trans
    (Cert.Lib.shapeCast_a_a1_apply m shapeCasts_S5000_S5000x1 p 0)

/-- The same with the logarithm taken on the column. -/
theorem rowLogBroadcast2_apply (s : FVec Ideal S5000 .f32) (p : Fin 5000) (q : Fin 40) :
    broadcastTo S5000x40 (log (shapeCast S5000x1 s shapeCasts_S5000_S5000x1)) broadcasts_S5000x1_S5000x40 (ix2 p q)
      = Ideal.log (s (ix1 p)) :=
  (Cert.Lib.broadcastTo_a1_ab_apply _ broadcasts_S5000x1_S5000x40 p q).trans
    (congrArg Ideal.log (Cert.Lib.shapeCast_a_a1_apply s shapeCasts_S5000_S5000x1 p 0))

/-- The activation stage of the body on a block of rows: the aggregated rows `a` times the node-scale column `d`, plus the bias
    row `b`, rectified, then narrowed (the identity on extended reals). -/
def blockActivation2 (a : FVec Ideal S5000x128 .f32) (d : FVec Ideal S5000x1 .f32) (b : FVec Ideal S1x128 .f32) :
    FVec Ideal S5000x128 .bf16 :=
  have a' : FVec Ideal S5000x128 .f32 := shapeCast S5000x128 a shapeCasts_S5000x128_S5000x128
  have d1 : FVec Ideal S5000x1 .f32 := shapeCast S5000x1 d shapeCasts_S5000x1_S5000x1
  have d2 : FVec Ideal S5000x1 .f32 := shapeCast S5000x1 d1 shapeCasts_S5000x1_S5000x1
  have dB : FVec Ideal S5000x128 .f32 := broadcastTo S5000x128 d2 broadcasts_S5000x1_S5000x128
  have b1 : FVec Ideal S1x128 .f32 := shapeCast S1x128 b shapeCasts_S1x128_S1x128
  have b2 : FVec Ideal S1x128 .f32 := shapeCast S1x128 b1 shapeCasts_S1x128_S1x128
  have bB : FVec Ideal S5000x128 .f32 := broadcastTo S5000x128 b2 broadcasts_S1x128_S5000x128
  have z : Ideal .f32 := Scalar.ofBits .f32 0x00000000#32
  truncf .bf16 (maximumf (addf (mulf dB a') bB) (broadcast S5000x128 z)) bitsLt_bf16_f32

theorem blockActivation2_eq (a : FVec Ideal S5000x128 .f32) (d : FVec Ideal S5000x1 .f32) (b : FVec Ideal S1x128 .f32) :
    blockActivation2 a d b = activation (R := 5000) (K := 128) d a b := by
  funext j
  obtain ⟨p, k, rfl⟩ : ∃ (p : Fin 5000) (k : Fin 128), j = ix2 p k := ⟨j 0, j 1, eq_ix2 j⟩
  unfold blockActivation2
  simp only [shapeCast_self]
  have h1 : broadcastTo S5000x128 d broadcasts_S5000x1_S5000x128 (ix2 p k) = d (ix2 p (0 : Fin 1)) :=
    Cert.Lib.broadcastTo_a1_ab_apply d broadcasts_S5000x1_S5000x128 p k
  have h2 : broadcastTo S5000x128 b broadcasts_S1x128_S5000x128 (ix2 p k) = b (ix2 (0 : Fin 1) k) :=
    broadcastTo_1b_ab_apply b broadcasts_S1x128_S5000x128 p k
  show max (broadcastTo S5000x128 d broadcasts_S5000x1_S5000x128 (ix2 p k) * a (ix2 p k)
      + broadcastTo S5000x128 b broadcasts_S1x128_S5000x128 (ix2 p k)) (Ideal.ofBits .f32 0x00000000#32) = _
  rw [h1, h2]
  rfl

/-! The head's product: the operand indices the dot's dimension record builds at an output index. -/

theorem dotLhs2_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl

theorem dotLhs2_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q

theorem dotRhs2_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q

theorem dotRhs2_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-- At output `(p, q)` and contraction coordinate `k` the left operand is read at `(p, k)` … -/
theorem dotLhs2_eq (p : Fin 5000) (q : Fin 40) (k : Fin 128) :
    dot_S5000x128_S128x40_S5000x40_1_0_0_1_n_n.lhsIdx (ix2 p q)
        ((contrEquiv1 dot_S5000x128_S128x40_S5000x40_1_0_0_1_n_n 128 rfl rfl).symm k) = ix2 p k := by
  have hk := contrEquiv1_symm_val dot_S5000x128_S128x40_S5000x40_1_0_0_1_n_n 128 rfl rfl k
  funext ax; apply Fin.ext
  match ax with
  | ⟨0, _⟩ => exact dotLhs2_0 _ _
  | ⟨1, _⟩ => exact (dotLhs2_1 _ _).trans hk

/-- … and the right operand at `(k, q)`. -/
theorem dotRhs2_eq (p : Fin 5000) (q : Fin 40) (k : Fin 128) :
    dot_S5000x128_S128x40_S5000x40_1_0_0_1_n_n.rhsIdx (ix2 p q)
        ((contrEquiv1 dot_S5000x128_S128x40_S5000x40_1_0_0_1_n_n 128 rfl rfl).symm k) = ix2 k q := by
  have hk := contrEquiv1_symm_val dot_S5000x128_S128x40_S5000x40_1_0_0_1_n_n 128 rfl rfl k
  funext ax; apply Fin.ext
  match ax with
  | ⟨0, _⟩ => exact (dotRhs2_0 _ _).trans hk
  | ⟨1, _⟩ => exact dotRhs2_1 _ _

/-- The head on a block: the rows `x` times the weight block `w` into a zero accumulator, plus the bias row `bl`. -/
def blockLogits2 (x : FVec Ideal S5000x128 .bf16) (w : FVec Ideal S128x40 .bf16) (bl : FVec Ideal S1x40 .f32) :
    FVec Ideal S5000x40 .f32 :=
  have w' : FVec Ideal S128x40 .bf16 := shapeCast S128x40 w shapeCasts_S128x40_S128x40
  have z : FVec Ideal S5000x40 .f32 := constant S5000x40 .f32 0x00000000#32
  have xw : FVec Ideal S5000x40 .f32 := matmul dot_S5000x128_S128x40_S5000x40_1_0_0_1_n_n none x w' z
  have l1 : FVec Ideal S1x40 .f32 := shapeCast S1x40 bl shapeCasts_S1x40_S1x40
  have l2 : FVec Ideal S1x40 .f32 := shapeCast S1x40 l1 shapeCasts_S1x40_S1x40
  have lB : FVec Ideal S5000x40 .f32 := broadcastTo S5000x40 l2 broadcasts_S1x40_S5000x40
  addf xw lB

theorem blockLogits2_eq (x : FVec Ideal S5000x128 .bf16) (w : FVec Ideal S128x40 .bf16) (bl : FVec Ideal S1x40 .f32) :
    blockLogits2 x w bl = logits (R := 5000) (K := 128) (Q := 40) x w bl := by
  funext j
  obtain ⟨p, q, rfl⟩ : ∃ (p : Fin 5000) (q : Fin 40), j = ix2 p q := ⟨j 0, j 1, eq_ix2 j⟩
  unfold blockLogits2
  simp only [shapeCast_self]
  have h1 : FloatOps.matmul dot_S5000x128_S128x40_S5000x40_1_0_0_1_n_n none x w (constant S5000x40 .f32 0x00000000#32) (ix2 p q)
      = ∑ k : Fin 128, x (ix2 p k) * w (ix2 k q) :=
    (Ideal.matmul_constant_zero_apply dot_S5000x128_S128x40_S5000x40_1_0_0_1_n_n none x w (ix2 p q)).trans
      (Cert.LibDotSum.sum_contr_eq dot_S5000x128_S128x40_S5000x40_1_0_0_1_n_n 128 rfl rfl x w (ix2 p q)
        (fun k => x (ix2 p k)) (fun k => w (ix2 k q))
        (fun k => congrArg x (dotLhs2_eq p q k)) (fun k => congrArg w (dotRhs2_eq p q k)))
  have h2 : broadcastTo S5000x40 bl broadcasts_S1x40_S5000x40 (ix2 p q) = bl (ix2 (0 : Fin 1) q) :=
    broadcastTo_1b_ab_apply bl broadcasts_S1x40_S5000x40 p q
  show FloatOps.matmul dot_S5000x128_S128x40_S5000x40_1_0_0_1_n_n none x w (constant S5000x40 .f32 0x00000000#32) (ix2 p q)
      + broadcastTo S5000x40 bl broadcasts_S1x40_S5000x40 (ix2 p q) = _
  rw [h1, h2]
  rfl

/-- The logits of a block with each row's maximum subtracted. -/
def blockCentered2 (Lg : FVec Ideal S5000x40 .f32) : FVec Ideal S5000x40 .f32 :=
  have m : FVec Ideal S5000 .f32 :=
    multiReduction .maximumf [1] S5000 Lg 0xFF800000#32 reduces_S5000x40_S5000 (.inl rfl) rfl
  have m1 : FVec Ideal S5000x1 .f32 := shapeCast S5000x1 m shapeCasts_S5000_S5000x1
  have mB : FVec Ideal S5000x40 .f32 := broadcastTo S5000x40 m1 broadcasts_S5000x1_S5000x40
  subf Lg mB

theorem blockCentered2_apply (Lg : FVec Ideal S5000x40 .f32) (p : Fin 5000) (q : Fin 40) :
    blockCentered2 Lg (ix2 p q) = Lg (ix2 p q) - rowMax (R := 5000) (Q := 40) Lg p := by
  unfold blockCentered2
  show Lg (ix2 p q) - broadcastTo S5000x40 (shapeCast S5000x1 (multiReduction (F := Ideal) .maximumf [1] S5000 Lg 0xFF800000#32
      reduces_S5000x40_S5000 (.inl rfl) rfl) shapeCasts_S5000_S5000x1) broadcasts_S5000x1_S5000x40 (ix2 p q) = _
  rw [rowBroadcast2_apply, rowMax2_apply]

/-- The row-wise log-softmax of a block as the body computes it: the centred logits minus the logarithm of the row's sum
    of their exponentials. -/
def blockLogSoftmax2 (Lg : FVec Ideal S5000x40 .f32) : FVec Ideal S5000x40 .f32 :=
  have c : FVec Ideal S5000x40 .f32 := blockCentered2 Lg
  have e : FVec Ideal S5000x40 .f32 := exp c
  have s : FVec Ideal S5000 .f32 := multiReduction .add [1] S5000 e 0x00000000#32 reduces_S5000x40_S5000 (.inl rfl) rfl
  have s1 : FVec Ideal S5000x1 .f32 := shapeCast S5000x1 s shapeCasts_S5000_S5000x1
  have l : FVec Ideal S5000x1 .f32 := log s1
  have lB : FVec Ideal S5000x40 .f32 := broadcastTo S5000x40 l broadcasts_S5000x1_S5000x40
  subf c lB

theorem blockLogSoftmax2_eq (Lg : FVec Ideal S5000x40 .f32) :
    blockLogSoftmax2 Lg = logSoftmaxRows (R := 5000) (Q := 40) Lg := by
  funext j
  obtain ⟨p, q, rfl⟩ : ∃ (p : Fin 5000) (q : Fin 40), j = ix2 p q := ⟨j 0, j 1, eq_ix2 j⟩
  unfold blockLogSoftmax2
  show blockCentered2 Lg (ix2 p q) - broadcastTo S5000x40 (log (shapeCast S5000x1 (multiReduction (F := Ideal) .add [1] S5000
      (exp (blockCentered2 Lg)) 0x00000000#32 reduces_S5000x40_S5000 (.inl rfl) rfl) shapeCasts_S5000_S5000x1))
      broadcasts_S5000x1_S5000x40 (ix2 p q) = _
  rw [rowLogBroadcast2_apply, rowSum2_apply, blockCentered2_apply, logSoftmaxRows_apply]
  refine congrArg (fun s => (Lg (ix2 p q) - rowMax (R := 5000) (Q := 40) Lg p) - Ideal.log s)
    (Finset.sum_congr rfl fun q' _ => ?_)
  show Ideal.exp (blockCentered2 Lg (ix2 p q')) = _
  rw [blockCentered2_apply]

/-- THE PAYLOAD ON A BLOCK: the log-softmax of the head's logits of the layer's activation, all on the block's rows. -/
theorem pay2_eq (a : Vec Ideal S5000x128 .f32) (d : Vec Ideal S5000x1 .f32) (b : Vec Ideal S1x128 .f32)
    (w : Vec Ideal S128x40 .bf16) (bl : Vec Ideal S1x40 .f32) :
    k2_pay1 (F := Ideal) a d b w bl
      = logSoftmaxRows (R := 5000) (Q := 40)
          (logits (R := 5000) (K := 128) (Q := 40) (activation (R := 5000) (K := 128) d a b) w bl) := by
  have h : k2_pay1 (F := Ideal) a d b w bl = blockLogSoftmax2 (blockLogits2 (blockActivation2 a d b) w bl) := rfl
  rw [h, blockActivation2_eq, blockLogits2_eq, blockLogSoftmax2_eq]

/-! ## Rows do not interact: each layer function at a row depends on that row of its argument only -/

theorem rowMax_congr2 {R R' Q : Nat} (Lg : (⟨2, ![R, Q]⟩ : Shape).Idx → EReal) (Lg' : (⟨2, ![R', Q]⟩ : Shape).Idx → EReal)
    (r : Fin R) (r' : Fin R') (h : ∀ q : Fin Q, Lg (ix2 r q) = Lg' (ix2 r' q)) : rowMax Lg r = rowMax Lg' r' := by
  unfold rowMax
  exact congrArg (fun f => (Finset.univ : Finset (Fin Q)).fold max negInfWord f) (funext h)

theorem logSoftmaxRows_congr2 {R R' Q : Nat} (Lg : (⟨2, ![R, Q]⟩ : Shape).Idx → EReal)
    (Lg' : (⟨2, ![R', Q]⟩ : Shape).Idx → EReal) (r : Fin R) (r' : Fin R')
    (h : ∀ q : Fin Q, Lg (ix2 r q) = Lg' (ix2 r' q)) (q : Fin Q) :
    logSoftmaxRows Lg (ix2 r q) = logSoftmaxRows Lg' (ix2 r' q) := by
  simp only [logSoftmaxRows_apply, rowMax_congr2 Lg Lg' r r' h, h]

theorem logits_congr2 {R R' K Q : Nat} (A : (⟨2, ![R, K]⟩ : Shape).Idx → EReal) (A' : (⟨2, ![R', K]⟩ : Shape).Idx → EReal)
    (Wt : (⟨2, ![K, Q]⟩ : Shape).Idx → EReal) (BL : (⟨2, ![1, Q]⟩ : Shape).Idx → EReal) (r : Fin R) (r' : Fin R')
    (h : ∀ k : Fin K, A (ix2 r k) = A' (ix2 r' k)) (q : Fin Q) :
    logits A Wt BL (ix2 r q) = logits A' Wt BL (ix2 r' q) := by
  simp only [logits_apply, h]

theorem activation_congr2 {R R' K : Nat} (D : (⟨2, ![R, 1]⟩ : Shape).Idx → EReal) (D' : (⟨2, ![R', 1]⟩ : Shape).Idx → EReal)
    (AGG : (⟨2, ![R, K]⟩ : Shape).Idx → EReal) (AGG' : (⟨2, ![R', K]⟩ : Shape).Idx → EReal)
    (B : (⟨2, ![1, K]⟩ : Shape).Idx → EReal) (r : Fin R) (r' : Fin R')
    (hD : D (ix2 r (⟨0, Nat.one_pos⟩ : Fin 1)) = D' (ix2 r' (⟨0, Nat.one_pos⟩ : Fin 1)))
    (hA : ∀ k : Fin K, AGG (ix2 r k) = AGG' (ix2 r' k)) (k : Fin K) :
    activation D AGG B (ix2 r k) = activation D' AGG' B (ix2 r' k) := by
  simp only [activation_apply, hD, hA]

/-! ## From the blocks to the array -/

section Blocks

variable (V : (c : Dev nD) → (b : Ref sig .tc) → Buf (Elt Ideal) ((c : Thread nD τ).loc b))

theorem zeroOffsets2 : (![0, 0] : Fin 2 → Nat) = fun _ => 0 := funext fun a => by fin_cases a <;> rfl

/-- What the output array ends holding: the log-softmax of the head's logits of the layer's activation, as one function of
    the arrays the region reads. -/
abbrev G2 (c : Dev nD) : (⟨2, ![50000, 40]⟩ : Shape).Idx → EReal :=
  logSoftmaxRows (R := 50000) (Q := 40)
    (logits (R := 50000) (K := 128) (Q := 40)
      (activation (R := 50000) (K := 128) (V c main_v20) (V c main_v57) (V c main_v60)) (V c main_v59) (V c main_v61))

/-- The printed index maps, decided over the grid: the two row-blocked inputs move with the output along the rows, at block
    `t` at point `t`; the weights and the bias rows stay at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the aggregated block at point `t` is row `5000 t + p` of the array. -/
theorem blockAgg2 (c : Dev nD) (t : Fin cfg2.N) (p : Fin 5000) (p' : Fin 50000) (hp : p'.val = t.val * 5000 + p.val)
    (k : Fin 128) : iblk2 (F := Ideal) V c 0 t (ix2 p k) = V c main_v57 (ix2 p' k) := by
  obtain ⟨e00, e01, -⟩ := idx_facts2 t
  show V c main_v57 (((cfg2.win 0).blk t).view.emb (ix2 p k)) = V c main_v57 (ix2 p' k)
  refine congrArg (V c main_v57) (funext fun a => Fin.ext ?_)
  match a with
  | ⟨0, _⟩ => show win2_0.index t (0 : Fin 2) * 5000 + 1 * p.val = p'.val; omega
  | ⟨1, _⟩ => show win2_0.index t (1 : Fin 2) * 128 + 1 * k.val = k.val; omega

/-- Row `p` of the node-scale block at point `t` is row `5000 t + p` of the column. -/
theorem blockScale2 (c : Dev nD) (t : Fin cfg2.N) (p : Fin 5000) (p' : Fin 50000) (hp : p'.val = t.val * 5000 + p.val) :
    iblk2 (F := Ideal) V c 1 t (ix2 p (⟨0, Nat.one_pos⟩ : Fin 1)) = V c main_v20 (ix2 p' (⟨0, Nat.one_pos⟩ : Fin 1)) := by
  obtain ⟨-, -, e10, e11, -⟩ := idx_facts2 t
  show V c main_v20 (((cfg2.win 1).blk t).view.emb (ix2 p (⟨0, Nat.one_pos⟩ : Fin 1))) = V c main_v20 (ix2 p' (⟨0, Nat.one_pos⟩ : Fin 1))
  refine congrArg (V c main_v20) (funext fun a => Fin.ext ?_)
  match a with
  | ⟨0, _⟩ => show win2_1.index t (0 : Fin 2) * 5000 + 1 * p.val = p'.val; omega
  | ⟨1, _⟩ => show win2_1.index t (1 : Fin 2) * 1 + 1 * 0 = 0; omega

/-- The bias row's window holds the whole row at every point. -/
theorem blockBias2 (c : Dev nD) (t : Fin cfg2.N) : iblk2 (F := Ideal) V c 2 t = V c main_v60 := by
  obtain ⟨-, -, -, -, e20, e21, -⟩ := idx_facts2 t
  funext i
  show V c main_v60 (((cfg2.win 2).blk t).view.emb i) = V c main_v60 i
  refine congrArg (V c main_v60) (funext fun a => Fin.ext ?_)
  match a with
  | ⟨0, _⟩ => show win2_2.index t (0 : Fin 2) * 1 + 1 * (i 0).val = (i 0).val; omega
  | ⟨1, _⟩ => show win2_2.index t (1 : Fin 2) * 128 + 1 * (i 1).val = (i 1).val; omega

/-- The weight window holds the whole weight array at every point. -/
theorem blockWeights2 (c : Dev nD) (t : Fin cfg2.N) : iblk2 (F := Ideal) V c 3 t = V c main_v59 := by
  obtain ⟨-, -, -, -, -, -, e30, e31, -⟩ := idx_facts2 t
  funext i
  show V c main_v59 (((cfg2.win 3).blk t).view.emb i) = V c main_v59 i
  refine congrArg (V c main_v59) (funext fun a => Fin.ext ?_)
  match a with
  | ⟨0, _⟩ => show win2_3.index t (0 : Fin 2) * 128 + 1 * (i 0).val = (i 0).val; omega
  | ⟨1, _⟩ => show win2_3.index t (1 : Fin 2) * 40 + 1 * (i 1).val = (i 1).val; omega

/-- The head's bias window holds the whole row at every point. -/
theorem blockHeadBias2 (c : Dev nD) (t : Fin cfg2.N) : iblk2 (F := Ideal) V c 4 t = V c main_v61 := by
  obtain ⟨-, -, -, -, -, -, -, -, e40, e41, -⟩ := idx_facts2 t
  funext i
  show V c main_v61 (((cfg2.win 4).blk t).view.emb i) = V c main_v61 i
  refine congrArg (V c main_v61) (funext fun a => Fin.ext ?_)
  match a with
  | ⟨0, _⟩ => show win2_4.index t (0 : Fin 2) * 1 + 1 * (i 0).val = (i 0).val; omega
  | ⟨1, _⟩ => show win2_4.index t (1 : Fin 2) * 40 + 1 * (i 1).val = (i 1).val; omega

/-- WHAT POINT `t` WRITES BACK is block `t` of `G2`: the payload of the blocks is the layer functions of the blocks, the
    small windows hold their whole arrays, and row `p` of each row-blocked input is row `5000 t + p` of its array. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  unfold out2_5
  rw [View.canon_unit_zero zeroOffsets2]
  simp only [View.ld_unit_zero (S := S5000x128) zeroOffsets2, View.ld_unit_zero (S := S5000x1) zeroOffsets2,
    View.ld_unit_zero (S := S1x128) zeroOffsets2, View.ld_unit_zero (S := S128x40) zeroOffsets2,
    View.ld_unit_zero (S := S1x40) zeroOffsets2]
  rw [pay2_eq, blockBias2, blockWeights2, blockHeadBias2]
  funext j
  obtain ⟨-, -, -, -, -, -, -, -, -, -, e50, e51⟩ := idx_facts2 t
  have hp : (j 0).val < 5000 := (j 0).isLt
  have hq : (j 1).val < 40 := (j 1).isLt
  have ht : t.val < 10 := t.isLt
  have hL : (cfg2.win 5).xinj (grid2.coords t) j = ix2 (⟨(j 0).val, hp⟩ : Fin 5000) (⟨(j 1).val, hq⟩ : Fin 40) :=
    funext fun a => Fin.ext (by
      match a with
      | ⟨0, _⟩ => rfl
      | ⟨1, _⟩ => rfl)
  have hR : ((cfg2.win 5).blk t).view.emb j
      = ix2 (⟨t.val * 5000 + (j 0).val, by omega⟩ : Fin 50000) (⟨(j 1).val, hq⟩ : Fin 40) :=
    funext fun a => Fin.ext (by
      match a with
      | ⟨0, _⟩ => show win2_5.index t (0 : Fin 2) * 5000 + 1 * (j 0).val = t.val * 5000 + (j 0).val; omega
      | ⟨1, _⟩ => show win2_5.index t (1 : Fin 2) * 40 + 1 * (j 1).val = (j 1).val; omega)
  show logSoftmaxRows (R := 5000) (Q := 40)
      (logits (R := 5000) (K := 128) (Q := 40)
        (activation (R := 5000) (K := 128) (iblk2 V c 1 t) (iblk2 V c 0 t) (V c main_v60)) (V c main_v59) (V c main_v61))
      ((cfg2.win 5).xinj (grid2.coords t) j) = G2 V c (((cfg2.win 5).blk t).view.emb j)
  rw [hL, hR]
  exact logSoftmaxRows_congr2 _ _ _ _ (fun q' => logits_congr2 _ _ _ _ _ _
    (fun k => activation_congr2 _ _ _ _ _ _ _ (blockScale2 V c t _ _ rfl) (fun k' => blockAgg2 V c t _ _ rfl k') k) q') _

/-- An index of the array is in point `t`'s block iff each coordinate is in the block's range on its axis. -/
theorem mem_blk2 (t : Fin cfg2.N) (i : S50000x40.Idx) :
    i ∈ ((cfg2.win 5).blk t).view.set
      ↔ ∀ a : Fin 2, win2_5.index t a * S5000x40.size a ≤ (i a).val
          ∧ (i a).val < win2_5.index t a * S5000x40.size a + S5000x40.size a := by
  show i ∈ ((View.whole main_v62).slice (win2_5.rect t)).set ↔ _
  rw [View.set_slice_whole, Rect.mem_set_unit]
  exact Iff.rfl

/-- THE COVER: row `r` of the array is in the block of point `r / 5000`, and every point writes its block back. -/
theorem cover2 (i : S50000x40.Idx) :
    ∃ t : Fin cfg2.N, (cfg2.win 5).flush t = true ∧ i ∈ ((cfg2.win 5).blk t).view.set := by
  have hi0 : (i 0).val < 50000 := (i 0).isLt
  have hi1 : (i 1).val < 40 := (i 1).isLt
  have hN : (i 0).val / 5000 < cfg2.N := by
    show (i 0).val / 5000 < grid2.N
    rw [N_2]; omega
  obtain ⟨-, -, -, -, -, -, -, -, -, -, e50, e51⟩ := idx_facts2 ⟨(i 0).val / 5000, hN⟩
  have e50' : win2_5.index ⟨(i 0).val / 5000, hN⟩ (0 : Fin 2) = (i 0).val / 5000 := e50
  refine ⟨⟨(i 0).val / 5000, hN⟩, flush2_5 _, ?_⟩
  rw [mem_blk2]
  intro a
  match a with
  | ⟨0, _⟩ =>
    show win2_5.index ⟨(i 0).val / 5000, hN⟩ (0 : Fin 2) * 5000 ≤ (i 0).val
      ∧ (i 0).val < win2_5.index ⟨(i 0).val / 5000, hN⟩ (0 : Fin 2) * 5000 + 5000
    omega
  | ⟨1, _⟩ =>
    show win2_5.index ⟨(i 0).val / 5000, hN⟩ (1 : Fin 2) * 40 ≤ (i 1).val
      ∧ (i 1).val < win2_5.index ⟨(i 0).val / 5000, hN⟩ (1 : Fin 2) * 40 + 40
    omega

/-- THE ARRAY after the region: the log-softmax of the head's logits of the layer's activation, over all 50000 rows. -/
theorem final2 (c : Dev nD) :
    (dat2 (F := Ideal) V c).arrAt 5 cfg2.N
      = logSoftmaxRows (R := 50000) (Q := 40)
          (logits (R := 50000) (K := 128) (Q := 40)
            (activation (R := 50000) (K := 128) (V c main_v20) (V c main_v57) (V c main_v60)) (V c main_v59) (V c main_v61)) :=
  (dat2 (F := Ideal) V c).arrAt_eq_of_cover 5 (G2 V c) (fun t _ => flushed2_eq V c t) cover2

end Blocks

end Cert.KernelIdeal.RegionValue

end
-- ==== Proof.KernelValue.lean ====
/-
  The idealized kernel's result as ONE function of its eight argument arrays.

  With `D` the node-scale column, `agg` the aggregation over the edges and the weights transposed, the three regions compute,
  in turn,
      P₁ = scaledProduct D X W₁ᵀ,
      P₂ = scaledProduct D (activation D (agg P₁) b₁) W₂ᵀ,
      out = logSoftmaxRows (logits (activation D (agg P₂) b₂) Wₗᵀ bₗ),
  each region's array being the closed form of its blocks at the contents the region is entered with, and those contents
  being what the host operations before it leave. The run of the program then ends with the result array at `out` and the
  arguments as launched.
-/
import proofs.«177027_j7722351198605_2_alg».proof.Proof.KernelRun
import proofs.«177027_j7722351198605_2_alg».proof.Proof.HostValues
import proofs.«177027_j7722351198605_2_alg».proof.Proof.RegionScaledProduct
import proofs.«177027_j7722351198605_2_alg».proof.Proof.RegionHiddenLayer
import proofs.«177027_j7722351198605_2_alg».proof.Proof.RegionLogSoftmax

set_option maxRecDepth 16384

noncomputable section

namespace Cert.KernelIdeal.ResultValue

open Cert.KernelIdeal Cert.KernelIdeal.Gen Cert.KernelIdeal.HostValues Cert.KernelIdeal.RegionValue Cert.GraphLayers
open Idealize.ShloMosaic Idealize.ShloMosaic.TcCoe Idealize.SL.Sem

/-- The first layer's pre-scaled product `P₁`. -/
def firstProduct (X : FVec Ideal S50000x128 .f32) (EI : IVec S2x600000 32) (W1 : FVec Ideal S128x128 .f32) :
    FVec Ideal S50000x128 .f32 :=
  scaledProduct (R := 50000) (K := 128) (Q := 128) (scaleColumn EI) X (transposedWeights W1)

/-- The first layer's activation. -/
def firstActivation (X : FVec Ideal S50000x128 .f32) (EI : IVec S2x600000 32) (W1 : FVec Ideal S128x128 .f32)
    (b1 : FVec Ideal S128 .f32) : FVec Ideal S50000x128 .f32 :=
  activation (R := 50000) (K := 128) (scaleColumn EI) (aggregate EI (firstProduct X EI W1)) (biasRow b1)

/-- The second layer's pre-scaled product `P₂`. -/
def secondProduct (X : FVec Ideal S50000x128 .f32) (EI : IVec S2x600000 32) (W1 : FVec Ideal S128x128 .f32)
    (b1 : FVec Ideal S128 .f32) (W2 : FVec Ideal S128x128 .f32) : FVec Ideal S50000x128 .f32 :=
  scaledProduct (R := 50000) (K := 128) (Q := 128) (scaleColumn EI) (firstActivation X EI W1 b1) (transposedWeights W2)

/-- The second layer's activation. -/
def secondActivation (X : FVec Ideal S50000x128 .f32) (EI : IVec S2x600000 32) (W1 : FVec Ideal S128x128 .f32)
    (b1 : FVec Ideal S128 .f32) (W2 : FVec Ideal S128x128 .f32) (b2 : FVec Ideal S128 .f32) : FVec Ideal S50000x128 .f32 :=
  activation (R := 50000) (K := 128) (scaleColumn EI) (aggregate EI (secondProduct X EI W1 b1 W2)) (biasRow b2)

/-- The program's result: the log-softmax of the head's logits of the second activation. -/
def result (X : FVec Ideal S50000x128 .f32) (EI : IVec S2x600000 32) (W1 : FVec Ideal S128x128 .f32)
    (b1 : FVec Ideal S128 .f32) (W2 : FVec Ideal S128x128 .f32) (b2 : FVec Ideal S128 .f32)
    (Wl : FVec Ideal S40x128 .f32) (bl : FVec Ideal S40 .f32) : FVec Ideal S50000x40 .f32 :=
  logSoftmaxRows (R := 50000) (Q := 40)
    (logits (R := 50000) (K := 128) (Q := 40) (secondActivation X EI W1 b1 W2 b2) (transposedHead Wl) (headBiasRow bl))

variable (m : (ℓ : Loc nD τ sig) → Buf (Elt Ideal) ℓ) (ρ : Dev nD → PrngReg)

/-- Region 0 leaves `P₁` in its output array. -/
theorem exit0_product (c : Dev nD) :
    W4 m ρ c (Proc.devRef .tc main_v23)
      = firstProduct (m ((c : Thread nD τ).loc main_arg0)) (m ((c : Thread nD τ).loc main_arg1)) (m ((c : Thread nD τ).loc main_arg2)) := by
  refine (W4_arr m ρ c 3).trans ?_
  rw [final0 (V3 m ρ) c, entry0_scale m ρ c, entry0_rows m ρ c, entry0_weights m ρ c]
  rfl

/-- Region 1 leaves `P₂` in its output array. -/
theorem exit1_product (c : Dev nD) :
    W6 m ρ c (Proc.devRef .tc main_v42)
      = secondProduct (m ((c : Thread nD τ).loc main_arg0)) (m ((c : Thread nD τ).loc main_arg1)) (m ((c : Thread nD τ).loc main_arg2))
          (m ((c : Thread nD τ).loc main_arg3)) (m ((c : Thread nD τ).loc main_arg4)) := by
  refine (W6_arr m ρ c 4).trans ?_
  rw [final1 (V5 m ρ) c, entry1_scale m ρ c, entry1_aggregated m ρ c, exit0_product m ρ c, entry1_bias m ρ c, entry1_weights m ρ c]
  rfl

/-- Region 2 leaves the result in its output array. -/
theorem exit2_result (c : Dev nD) :
    W8 m ρ c (Proc.devRef .tc main_v62)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W8_arr m ρ c 5).trans ?_
  rw [final2 (V7 m ρ) c, entry2_scale m ρ c, entry2_aggregated m ρ c, exit1_product m ρ c, entry2_bias m ρ c, entry2_weights m ρ c,
    entry2_headBias m ρ c]
  rfl

/-- Every weakly fair execution of the idealized kernel terminates without a fault, with the result array at `result` of the
    launch contents of the arguments, and the arguments unchanged. -/
theorem run : θ_run defs (onTc (τ := τ) (main (F := Ideal))) ⟨m, fun _ => 0, ρ⟩ (fun r => ∀ c : Dev nD,
      r.2.mem ((c.tc : Thread nD τ).loc main_v62)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (exit2_result m ρ c), (h c).2⟩)
    (Cert.KernelIdeal.RunValue.run_result (F := Ideal) m ρ)

end Cert.KernelIdeal.ResultValue

end
-- ==== Proof.ReferenceTerms.lean ====
/-
  The reference program's computation, as operation trees over its eight arguments.

  The reference builds the edges' source and destination words (a row of the edge list followed by the node numbers), turns
  each into a column of start indices (a negative word has the node count added), counts the degrees by scattering ones, and
  takes the node scale `where (deg > 0) (rsqrt deg) 0`. A layer gathers the rows of `A · Wᵀ` at the sources, multiplies each
  by its edge's weight — the product of the scales gathered at the edge's source and destination —, scatters the products by
  destination, accumulating, into zeros, adds the bias and rectifies. The head is a matrix product plus a bias, and a
  log-softmax along rows: the row maximum (a reduction from `−∞`, then once more the maximum with `−∞`), the shifted logits,
  and the shifted logits minus the logarithm of the row sum of their exponentials.
-/
import proofs.«177027_j7722351198605_2_alg».proof.ReferenceIdeal
import proofs.«177027_j7722351198605_2_alg».proof.Proof.Gen.ReferenceIdeal
import Idealize.ShloMosaic.PureOps.Ideal

noncomputable section

namespace Cert.ReferenceIdeal.Terms

open Cert.ReferenceIdeal Cert.ReferenceIdeal.Gen Idealize.ShloMosaic

/-- The edges' source words: row 0 of the edge list, then the node numbers. -/
def srcWords (ei : IVec S2x600000 32) : IVec S650000 32 :=
  concatenate S650000 0 [⟨S600000, shapeCast S600000 (extractStridedSlice S1x600000 ![0, 0] ei slices_S2x600000_S1x600000_0_0) shapeCasts_S1x600000_S600000⟩, ⟨S50000, iotaInDim S50000 32 0⟩] concatenates_S600000_S50000_S650000_d0

/-- The edges' destination words: row 1 of the edge list, then the node numbers. -/
def dstWords (ei : IVec S2x600000 32) : IVec S650000 32 :=
  concatenate S650000 0 [⟨S600000, shapeCast S600000 (extractStridedSlice S1x600000 ![1, 0] ei slices_S2x600000_S1x600000_1_0) shapeCasts_S1x600000_S600000⟩, ⟨S50000, iotaInDim S50000 32 0⟩] concatenates_S600000_S50000_S650000_d0

/-- A column of start indices from node words: a negative word has the node count added. -/
def indexColumn (v : IVec S650000 32) : IVec S650000x1 32 :=
  broadcastInDim S650000x1 ![0] bcast_S650000_S650000x1_0
    (select (cmpi .slt v (broadcastInDim S650000 ![] bcast_S_S650000 (constantI S_ 32 0#32)))
      (addi v (broadcastInDim S650000 ![] bcast_S_S650000 (constantI S_ 32 50000#32))) v)

/-- The all-zero node array. -/
def zeroNodes : FVec Ideal S50000 .f32 := broadcastInDim S50000 ![] bcast_S_S50000 (constant (F := Ideal) S_ .f32 0x00000000#32)

/-- The degree of every node: ones scattered by destination, accumulating, into zeros. -/
def degree (dstCol : IVec S650000x1 32) : FVec Ideal S50000 .f32 :=
  Host.scatterAdd (F := Ideal) scatter_S50000_S650000x1_S650000_n_0_0_1 zeroNodes dstCol
    (broadcastInDim S650000 ![] bcast_S_S650000 (constant (F := Ideal) S_ .f32 0x3F800000#32))

/-- The node scale `where (deg > 0) (rsqrt deg) 0`. -/
def nodeScale (dstCol : IVec S650000x1 32) : FVec Ideal S50000 .f32 :=
  select (cmpf .ogt (degree dstCol) zeroNodes) (Host.rsqrt (degree dstCol)) zeroNodes

/-- The all-zero array of node rows. -/
def zeroRows : FVec Ideal S50000x128 .f32 :=
  broadcastInDim S50000x128 ![] bcast_S_S50000x128 (constant (F := Ideal) S_ .f32 0x00000000#32)

/-- The plain product `A · Wᵀ`. -/
def product (A : FVec Ideal S50000x128 .f32) (W : FVec Ideal S128x128 .f32) : FVec Ideal S50000x128 .f32 :=
  Host.dotGeneral (F := Ideal) dot_S50000x128_S128x128_S50000x128_1_0_0_1_n_n none A
    (transpose S128x128 [1, 0] W transposes_S128x128_S128x128_1_0)

/-- Every edge's weight: the scales gathered at its source and at its destination, multiplied. -/
def edgeWeights (SRC DST : IVec S650000x1 32) (dinv : FVec Ideal S50000 .f32) : FVec Ideal S650000 .f32 :=
  mulf (Host.gather gather_S50000_S650000x1_S650000_n_0_n_n_0_1_1 dinv SRC)
    (Host.gather gather_S50000_S650000x1_S650000_n_0_n_n_0_1_1 dinv DST)

/-- The aggregation of a layer: the source rows of `H`, each times its edge's weight, scattered by destination into zeros. -/
def weightedAggregate (SRC DST : IVec S650000x1 32) (dinv : FVec Ideal S50000 .f32) (H : FVec Ideal S50000x128 .f32) :
    FVec Ideal S50000x128 .f32 :=
  Host.scatterAdd (F := Ideal) scatter_S50000x128_S650000x1_S650000x128_1_0_0_1 zeroRows DST
    (mulf (Host.gather gather_S50000x128_S650000x1_S650000x128_1_0_n_n_0_1_1128 H SRC)
      (broadcastInDim S650000x128 ![0, 1] bcast_S650000x1_S650000x128_0_1
        (broadcastInDim S650000x1 ![0] bcast_S650000_S650000x1_0 (edgeWeights SRC DST dinv))))

/-- A layer before its rectification: the weighted aggregation of `H` plus the bias on every row. -/
def biased (SRC DST : IVec S650000x1 32) (dinv : FVec Ideal S50000 .f32) (H : FVec Ideal S50000x128 .f32)
    (b : FVec Ideal S128 .f32) : FVec Ideal S50000x128 .f32 :=
  addf (weightedAggregate SRC DST dinv H)
    (broadcastInDim S50000x128 ![0, 1] bcast_S1x128_S50000x128_0_1 (broadcastInDim S1x128 ![1] bcast_S128_S1x128_1 b))

/-- One graph-convolution layer as the reference computes it. -/
def referenceLayer (SRC DST : IVec S650000x1 32) (dinv : FVec Ideal S50000 .f32) (A : FVec Ideal S50000x128 .f32)
    (W : FVec Ideal S128x128 .f32) (b : FVec Ideal S128 .f32) : FVec Ideal S50000x128 .f32 :=
  maximumf (biased SRC DST dinv (product A W) b) zeroRows

/-- The head's logits. -/
def referenceLogits (A : FVec Ideal S50000x128 .f32) (Wl : FVec Ideal S40x128 .f32) (bl : FVec Ideal S40 .f32) :
    FVec Ideal S50000x40 .f32 :=
  addf (Host.dotGeneral (F := Ideal) dot_S50000x128_S128x40_S50000x40_1_0_0_1_n_n none A
      (transpose S128x40 [1, 0] Wl transposes_S40x128_S128x40_1_0))
    (broadcastInDim S50000x40 ![0, 1] bcast_S1x40_S50000x40_0_1 (broadcastInDim S1x40 ![1] bcast_S40_S1x40_1 bl))

/-- The row maxima of the log-softmax: a reduction from `−∞`, then the maximum with `−∞` once more. -/
def rowMaxima (Lg : FVec Ideal S50000x40 .f32) : FVec Ideal S50000 .f32 :=
  maximumf (broadcastInDim S50000 ![] bcast_S_S50000 (constant (F := Ideal) S_ .f32 0xFF800000#32))
    (Host.reduce FloatOps.maximumf Lg (constant (F := Ideal) S_ .f32 0xFF800000#32) reducesTo_S50000x40_S50000_d1 h_S_)

/-- The logits minus their row's maximum. -/
def shifted (Lg : FVec Ideal S50000x40 .f32) : FVec Ideal S50000x40 .f32 :=
  subf Lg (broadcastInDim S50000x40 ![0, 1] bcast_S50000x1_S50000x40_0_1
    (broadcastInDim S50000x1 ![0] bcast_S50000_S50000x1_0 (rowMaxima Lg)))

/-- The log-softmax along rows as the reference computes it. -/
def referenceLogSoftmax (Lg : FVec Ideal S50000x40 .f32) : FVec Ideal S50000x40 .f32 :=
  subf (shifted Lg) (broadcastInDim S50000x40 ![0, 1] bcast_S50000x1_S50000x40_0_1
    (Host.log (broadcastInDim S50000x1 ![0] bcast_S50000_S50000x1_0
      (Host.reduceAdd (F := Ideal) (Host.exp (shifted Lg)) (constant (F := Ideal) S_ .f32 0x00000000#32)
        reducesTo_S50000x40_S50000_d1 h_S_))))

/-- The reference's result, of its eight arguments. -/
def referenceResult (X : FVec Ideal S50000x128 .f32) (EI : IVec S2x600000 32) (W1 : FVec Ideal S128x128 .f32)
    (b1 : FVec Ideal S128 .f32) (W2 : FVec Ideal S128x128 .f32) (b2 : FVec Ideal S128 .f32)
    (Wl : FVec Ideal S40x128 .f32) (bl : FVec Ideal S40 .f32) : FVec Ideal S50000x40 .f32 :=
  referenceLogSoftmax (referenceLogits
    (referenceLayer (indexColumn (srcWords EI)) (indexColumn (dstWords EI)) (nodeScale (indexColumn (dstWords EI)))
      (referenceLayer (indexColumn (srcWords EI)) (indexColumn (dstWords EI)) (nodeScale (indexColumn (dstWords EI))) X W1 b1)
      W2 b2) Wl bl)

end Cert.ReferenceIdeal.Terms

end
-- ==== Proof.ReferenceStages.lean ====
/-
  The reference program's operation list cut into twelve consecutive stretches, around and inside its five outlined calls.

  The list is 169 operations long. Its value at the result buffer is read in stages: a plain stretch of host operations, then
  the three operations of an outlined `where` (the node scale), a plain stretch (the first layer up to its bias), the three
  operations of an outlined `relu`, and so on to the outlined log-softmax, itself read in three parts (the row maxima; the shifted logits; the rest). The contents after the
  whole list are the contents after the last stretch of the contents after the one before, and so on back to the launch
  contents (`after_append`); what a buffer holds after ONE stretch is then stated over arbitrary contents before it.
-/
import proofs.«177027_j7722351198605_2_alg».proof.Proof.ReferenceOpsPatched
import proofs.«177027_j7722351198605_2_alg».proof.Proof.ReferenceTerms
import proofs.«177027_j7722351198605_2_alg».proof.Proof.LibConcatenateCongr

set_option maxRecDepth 16384

noncomputable section

namespace Cert.ReferenceIdeal.Stages

open Cert.ReferenceIdeal Cert.ReferenceIdeal.Gen Idealize.ShloMosaic Idealize.ShloMosaic.TcCoe Idealize.SL.Sem
open Idealize.ShloMosaic.StableHlo

/-- The contents after two stretches in a row are the contents after the second of the contents after the first. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The reference's operation list at the ideal instance. -/
abbrev allOps : List (HloOp τ sig (Elt Ideal)) := Cert.ReferenceIdeal.Value.ops (F := Ideal)

/-- `n` consecutive operations of the list from position `i`. -/
abbrev stretch (i n : Nat) : List (HloOp τ sig (Elt Ideal)) := (allOps.drop i).take n

/-- Up to the scalar zero of the first `where`: the index words, the first product, the degree's comparison and `rsqrt`. -/
abbrev stage1a := stretch 0 27
/-- The first outlined `where`: the node scale. -/
abbrev stage1b := stretch 27 3
/-- The first layer up to its bias. -/
abbrev stage2a := stretch 30 45
/-- The first outlined `relu`. -/
abbrev stage2b := stretch 75 3
/-- The second product and the degree's comparison and `rsqrt` again. -/
abbrev stage3a := stretch 78 20
/-- The second outlined `where`. -/
abbrev stage3b := stretch 98 3
/-- The second layer up to its bias. -/
abbrev stage4a := stretch 101 45
/-- The second outlined `relu`. -/
abbrev stage4b := stretch 146 3
/-- The head's logits. -/
abbrev stage5a := stretch 149 5
/-- The outlined log-softmax, first part: the row maxima. -/
abbrev stage5b1 := stretch 154 5
/-- The outlined log-softmax, second part: the logits minus their row's maximum. -/
abbrev stage5b2 := stretch 159 3
/-- The outlined log-softmax, third part: the exponentials' row sums, their logarithm, and the result. -/
abbrev stage5b3 := stretch 162 7

/-- The list is its twelve stretches in a row. -/
theorem allOps_eq : allOps = stage1a ++ (stage1b ++ (stage2a ++ (stage2b ++ (stage3a ++ (stage3b ++ (stage4a ++ (stage4b ++
    (stage5a ++ (stage5b1 ++ (stage5b2 ++ stage5b3)))))))))) := by rfl

/-- The contents after the whole list, stage by stage. -/
theorem after_allOps (V : Valuation τ sig (Elt Ideal)) :
    StableHlo.after allOps V
      = StableHlo.after stage5b3 (StableHlo.after stage5b2 (StableHlo.after stage5b1 (StableHlo.after stage5a (StableHlo.after stage4b (StableHlo.after stage4a
          (StableHlo.after stage3b (StableHlo.after stage3a (StableHlo.after stage2b (StableHlo.after stage2a
            (StableHlo.after stage1b (StableHlo.after stage1a V))))))))))) := by
  conv_lhs => rw [allOps_eq]
  simp only [after_append]

end Cert.ReferenceIdeal.Stages

end
-- ==== Proof.ReferenceValue.lean ====
/-
  The reference program's run and its result as a function of the arguments.

  Every weakly fair execution of the reference terminates with each buffer at the contents its 169 host operations leave,
  read in the ten stretches of proof/Proof/ReferenceStages.lean. Over arbitrary contents `Wb` before a stretch: the first
  stretch leaves the source and destination words, the first product `X · W₁ᵀ`, and the degree's comparison with zero and
  its `rsqrt`; the outlined `where` selects between them (the node scale); the next stretch leaves the weighted aggregation
  plus the bias, the outlined `relu` its maximum with zero; the same again for the second layer; then the head's logits and
  the outlined log-softmax. A buffer that no later operation writes is carried unchanged across every later stretch.
  Chained from the launch contents, the result buffer ends at `referenceResult` of the arguments.
-/
import proofs.«177027_j7722351198605_2_alg».proof.Proof.ReferenceStages

set_option maxRecDepth 16384

noncomputable section

namespace Cert.ReferenceIdeal.RunValue

open Cert.ReferenceIdeal Cert.ReferenceIdeal.Gen Cert.ReferenceIdeal.Stages Cert.ReferenceIdeal.Terms
open Idealize.ShloMosaic Idealize.ShloMosaic.TcCoe Idealize.SL.Sem Idealize.ShloMosaic.StableHlo

-- the pass that evaluates a stretch of operations reaches the two joined pieces of a concatenation through this rule
attribute [local congr] Cert.Lib.concatenate_pair_congr

/-- Turns a stretch of the operation list into the literal list of its operations. -/
macro "literal_stretch" : tactic =>
  `(tactic| simp only [stage1a, stage1b, stage2a, stage2b, stage3a, stage3b, stage4a, stage4b, stage5a, stage5b1, stage5b2, stage5b3, stretch, allOps,
      Cert.ReferenceIdeal.Value.ops, List.drop_succ_cons, List.drop_zero, List.take_succ_cons, List.take_zero])

/-! ## What each stretch leaves, over arbitrary contents before it -/

section Stretches
variable (Wb : Valuation τ sig (Elt Ideal))

theorem stage1a_src : StableHlo.after stage1a Wb (Proc.devRef .tc main_v3) = srcWords (Wb (Proc.devRef .tc main_arg1)) := by
  literal_stretch; after_results_simp; rfl

theorem stage1a_dst : StableHlo.after stage1a Wb (Proc.devRef .tc main_v6) = dstWords (Wb (Proc.devRef .tc main_arg1)) := by
  literal_stretch; after_results_simp; rfl

theorem stage1a_product :
    StableHlo.after stage1a Wb (Proc.devRef .tc main_v8) = product (Wb (Proc.devRef .tc main_arg0)) (Wb (Proc.devRef .tc main_arg2)) := by
  literal_stretch; after_results_simp; rfl

theorem stage1a_positive :
    StableHlo.after stage1a Wb (Proc.devRef .tc main_v19)
      = cmpf .ogt (degree (indexColumn (dstWords (Wb (Proc.devRef .tc main_arg1))))) zeroNodes := by
  literal_stretch; after_results_simp; rfl

theorem stage1a_rsqrt :
    StableHlo.after stage1a Wb (Proc.devRef .tc main_v20)
      = Host.rsqrt (degree (indexColumn (dstWords (Wb (Proc.devRef .tc main_arg1))))) := by
  literal_stretch; after_results_simp; rfl

theorem stage1a_zero :
    StableHlo.after stage1a Wb (Proc.devRef .tc main_cst_3) = constant (F := Ideal) S_ .f32 0x00000000#32 := by
  literal_stretch; after_results_simp

theorem stage1b_scale :
    StableHlo.after stage1b Wb (Proc.devRef .tc main_v21)
      = (select (Wb (Proc.devRef .tc main_v19)) (Wb (Proc.devRef .tc main_v20))
          (broadcastInDim S50000 ![] bcast_S_S50000 (Wb (Proc.devRef .tc main_cst_3))) : FVec Ideal S50000 .f32) := by
  literal_stretch; after_results_simp; rfl

theorem stage2a_biased :
    StableHlo.after stage2a Wb (Proc.devRef .tc main_v57)
      = biased (indexColumn (Wb (Proc.devRef .tc main_v3))) (indexColumn (Wb (Proc.devRef .tc main_v6)))
          (Wb (Proc.devRef .tc main_v21)) (Wb (Proc.devRef .tc main_v8)) (Wb (Proc.devRef .tc main_arg3)) := by
  literal_stretch; after_results_simp; rfl

theorem stage2b_layer :
    StableHlo.after stage2b Wb (Proc.devRef .tc main_v58)
      = (maximumf (Wb (Proc.devRef .tc main_v57)) zeroRows : FVec Ideal S50000x128 .f32) := by
  literal_stretch; after_results_simp; rfl

theorem stage3a_product :
    StableHlo.after stage3a Wb (Proc.devRef .tc main_v60) = product (Wb (Proc.devRef .tc main_v58)) (Wb (Proc.devRef .tc main_arg4)) := by
  literal_stretch; after_results_simp; rfl

theorem stage3a_positive :
    StableHlo.after stage3a Wb (Proc.devRef .tc main_v71)
      = cmpf .ogt (degree (indexColumn (Wb (Proc.devRef .tc main_v6)))) zeroNodes := by
  literal_stretch; after_results_simp; rfl

theorem stage3a_rsqrt :
    StableHlo.after stage3a Wb (Proc.devRef .tc main_v72) = Host.rsqrt (degree (indexColumn (Wb (Proc.devRef .tc main_v6)))) := by
  literal_stretch; after_results_simp; rfl

theorem stage3a_zero :
    StableHlo.after stage3a Wb (Proc.devRef .tc main_cst_18) = constant (F := Ideal) S_ .f32 0x00000000#32 := by
  literal_stretch; after_results_simp

theorem stage3b_scale :
    StableHlo.after stage3b Wb (Proc.devRef .tc main_v73)
      = (select (Wb (Proc.devRef .tc main_v71)) (Wb (Proc.devRef .tc main_v72))
          (broadcastInDim S50000 ![] bcast_S_S50000 (Wb (Proc.devRef .tc main_cst_18))) : FVec Ideal S50000 .f32) := by
  literal_stretch; after_results_simp; rfl

theorem stage4a_biased :
    StableHlo.after stage4a Wb (Proc.devRef .tc main_v109)
      = biased (indexColumn (Wb (Proc.devRef .tc main_v3))) (indexColumn (Wb (Proc.devRef .tc main_v6)))
          (Wb (Proc.devRef .tc main_v73)) (Wb (Proc.devRef .tc main_v60)) (Wb (Proc.devRef .tc main_arg5)) := by
  literal_stretch; after_results_simp; rfl

theorem stage4b_layer :
    StableHlo.after stage4b Wb (Proc.devRef .tc main_v110)
      = (maximumf (Wb (Proc.devRef .tc main_v109)) zeroRows : FVec Ideal S50000x128 .f32) := by
  literal_stretch; after_results_simp; rfl

theorem stage5a_logits :
    StableHlo.after stage5a Wb (Proc.devRef .tc main_v115)
      = referenceLogits (Wb (Proc.devRef .tc main_v110)) (Wb (Proc.devRef .tc main_arg6)) (Wb (Proc.devRef .tc main_arg7)) := by
  literal_stretch; after_results_simp; rfl

/-- A value transported along an equality of types equals one it is heterogeneously equal to. -/
theorem cast_eq_of_heq {α β : Type} (h : α = β) (a : α) (b : β) (hab : HEq a b) : cast h a = b := by
  subst h; exact eq_of_heq hab

/-- The row-maximum reduction of equal operands and equal initial values is the same array. -/
theorem reduceMax_congr {x x' : FVec Ideal S50000x40 .f32} {v v' : FVec Ideal S_ .f32} (hx : x = x') (hv : v = v') :
    Host.reduce FloatOps.maximumf x v reducesTo_S50000x40_S50000_d1 h_S_
      = Host.reduce FloatOps.maximumf x' v' reducesTo_S50000x40_S50000_d1 h_S_ := by subst hx; subst hv; rfl

/-- The row maxima. The outlined function's values are read through transports along its buffers' type equalities; they are
    taken off one at a time, and the reduction is compared operand by operand, never opened. -/
theorem stage5b1_maxima :
    StableHlo.after stage5b1 Wb (Proc.devRef .tc main_call4_v2) = rowMaxima (Wb (Proc.devRef .tc main_v115)) := by
  literal_stretch; after_results_simp
  unfold rowMaxima
  refine cast_eq_of_heq _ _ _ (heq_of_eq (congrArg₂ maximumf rfl ?_))
  refine cast_eq_of_heq _ _ _ (heq_of_eq ?_)
  refine cast_eq_of_heq _ _ _ (heq_of_eq (reduceMax_congr rfl rfl))

theorem stage5b2_shifted :
    StableHlo.after stage5b2 Wb (Proc.devRef .tc main_call4_v5)
      = (subf (Wb (Proc.devRef .tc main_v115)) (broadcastInDim S50000x40 ![0, 1] bcast_S50000x1_S50000x40_0_1
          (broadcastInDim S50000x1 ![0] bcast_S50000_S50000x1_0 (Wb (Proc.devRef .tc main_call4_v2)))) : FVec Ideal S50000x40 .f32) := by
  literal_stretch; after_results_simp; rfl

theorem stage5b3_result :
    StableHlo.after stage5b3 Wb (Proc.devRef .tc main_v116)
      = (subf (Wb (Proc.devRef .tc main_call4_v5)) (broadcastInDim S50000x40 ![0, 1] bcast_S50000x1_S50000x40_0_1
          (Host.log (broadcastInDim S50000x1 ![0] bcast_S50000_S50000x1_0
            (Host.reduceAdd (F := Ideal) (Host.exp (Wb (Proc.devRef .tc main_call4_v5))) (constant (F := Ideal) S_ .f32 0x00000000#32)
              reducesTo_S50000x40_S50000_d1 h_S_)))) : FVec Ideal S50000x40 .f32) := by
  literal_stretch; after_results_simp; rfl

end Stretches

/-! ## Buffers that are carried unchanged -/

/-- Proves that no operation of the list, from a literal position on, writes a literal buffer. -/
macro "never_written" : tactic =>
  `(tactic| exact List.forall_iff_forall_mem.mp (by
      simp only [allOps, Cert.ReferenceIdeal.Value.ops, List.drop_succ_cons, List.drop_zero, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide)))

theorem arg0_unwritten : ∀ op ∈ allOps.drop 0, (Proc.devRef .tc main_arg0 : DevRef τ sig) ∉ op.writes := by never_written
theorem arg1_unwritten : ∀ op ∈ allOps.drop 0, (Proc.devRef .tc main_arg1 : DevRef τ sig) ∉ op.writes := by never_written
theorem arg2_unwritten : ∀ op ∈ allOps.drop 0, (Proc.devRef .tc main_arg2 : DevRef τ sig) ∉ op.writes := by never_written
theorem arg3_unwritten : ∀ op ∈ allOps.drop 0, (Proc.devRef .tc main_arg3 : DevRef τ sig) ∉ op.writes := by never_written
theorem arg4_unwritten : ∀ op ∈ allOps.drop 0, (Proc.devRef .tc main_arg4 : DevRef τ sig) ∉ op.writes := by never_written
theorem arg5_unwritten : ∀ op ∈ allOps.drop 0, (Proc.devRef .tc main_arg5 : DevRef τ sig) ∉ op.writes := by never_written
theorem arg6_unwritten : ∀ op ∈ allOps.drop 0, (Proc.devRef .tc main_arg6 : DevRef τ sig) ∉ op.writes := by never_written
theorem arg7_unwritten : ∀ op ∈ allOps.drop 0, (Proc.devRef .tc main_arg7 : DevRef τ sig) ∉ op.writes := by never_written
theorem src_unwritten : ∀ op ∈ allOps.drop 4, (Proc.devRef .tc main_v3 : DevRef τ sig) ∉ op.writes := by never_written
theorem dst_unwritten : ∀ op ∈ allOps.drop 7, (Proc.devRef .tc main_v6 : DevRef τ sig) ∉ op.writes := by never_written
theorem product1_unwritten : ∀ op ∈ allOps.drop 9, (Proc.devRef .tc main_v8 : DevRef τ sig) ∉ op.writes := by never_written
theorem logits_unwritten : ∀ op ∈ allOps.drop 154, (Proc.devRef .tc main_v115 : DevRef τ sig) ∉ op.writes := by never_written
theorem product2_unwritten : ∀ op ∈ allOps.drop 80, (Proc.devRef .tc main_v60 : DevRef τ sig) ∉ op.writes := by never_written

/-- A buffer that no operation from position `k` on writes is unchanged by every stretch that starts at `k` or later. -/
theorem carried {b : DevRef τ sig} {k : Nat} (h : ∀ op ∈ allOps.drop k, b ∉ op.writes) (j n : Nat)
    (W : Valuation τ sig (Elt Ideal)) : StableHlo.after (stretch (k + j) n) W b = W b :=
  StableHlo.after_of_forall_not_mem _ _ fun op hop => h op (by
    have h1 : op ∈ allOps.drop (k + j) := List.mem_of_mem_take hop
    have h2 : allOps.drop (k + j) = (allOps.drop k).drop j := by rw [List.drop_drop]
    rw [h2] at h1
    exact List.mem_of_mem_drop h1)

/-! ## The run, up to "every buffer ends at the contents the operation list leaves" -/

section Run
variable (m : (ℓ : Loc nD τ sig) → Buf (Elt Ideal) ℓ) (ρ : Dev nD → PrngReg)

/-- Every weakly fair execution of the reference terminates without a fault, with the result buffer at what the operation
    list leaves there from the launch contents, and the arguments, which no operation writes, as launched. -/
theorem run_after : θ_run defs (onTc (τ := τ) (main (F := Ideal))) ⟨m, fun _ => 0, ρ⟩ fun r => ∀ c : Dev nD,
      r.2.mem ((c.tc : Thread nD τ).loc main_v116) = StableHlo.after allOps (launchContents m c) (Proc.devRef .tc main_v116)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v116,
      (h c main_arg0).trans ((StableHlo.after_of_forall_not_mem _ _ arg0_unwritten).trans rfl),
      (h c main_arg1).trans ((StableHlo.after_of_forall_not_mem _ _ arg1_unwritten).trans rfl),
      (h c main_arg2).trans ((StableHlo.after_of_forall_not_mem _ _ arg2_unwritten).trans rfl),
      (h c main_arg3).trans ((StableHlo.after_of_forall_not_mem _ _ arg3_unwritten).trans rfl),
      (h c main_arg4).trans ((StableHlo.after_of_forall_not_mem _ _ arg4_unwritten).trans rfl),
      (h c main_arg5).trans ((StableHlo.after_of_forall_not_mem _ _ arg5_unwritten).trans rfl),
      (h c main_arg6).trans ((StableHlo.after_of_forall_not_mem _ _ arg6_unwritten).trans rfl),
      (h c main_arg7).trans ((StableHlo.after_of_forall_not_mem _ _ arg7_unwritten).trans rfl)⟩)
    (run_seq Cert.ReferenceIdeal.Value.scopedRefs_eq Cert.ReferenceIdeal.Value.scopedSems_eq defs main
      (fun _ => Cert.ReferenceIdeal.Value.ops) Cert.ReferenceIdeal.Value.main_eq (fun _ => Cert.ReferenceIdeal.Value.ops_sub) m ρ)

end Run

/-! ## The result buffer after the whole list -/

/-- From any contents `W`, the result buffer after the 169 operations holds `referenceResult` of the arguments' contents. -/
theorem result_value (W : Valuation τ sig (Elt Ideal)) :
    StableHlo.after allOps W (Proc.devRef .tc main_v116) = referenceResult (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [after_allOps]
  generalize hB1 : StableHlo.after stage1a W = B1
  generalize hB2 : StableHlo.after stage1b B1 = B2
  generalize hB3 : StableHlo.after stage2a B2 = B3
  generalize hB4 : StableHlo.after stage2b B3 = B4
  generalize hB5 : StableHlo.after stage3a B4 = B5
  generalize hB6 : StableHlo.after stage3b B5 = B6
  generalize hB7 : StableHlo.after stage4a B6 = B7
  generalize hB8 : StableHlo.after stage4b B7 = B8
  generalize hB9 : StableHlo.after stage5a B8 = B9
  generalize hB10 : StableHlo.after stage5b1 B9 = B10
  generalize hB11 : StableHlo.after stage5b2 B10 = B11
  -- after the first stretch
  have a1_src : B1 (Proc.devRef .tc main_v3) = srcWords (W (Proc.devRef .tc main_arg1)) := by rw [← hB1]; exact stage1a_src W
  have a1_dst : B1 (Proc.devRef .tc main_v6) = dstWords (W (Proc.devRef .tc main_arg1)) := by rw [← hB1]; exact stage1a_dst W
  have a1_prod : B1 (Proc.devRef .tc main_v8) = product (W (Proc.devRef .tc main_arg0)) (W (Proc.devRef .tc main_arg2)) := by rw [← hB1]; exact stage1a_product W
  have a1_pos : B1 (Proc.devRef .tc main_v19) = cmpf .ogt (degree (indexColumn (dstWords (W (Proc.devRef .tc main_arg1))))) zeroNodes := by rw [← hB1]; exact stage1a_positive W
  have a1_rsq : B1 (Proc.devRef .tc main_v20) = Host.rsqrt (degree (indexColumn (dstWords (W (Proc.devRef .tc main_arg1))))) := by rw [← hB1]; exact stage1a_rsqrt W
  have a1_zero : B1 (Proc.devRef .tc main_cst_3) = constant (F := Ideal) S_ .f32 0x00000000#32 := by rw [← hB1]; exact stage1a_zero W
  have a1_3 : B1 (Proc.devRef .tc main_arg3) = W (Proc.devRef .tc main_arg3) := by rw [← hB1]; exact carried arg3_unwritten 0 27 W
  have a1_4 : B1 (Proc.devRef .tc main_arg4) = W (Proc.devRef .tc main_arg4) := by rw [← hB1]; exact carried arg4_unwritten 0 27 W
  have a1_5 : B1 (Proc.devRef .tc main_arg5) = W (Proc.devRef .tc main_arg5) := by rw [← hB1]; exact carried arg5_unwritten 0 27 W
  have a1_6 : B1 (Proc.devRef .tc main_arg6) = W (Proc.devRef .tc main_arg6) := by rw [← hB1]; exact carried arg6_unwritten 0 27 W
  have a1_7 : B1 (Proc.devRef .tc main_arg7) = W (Proc.devRef .tc main_arg7) := by rw [← hB1]; exact carried arg7_unwritten 0 27 W
  -- after the first `where`
  have a2_scale : B2 (Proc.devRef .tc main_v21) = (nodeScale (indexColumn (dstWords (W (Proc.devRef .tc main_arg1))))) := by
    rw [← hB2, stage1b_scale, a1_pos, a1_rsq, a1_zero]; rfl
  have a2_src : B2 (Proc.devRef .tc main_v3) = srcWords (W (Proc.devRef .tc main_arg1)) := by rw [← hB2]; exact (carried src_unwritten 23 3 B1).trans a1_src
  have a2_dst : B2 (Proc.devRef .tc main_v6) = dstWords (W (Proc.devRef .tc main_arg1)) := by rw [← hB2]; exact (carried dst_unwritten 20 3 B1).trans a1_dst
  have a2_prod : B2 (Proc.devRef .tc main_v8) = product (W (Proc.devRef .tc main_arg0)) (W (Proc.devRef .tc main_arg2)) := by
    rw [← hB2]; exact (carried product1_unwritten 18 3 B1).trans a1_prod
  have a2_3 : B2 (Proc.devRef .tc main_arg3) = W (Proc.devRef .tc main_arg3) := by rw [← hB2]; exact (carried arg3_unwritten 27 3 B1).trans a1_3
  have a2_4 : B2 (Proc.devRef .tc main_arg4) = W (Proc.devRef .tc main_arg4) := by rw [← hB2]; exact (carried arg4_unwritten 27 3 B1).trans a1_4
  have a2_5 : B2 (Proc.devRef .tc main_arg5) = W (Proc.devRef .tc main_arg5) := by rw [← hB2]; exact (carried arg5_unwritten 27 3 B1).trans a1_5
  have a2_6 : B2 (Proc.devRef .tc main_arg6) = W (Proc.devRef .tc main_arg6) := by rw [← hB2]; exact (carried arg6_unwritten 27 3 B1).trans a1_6
  have a2_7 : B2 (Proc.devRef .tc main_arg7) = W (Proc.devRef .tc main_arg7) := by rw [← hB2]; exact (carried arg7_unwritten 27 3 B1).trans a1_7
  -- after the first layer's aggregation and bias
  have a3_biased : B3 (Proc.devRef .tc main_v57) = biased (indexColumn (srcWords (W (Proc.devRef .tc main_arg1)))) (indexColumn (dstWords (W (Proc.devRef .tc main_arg1)))) (nodeScale (indexColumn (dstWords (W (Proc.devRef .tc main_arg1))))) (product (W (Proc.devRef .tc main_arg0)) (W (Proc.devRef .tc main_arg2))) (W (Proc.devRef .tc main_arg3)) := by
    rw [← hB3, stage2a_biased, a2_src, a2_dst, a2_scale, a2_prod, a2_3]
  have a3_src : B3 (Proc.devRef .tc main_v3) = srcWords (W (Proc.devRef .tc main_arg1)) := by rw [← hB3]; exact (carried src_unwritten 26 45 B2).trans a2_src
  have a3_dst : B3 (Proc.devRef .tc main_v6) = dstWords (W (Proc.devRef .tc main_arg1)) := by rw [← hB3]; exact (carried dst_unwritten 23 45 B2).trans a2_dst
  have a3_4 : B3 (Proc.devRef .tc main_arg4) = W (Proc.devRef .tc main_arg4) := by rw [← hB3]; exact (carried arg4_unwritten 30 45 B2).trans a2_4
  have a3_5 : B3 (Proc.devRef .tc main_arg5) = W (Proc.devRef .tc main_arg5) := by rw [← hB3]; exact (carried arg5_unwritten 30 45 B2).trans a2_5
  have a3_6 : B3 (Proc.devRef .tc main_arg6) = W (Proc.devRef .tc main_arg6) := by rw [← hB3]; exact (carried arg6_unwritten 30 45 B2).trans a2_6
  have a3_7 : B3 (Proc.devRef .tc main_arg7) = W (Proc.devRef .tc main_arg7) := by rw [← hB3]; exact (carried arg7_unwritten 30 45 B2).trans a2_7
  -- after the first `relu`
  have a4_layer : B4 (Proc.devRef .tc main_v58) = (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) := by
    rw [← hB4, stage2b_layer, a3_biased]; rfl
  have a4_src : B4 (Proc.devRef .tc main_v3) = srcWords (W (Proc.devRef .tc main_arg1)) := by rw [← hB4]; exact (carried src_unwritten 71 3 B3).trans a3_src
  have a4_dst : B4 (Proc.devRef .tc main_v6) = dstWords (W (Proc.devRef .tc main_arg1)) := by rw [← hB4]; exact (carried dst_unwritten 68 3 B3).trans a3_dst
  have a4_4 : B4 (Proc.devRef .tc main_arg4) = W (Proc.devRef .tc main_arg4) := by rw [← hB4]; exact (carried arg4_unwritten 75 3 B3).trans a3_4
  have a4_5 : B4 (Proc.devRef .tc main_arg5) = W (Proc.devRef .tc main_arg5) := by rw [← hB4]; exact (carried arg5_unwritten 75 3 B3).trans a3_5
  have a4_6 : B4 (Proc.devRef .tc main_arg6) = W (Proc.devRef .tc main_arg6) := by rw [← hB4]; exact (carried arg6_unwritten 75 3 B3).trans a3_6
  have a4_7 : B4 (Proc.devRef .tc main_arg7) = W (Proc.devRef .tc main_arg7) := by rw [← hB4]; exact (carried arg7_unwritten 75 3 B3).trans a3_7
  -- after the second product and the degree again
  have a5_prod : B5 (Proc.devRef .tc main_v60) = product (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) (W (Proc.devRef .tc main_arg4)) := by
    rw [← hB5, stage3a_product, a4_layer, a4_4]
  have a5_pos : B5 (Proc.devRef .tc main_v71) = cmpf .ogt (degree (indexColumn (dstWords (W (Proc.devRef .tc main_arg1))))) zeroNodes := by rw [← hB5, stage3a_positive, a4_dst]
  have a5_rsq : B5 (Proc.devRef .tc main_v72) = Host.rsqrt (degree (indexColumn (dstWords (W (Proc.devRef .tc main_arg1))))) := by rw [← hB5, stage3a_rsqrt, a4_dst]
  have a5_zero : B5 (Proc.devRef .tc main_cst_18) = constant (F := Ideal) S_ .f32 0x00000000#32 := by rw [← hB5]; exact stage3a_zero B4
  have a5_src : B5 (Proc.devRef .tc main_v3) = srcWords (W (Proc.devRef .tc main_arg1)) := by rw [← hB5]; exact (carried src_unwritten 74 20 B4).trans a4_src
  have a5_dst : B5 (Proc.devRef .tc main_v6) = dstWords (W (Proc.devRef .tc main_arg1)) := by rw [← hB5]; exact (carried dst_unwritten 71 20 B4).trans a4_dst
  have a5_5 : B5 (Proc.devRef .tc main_arg5) = W (Proc.devRef .tc main_arg5) := by rw [← hB5]; exact (carried arg5_unwritten 78 20 B4).trans a4_5
  have a5_6 : B5 (Proc.devRef .tc main_arg6) = W (Proc.devRef .tc main_arg6) := by rw [← hB5]; exact (carried arg6_unwritten 78 20 B4).trans a4_6
  have a5_7 : B5 (Proc.devRef .tc main_arg7) = W (Proc.devRef .tc main_arg7) := by rw [← hB5]; exact (carried arg7_unwritten 78 20 B4).trans a4_7
  -- after the second `where`
  have a6_scale : B6 (Proc.devRef .tc main_v73) = (nodeScale (indexColumn (dstWords (W (Proc.devRef .tc main_arg1))))) := by
    rw [← hB6, stage3b_scale, a5_pos, a5_rsq, a5_zero]; rfl
  have a6_src : B6 (Proc.devRef .tc main_v3) = srcWords (W (Proc.devRef .tc main_arg1)) := by rw [← hB6]; exact (carried src_unwritten 94 3 B5).trans a5_src
  have a6_dst : B6 (Proc.devRef .tc main_v6) = dstWords (W (Proc.devRef .tc main_arg1)) := by rw [← hB6]; exact (carried dst_unwritten 91 3 B5).trans a5_dst
  have a6_prod : B6 (Proc.devRef .tc main_v60) = product (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) (W (Proc.devRef .tc main_arg4)) := by
    rw [← hB6]; exact (carried product2_unwritten 18 3 B5).trans a5_prod
  have a6_5 : B6 (Proc.devRef .tc main_arg5) = W (Proc.devRef .tc main_arg5) := by rw [← hB6]; exact (carried arg5_unwritten 98 3 B5).trans a5_5
  have a6_6 : B6 (Proc.devRef .tc main_arg6) = W (Proc.devRef .tc main_arg6) := by rw [← hB6]; exact (carried arg6_unwritten 98 3 B5).trans a5_6
  have a6_7 : B6 (Proc.devRef .tc main_arg7) = W (Proc.devRef .tc main_arg7) := by rw [← hB6]; exact (carried arg7_unwritten 98 3 B5).trans a5_7
  -- after the second layer's aggregation and bias
  have a7_biased : B7 (Proc.devRef .tc main_v109) = biased (indexColumn (srcWords (W (Proc.devRef .tc main_arg1)))) (indexColumn (dstWords (W (Proc.devRef .tc main_arg1)))) (nodeScale (indexColumn (dstWords (W (Proc.devRef .tc main_arg1))))) (product (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) (W (Proc.devRef .tc main_arg4))) (W (Proc.devRef .tc main_arg5)) := by
    rw [← hB7, stage4a_biased, a6_src, a6_dst, a6_scale, a6_prod, a6_5]
  have a7_6 : B7 (Proc.devRef .tc main_arg6) = W (Proc.devRef .tc main_arg6) := by rw [← hB7]; exact (carried arg6_unwritten 101 45 B6).trans a6_6
  have a7_7 : B7 (Proc.devRef .tc main_arg7) = W (Proc.devRef .tc main_arg7) := by rw [← hB7]; exact (carried arg7_unwritten 101 45 B6).trans a6_7
  -- after the second `relu`
  have a8_layer : B8 (Proc.devRef .tc main_v110) = (referenceLayer (indexColumn (srcWords (W (Proc.devRef .tc main_arg1)))) (indexColumn (dstWords (W (Proc.devRef .tc main_arg1)))) (nodeScale (indexColumn (dstWords (W (Proc.devRef .tc main_arg1))))) (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) (W (Proc.devRef .tc main_arg4)) (W (Proc.devRef .tc main_arg5))) := by
    rw [← hB8, stage4b_layer, a7_biased]; rfl
  have a8_6 : B8 (Proc.devRef .tc main_arg6) = W (Proc.devRef .tc main_arg6) := by rw [← hB8]; exact (carried arg6_unwritten 146 3 B7).trans a7_6
  have a8_7 : B8 (Proc.devRef .tc main_arg7) = W (Proc.devRef .tc main_arg7) := by rw [← hB8]; exact (carried arg7_unwritten 146 3 B7).trans a7_7
  -- the head
  have a9_logits : B9 (Proc.devRef .tc main_v115) = referenceLogits (referenceLayer (indexColumn (srcWords (W (Proc.devRef .tc main_arg1)))) (indexColumn (dstWords (W (Proc.devRef .tc main_arg1)))) (nodeScale (indexColumn (dstWords (W (Proc.devRef .tc main_arg1))))) (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) (W (Proc.devRef .tc main_arg4)) (W (Proc.devRef .tc main_arg5))) (W (Proc.devRef .tc main_arg6)) (W (Proc.devRef .tc main_arg7)) := by
    rw [← hB9, stage5a_logits, a8_layer, a8_6, a8_7]
  -- the log-softmax, in its three parts
  have a10_max : B10 (Proc.devRef .tc main_call4_v2) = rowMaxima (referenceLogits (referenceLayer (indexColumn (srcWords (W (Proc.devRef .tc main_arg1)))) (indexColumn (dstWords (W (Proc.devRef .tc main_arg1)))) (nodeScale (indexColumn (dstWords (W (Proc.devRef .tc main_arg1))))) (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) (W (Proc.devRef .tc main_arg4)) (W (Proc.devRef .tc main_arg5))) (W (Proc.devRef .tc main_arg6)) (W (Proc.devRef .tc main_arg7))) := by
    rw [← hB10, stage5b1_maxima, a9_logits]
  have a10_logits : B10 (Proc.devRef .tc main_v115) = (referenceLogits (referenceLayer (indexColumn (srcWords (W (Proc.devRef .tc main_arg1)))) (indexColumn (dstWords (W (Proc.devRef .tc main_arg1)))) (nodeScale (indexColumn (dstWords (W (Proc.devRef .tc main_arg1))))) (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) (W (Proc.devRef .tc main_arg4)) (W (Proc.devRef .tc main_arg5))) (W (Proc.devRef .tc main_arg6)) (W (Proc.devRef .tc main_arg7))) := by
    rw [← hB10]; exact (carried logits_unwritten 0 5 B9).trans a9_logits
  have a11_shifted : B11 (Proc.devRef .tc main_call4_v5) = shifted (referenceLogits (referenceLayer (indexColumn (srcWords (W (Proc.devRef .tc main_arg1)))) (indexColumn (dstWords (W (Proc.devRef .tc main_arg1)))) (nodeScale (indexColumn (dstWords (W (Proc.devRef .tc main_arg1))))) (referenceLayer (indexColumn (srcWords (W (Proc.devRef .tc main_arg1)))) (indexColumn (dstWords (W (Proc.devRef .tc main_arg1)))) (nodeScale (indexColumn (dstWords (W (Proc.devRef .tc main_arg1))))) (W (Proc.devRef .tc main_arg0)) (W (Proc.devRef .tc main_arg2)) (W (Proc.devRef .tc main_arg3))) (W (Proc.devRef .tc main_arg4)) (W (Proc.devRef .tc main_arg5))) (W (Proc.devRef .tc main_arg6)) (W (Proc.devRef .tc main_arg7))) := by
    rw [← hB11, stage5b2_shifted, a10_logits, a10_max]; rfl
  rw [stage5b3_result, a11_shifted]
  rfl

end Cert.ReferenceIdeal.RunValue

end
-- ==== Proof.LayerBridge.lean ====
/-
  One graph-convolution layer, computed two ways, is one function.

  With `d` the node scale (a value in `[0, ⊤)` per node), `s e` and `t e` the source and destination of edge `e` (the index
  words read signed and clamped into the node range) and `H = A · Wᵀ`:
  * the reference multiplies each gathered row `H (s e)` by the edge weight `d (s e) · d (t e)`, adds the products that
    land on node `r` into zeros, adds the bias and rectifies;
  * the kernel pre-scales the rows, `d (s e) · H (s e)`, adds those that land on `r` into zeros, post-scales the sum by
    `d r`, adds the bias and rectifies.
  For an edge that lands on `r` the clamped destination is `r`, and a factor in `[0, ⊤)` distributes over a finite sum of
  extended reals, so the two sums agree entry by entry; the bias row and the rectifying zero are read the same on both sides.
-/
import proofs.«177027_j7722351198605_2_alg».proof.ReferenceIdeal
import proofs.«177027_j7722351198605_2_alg».proof.Proof.Gen.ReferenceIdeal
import proofs.«177027_j7722351198605_2_alg».proof.Proof.LayerFunctions
import proofs.«177027_j7722351198605_2_alg».proof.Proof.ScaledAggregation
import proofs.«177027_j7722351198605_2_alg».proof.Proof.LibEdgeIndexOps
import proofs.«177027_j7722351198605_2_alg».proof.Proof.LibColumnCast
import proofs.«177027_j7722351198605_2_alg».proof.Proof.LibDotSum
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section
namespace Cert.ReferenceIdeal.LayerBridge
open Cert.ReferenceIdeal Cert.ReferenceIdeal.Gen Cert.GraphLayers Idealize.ShloMosaic Idealize.ShloMosaic.ValueIdx
open Idealize.ShloMosaic.EdgeIdx Cert.ScaledAggregation

/-- One graph-convolution layer as the reference computes it, operation for operation: the rows of `A · Wᵀ`, gathered at the
    sources, each times its edge weight `d (source) · d (destination)`, scattered by destination into zeros; plus the bias;
    rectified. -/
def referenceLayer (SRC DST : IVec S650000x1 32) (dinv : FVec Ideal S50000 .f32) (A : FVec Ideal S50000x128 .f32)
    (W : FVec Ideal S128x128 .f32) (b : FVec Ideal S128 .f32) : FVec Ideal S50000x128 .f32 :=
  maximumf
    (addf
      (Host.scatterAdd (F := Ideal) scatter_S50000x128_S650000x1_S650000x128_1_0_0_1
        (broadcastInDim S50000x128 ![] bcast_S_S50000x128 (constant (F := Ideal) S_ .f32 0x00000000#32)) DST
        (mulf
          (Host.gather gather_S50000x128_S650000x1_S650000x128_1_0_n_n_0_1_1128
            (Host.dotGeneral (F := Ideal) dot_S50000x128_S128x128_S50000x128_1_0_0_1_n_n none A
              (transpose S128x128 [1, 0] W transposes_S128x128_S128x128_1_0)) SRC)
          (broadcastInDim S650000x128 ![0, 1] bcast_S650000x1_S650000x128_0_1
            (broadcastInDim S650000x1 ![0] bcast_S650000_S650000x1_0
              (mulf (Host.gather gather_S50000_S650000x1_S650000_n_0_n_n_0_1_1 dinv SRC)
                (Host.gather gather_S50000_S650000x1_S650000_n_0_n_n_0_1_1 dinv DST))))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-! ## The layout operations at an index -/

/-- The transposed weight matrix at `(k, c)` is the weight matrix at `(c, k)`. -/
theorem transposed_apply (W : FVec Ideal S128x128 .f32) (k c : Fin 128) :
    transpose S128x128 [1, 0] W transposes_S128x128_S128x128_1_0 (ix2 k c) = W (ix2 c k) :=
  transpose_apply [1, 0] W transposes_S128x128_S128x128_1_0 (ix2 k c) (ix2 c k) (fun b => match b with
    | ⟨0, _⟩ => rfl
    | ⟨1, _⟩ => rfl)

/-- The all-zero array reads the zero word everywhere. -/
theorem zeros_apply (i : S50000x128.Idx) :
    (broadcastInDim S50000x128 ![] bcast_S_S50000x128 (constant (F := Ideal) S_ .f32 0x00000000#32) : FVec Ideal S50000x128 .f32) i
      = Ideal.ofBits .f32 0x00000000#32 :=
  broadcastInDim_apply _ bcast_S_S50000x128 (constant (F := Ideal) S_ .f32 0x00000000#32) i (fun a => a.elim0)
    (fun a => a.elim0)

/-- The bias, made a row and repeated down the rows, reads `b[k]` at `(r, k)`. -/
theorem biasRows_apply (b : FVec Ideal S128 .f32) (r : Fin 50000) (k : Fin 128) :
    (broadcastInDim S50000x128 ![0, 1] bcast_S1x128_S50000x128_0_1 (broadcastInDim S1x128 ![1] bcast_S128_S1x128_1 b)
      : FVec Ideal S50000x128 .f32) (ix2 r k) = b (ix1 k) := by
  refine (broadcastInDim_apply _ bcast_S1x128_S50000x128_0_1 _ (ix2 r k) (ix2 (⟨0, Nat.one_pos⟩ : Fin 1) k) (fun a => match a with
    | ⟨0, _⟩ => by show 0 = if (1 : Nat) = 1 then 0 else r.val; rw [if_pos rfl]
    | ⟨1, _⟩ => by show k.val = if (128 : Nat) = 1 then 0 else k.val; rw [if_neg (by decide)])).trans ?_
  exact broadcastInDim_apply _ bcast_S128_S1x128_1 b (ix2 (⟨0, Nat.one_pos⟩ : Fin 1) k) (ix1 k) (fun a => match a with
    | ⟨0, _⟩ => by show k.val = if (128 : Nat) = 1 then 0 else k.val; rw [if_neg (by decide)])

/-- A per-edge value, made a column and repeated along the rows, reads `y[e]` at `(e, c)`. -/
theorem edgeColumn_apply (y : FVec Ideal S650000 .f32) (e : Fin 650000) (c : Fin 128) :
    (broadcastInDim S650000x128 ![0, 1] bcast_S650000x1_S650000x128_0_1 (broadcastInDim S650000x1 ![0] bcast_S650000_S650000x1_0 y)
      : FVec Ideal S650000x128 .f32) (ix2 e c) = y (ix1 e) := by
  refine (broadcastInDim_apply _ bcast_S650000x1_S650000x128_0_1 _ (ix2 e c) (ix2 e (⟨0, Nat.one_pos⟩ : Fin 1)) (fun a => match a with
    | ⟨0, _⟩ => by show e.val = if (650000 : Nat) = 1 then 0 else e.val; rw [if_neg (by decide)]
    | ⟨1, _⟩ => by show 0 = if (1 : Nat) = 1 then 0 else c.val; rw [if_pos rfl])).trans ?_
  exact broadcastInDim_apply _ bcast_S650000_S650000x1_0 y (ix2 e (⟨0, Nat.one_pos⟩ : Fin 1)) (ix1 e) (fun a => match a with
    | ⟨0, _⟩ => by show e.val = if (650000 : Nat) = 1 then 0 else e.val; rw [if_neg (by decide)])

/-! ## The two gathers at an index -/

theorem nodes_pos : 0 < 50000 := by omega

/-- Rows gathered at a column of node numbers: row `e` is the operand's row at the clamped node of `e`. -/
theorem rowsAt_apply (X : FVec Ideal S50000x128 .f32) (idx : IVec S650000x1 32) (e : Fin 650000) (c : Fin 128) :
    Host.gather gather_S50000x128_S650000x1_S650000x128_1_0_n_n_0_1_1128 X idx (ix2 e c)
      = X (ix2 (clampedNode nodes_pos idx e) c) :=
  rowGather_apply nodes_pos gather_S50000x128_S650000x1_S650000x128_1_0_n_n_0_1_1128_wf X idx e c

/-- Entries of a flat array gathered at a column of node numbers: entry `e` is the operand at the clamped node of `e`. -/
theorem entriesAt_apply (x : FVec Ideal S50000 .f32) (idx : IVec S650000x1 32) (e : Fin 650000) :
    Host.gather gather_S50000_S650000x1_S650000_n_0_n_n_0_1_1 x idx (ix1 e) = x (ix1 (clampedNode nodes_pos idx e)) :=
  flatGather_apply nodes_pos gather_S50000_S650000x1_S650000_n_0_n_n_0_1_1_wf x idx e

/-! ## The matrix product at an index -/

/-- The dimension record of `[50000,128] · [128,128]`: axis 1 of the left operand is contracted with axis 0 of the right. -/
abbrev nodeDot : DotDims S50000x128 S128x128 S50000x128 := dot_S50000x128_S128x128_S50000x128_1_0_0_1_n_n

/-- The left operand's row is the output's row. -/
theorem nodeDot_lhs_row (i : S50000x128.Idx) (q : nodeDot.contr.Idx) : (nodeDot.lhsIdx i q 0).val = (i 0).val := by
  unfold DotDims.lhsIdx
  rw [dif_neg (show ¬(0 : Fin S50000x128.rank) ∈ nodeDot.lhsBatch by decide),
    dif_pos (show (0 : Fin S50000x128.rank) ∈ nodeDot.lhsNonContracting by decide)]
  rfl

/-- The left operand's column is the contraction position. -/
theorem nodeDot_lhs_col (i : S50000x128.Idx) (q : nodeDot.contr.Idx) : (nodeDot.lhsIdx i q 1).val = (q ⟨0, by decide⟩).val :=
  nodeDot.lhsIdx_val_of_single rfl i q

/-- The right operand's row is the contraction position. -/
theorem nodeDot_rhs_row (i : S50000x128.Idx) (q : nodeDot.contr.Idx) : (nodeDot.rhsIdx i q 0).val = (q ⟨0, by decide⟩).val :=
  nodeDot.rhsIdx_val_of_single rfl i q

/-- The right operand's column is the output's column. -/
theorem nodeDot_rhs_col (i : S50000x128.Idx) (q : nodeDot.contr.Idx) : (nodeDot.rhsIdx i q 1).val = (i 1).val := by
  unfold DotDims.rhsIdx
  rw [dif_neg (show ¬(1 : Fin S128x128.rank) ∈ nodeDot.rhsBatch by decide),
    dif_pos (show (1 : Fin S128x128.rank) ∈ nodeDot.rhsNonContracting by decide)]
  rfl

/-- The product at `(s, c)`: `Σ_j A[s, j] · Wt[j, c]`. -/
theorem product_apply (A : FVec Ideal S50000x128 .f32) (Wt : FVec Ideal S128x128 .f32) (s : Fin 50000) (c : Fin 128) :
    Host.dotGeneral (F := Ideal) dot_S50000x128_S128x128_S50000x128_1_0_0_1_n_n none A Wt (ix2 s c)
      = ∑ j : Fin 128, A (ix2 s j) * Wt (ix2 j c) := by
  simp only [Host.dotGeneral]
  rw [Ideal.dotGeneral_apply]
  refine Cert.LibDotSum.sum_contr_eq nodeDot 128 rfl rfl A Wt (ix2 s c) (fun j => A (ix2 s j)) (fun j => Wt (ix2 j c))
    (fun j => ?_) (fun j => ?_)
  · have hj := contrEquiv1_symm_val nodeDot 128 rfl rfl j
    refine congrArg A (funext fun ax => Fin.ext ?_)
    match ax with
    | ⟨0, _⟩ => exact nodeDot_lhs_row _ _
    | ⟨1, _⟩ => exact (nodeDot_lhs_col _ _).trans hj
  · have hj := contrEquiv1_symm_val nodeDot 128 rfl rfl j
    refine congrArg Wt (funext fun ax => Fin.ext ?_)
    match ax with
    | ⟨0, _⟩ => exact (nodeDot_rhs_row _ _).trans hj
    | ⟨1, _⟩ => exact nodeDot_rhs_col _ _

/-! ## The per-edge updates -/

/-- The kernel's update of edge `e`: the source's row of `A · Wᵀ`, scaled by the source's scale. -/
theorem kernelUpdate_apply (SRC : IVec S650000x1 32) (dinv : FVec Ideal S50000 .f32) (A : FVec Ideal S50000x128 .f32)
    (W : FVec Ideal S128x128 .f32) (hcol : S50000.ShapeCasts S50000x1) (hbits : FTy.bf16.bits < FTy.f32.bits)
    (e : Fin 650000) (c : Fin 128) :
    Host.gather gather_S50000x128_S650000x1_S650000x128_1_0_n_n_0_1_1128
        (scaledProduct (R := 50000) (K := 128) (Q := 128) (shapeCast S50000x1 dinv hcol) A
          (truncf .bf16 (transpose S128x128 [1, 0] W transposes_S128x128_S128x128_1_0) hbits)) SRC (ix2 e c)
      = dinv (ix1 (clampedNode nodes_pos SRC e))
        * ∑ j : Fin 128, A (ix2 (clampedNode nodes_pos SRC e) j) * W (ix2 c j) := by
  refine (rowsAt_apply _ SRC e c).trans ?_
  rw [scaledProduct_apply, Cert.Lib.shapeCast_a_a1_apply]
  congr 1
  exact Finset.sum_congr rfl fun j _ => by
    rw [show (truncf .bf16 (transpose S128x128 [1, 0] W transposes_S128x128_S128x128_1_0) hbits : FVec Ideal S128x128 .bf16) (ix2 j c)
      = transpose S128x128 [1, 0] W transposes_S128x128_S128x128_1_0 (ix2 j c) from rfl, transposed_apply]

/-- The reference's update of edge `e`: the source's row of `A · Wᵀ` times the edge weight. -/
theorem referenceUpdate_apply (SRC DST : IVec S650000x1 32) (dinv : FVec Ideal S50000 .f32) (A : FVec Ideal S50000x128 .f32)
    (W : FVec Ideal S128x128 .f32) (e : Fin 650000) (c : Fin 128) :
    (mulf
        (Host.gather gather_S50000x128_S650000x1_S650000x128_1_0_n_n_0_1_1128
          (Host.dotGeneral (F := Ideal) dot_S50000x128_S128x128_S50000x128_1_0_0_1_n_n none A
            (transpose S128x128 [1, 0] W transposes_S128x128_S128x128_1_0)) SRC)
        (broadcastInDim S650000x128 ![0, 1] bcast_S650000x1_S650000x128_0_1
          (broadcastInDim S650000x1 ![0] bcast_S650000_S650000x1_0
            (mulf (Host.gather gather_S50000_S650000x1_S650000_n_0_n_n_0_1_1 dinv SRC)
              (Host.gather gather_S50000_S650000x1_S650000_n_0_n_n_0_1_1 dinv DST))))
        : FVec Ideal S650000x128 .f32) (ix2 e c)
      = (∑ j : Fin 128, A (ix2 (clampedNode nodes_pos SRC e) j) * W (ix2 c j))
        * (dinv (ix1 (clampedNode nodes_pos SRC e)) * dinv (ix1 (clampedNode nodes_pos DST e))) := by
  refine (mulf_apply _ _ _).trans ?_
  congr 1
  · refine (rowsAt_apply _ SRC e c).trans ?_
    refine (product_apply A _ _ c).trans ?_
    exact Finset.sum_congr rfl fun j _ => by rw [transposed_apply]
  · refine (edgeColumn_apply _ e c).trans ?_
    refine (mulf_apply _ _ _).trans ?_
    rw [entriesAt_apply, entriesAt_apply]

/-! ## The layer -/

/-- The row scatter of the program is the accumulating sum over the updates that land on an element. -/
theorem rowScatterAdd_eq (Z : FVec Ideal S50000x128 .f32) (DST : IVec S650000x1 32) (U : FVec Ideal S650000x128 .f32) :
    Host.scatterAdd (F := Ideal) scatter_S50000x128_S650000x1_S650000x128_1_0_0_1 Z DST U
      = Ideal.hostScatterAdd (rowScatterDims 50000 650000 128 scatter_S50000x128_S650000x1_S650000x128_1_0_0_1_wf) Z DST U := rfl

/-- Two scatters by destination into zeros, one of pre-scaled source rows and one of source rows times edge weights: the
    first, post-scaled by the node's scale, is the second. -/
theorem scattered_eq (SRC DST : IVec S650000x1 32) (dinv : FVec Ideal S50000 .f32) (hd : ∀ i, 0 ≤ dinv i ∧ dinv i ≠ ⊤)
    (H : Fin 50000 → Fin 128 → EReal) (Z Z0 : FVec Ideal S50000x128 .f32) (hZ : ∀ i, Z i = 0) (hZ0 : ∀ i, Z0 i = 0)
    (U U' : FVec Ideal S650000x128 .f32)
    (hU : ∀ (e : Fin 650000) (c : Fin 128),
      U (ix2 e c) = dinv (ix1 (clampedNode nodes_pos SRC e)) * H (clampedNode nodes_pos SRC e) c)
    (hU' : ∀ (e : Fin 650000) (c : Fin 128),
      U' (ix2 e c) = H (clampedNode nodes_pos SRC e) c
        * (dinv (ix1 (clampedNode nodes_pos SRC e)) * dinv (ix1 (clampedNode nodes_pos DST e))))
    (r : Fin 50000) (k : Fin 128) :
    dinv (ix1 r) * Host.scatterAdd (F := Ideal) scatter_S50000x128_S650000x1_S650000x128_1_0_0_1 Z DST U (ix2 r k)
      = Host.scatterAdd (F := Ideal) scatter_S50000x128_S650000x1_S650000x128_1_0_0_1 Z0 DST U' (ix2 r k) := by
  rw [rowScatterAdd_eq, rowScatterAdd_eq]
  exact scaled_aggregation nodes_pos scatter_S50000x128_S650000x1_S650000x128_1_0_0_1_wf (fun i => dinv (ix1 i))
    (fun i => hd (ix1 i)) H SRC DST Z Z0 hZ hZ0 U U' hU hU' r k

/-- A scaled, shifted and rectified entry against a shifted and rectified one: equal when the scaled aggregate, the bias
    entry and the rectifying zero agree. -/
theorem rectified_eq (D : FVec Ideal S50000x1 .f32) (AGG : FVec Ideal S50000x128 .f32) (B : FVec Ideal S1x128 .f32)
    (S' bias zeros : FVec Ideal S50000x128 .f32) (r : Fin 50000) (k : Fin 128)
    (h1 : D (ix2 r (⟨0, Nat.one_pos⟩ : Fin 1)) * AGG (ix2 r k) = S' (ix2 r k))
    (h2 : B (ix2 (⟨0, Nat.one_pos⟩ : Fin 1) k) = bias (ix2 r k)) (h3 : zeros (ix2 r k) = zeroWord) :
    activation (R := 50000) (K := 128) D AGG B (ix2 r k) = maximumf (addf S' bias) zeros (ix2 r k) := by
  rw [activation_apply, maximumf_apply, addf_apply, h1, h2, h3]

/-- The same layer as the kernel computes it: the rows of `A · Wᵀ` pre-scaled by the node scale, gathered at the sources and
    scattered by destination into zeros, then post-scaled, shifted and rectified (`activation`). -/
theorem layer_eq (SRC DST : IVec S650000x1 32) (dinv : FVec Ideal S50000 .f32) (hd : ∀ i, 0 ≤ dinv i ∧ dinv i ≠ ⊤)
    (A : FVec Ideal S50000x128 .f32) (W : FVec Ideal S128x128 .f32) (b : FVec Ideal S128 .f32)
    (Z : FVec Ideal S50000x128 .f32) (hZ : ∀ i, Z i = 0)
    (hcol : S50000.ShapeCasts S50000x1) (hrow : S128.ShapeCasts S1x128) (hbits : FTy.bf16.bits < FTy.f32.bits) :
    activation (R := 50000) (K := 128) (shapeCast S50000x1 dinv hcol)
        (Host.scatterAdd (F := Ideal) scatter_S50000x128_S650000x1_S650000x128_1_0_0_1 Z DST
          (Host.gather gather_S50000x128_S650000x1_S650000x128_1_0_n_n_0_1_1128
            (scaledProduct (R := 50000) (K := 128) (Q := 128) (shapeCast S50000x1 dinv hcol) A
              (truncf .bf16 (transpose S128x128 [1, 0] W transposes_S128x128_S128x128_1_0) hbits)) SRC))
        (shapeCast S1x128 b hrow)
      = referenceLayer SRC DST dinv A W b := by
  funext i
  obtain ⟨r, k, rfl⟩ : ∃ (r : Fin 50000) (k : Fin 128), i = ix2 r k := ⟨i 0, i 1, eq_ix2 i⟩
  unfold referenceLayer
  refine rectified_eq _ _ _ _ _ _ r k ?_ ?_ ?_
  · refine (congrArg (· * _) (Cert.Lib.shapeCast_a_a1_apply dinv hcol r _)).trans ?_
    exact scattered_eq SRC DST dinv hd (fun i c => ∑ j : Fin 128, A (ix2 i j) * W (ix2 c j)) Z _ hZ
      (fun i => (zeros_apply i).trans Ideal.ofBits_zero_f32) _ _
      (fun e c => kernelUpdate_apply SRC dinv A W hcol hbits e c)
      (fun e c => referenceUpdate_apply SRC DST dinv A W e c) r k
  · exact (shapeCast_a_1a_apply b hrow _ k).trans (biasRows_apply b r k).symm
  · exact zeros_apply _

end Cert.ReferenceIdeal.LayerBridge
end
-- ==== Proof.HeadBridge.lean ====
/-
  The reference's head — the logits and the log-softmax along rows — as the layer functions.

  The reference computes its logits as the activations times the transposed head weights, plus the bias laid as a row and
  copied down the rows; entry `(r, q)` is `Σ_k A[r, k] · Wl[q, k]ᵀ + bl[q]`, the layer function `logits` of the same
  operands (`logits_eq`). Its log-softmax takes each row's maximum `M_r` as the larger of `−∞` and the fold of `max`
  from `−∞` along the row — the fold itself, since a fold of `max` is at least its starting value —, subtracts it, and
  subtracts the logarithm of the row's sum of exponentials taken from `0`: entry `(r, q)` is
  `(Lg[r, q] − M_r) − log Σ_q' exp (Lg[r, q'] − M_r)`, the layer function `logSoftmaxRows` (`head_eq`).
-/
import proofs.«177027_j7722351198605_2_alg».proof.ReferenceIdeal
import proofs.«177027_j7722351198605_2_alg».proof.Proof.Gen.ReferenceIdeal
import proofs.«177027_j7722351198605_2_alg».proof.Proof.LayerFunctions
import proofs.«177027_j7722351198605_2_alg».proof.Proof.LibDotSum
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

namespace Cert.ReferenceIdeal.HeadBridge

open Cert.ReferenceIdeal Cert.ReferenceIdeal.Gen Cert.GraphLayers Idealize.ShloMosaic Idealize.ShloMosaic.ValueIdx

/-! ## The reference's head, as functions of arrays -/

/-- The reference's logits: the activations times the transposed head weights, plus the bias laid as a row and copied
    down the rows. -/
def referenceLogits (A : FVec Ideal S50000x128 .f32) (Wl : FVec Ideal S40x128 .f32) (bl : FVec Ideal S40 .f32) :
    FVec Ideal S50000x40 .f32 :=
  addf
    (Host.dotGeneral (F := Ideal) dot_S50000x128_S128x40_S50000x40_1_0_0_1_n_n none A
      (transpose S128x40 [1, 0] Wl transposes_S40x128_S128x40_1_0))
    (broadcastInDim S50000x40 ![0, 1] bcast_S1x40_S50000x40_0_1 (broadcastInDim S1x40 ![1] bcast_S40_S1x40_1 bl))

/-- The reference's row maxima: the larger of `−∞` and the fold of `max` from `−∞` along each row. -/
def referenceRowMax (Lg : FVec Ideal S50000x40 .f32) : FVec Ideal S50000 .f32 :=
  maximumf (broadcastInDim S50000 ![] bcast_S_S50000 (constant (F := Ideal) S_ .f32 0xFF800000#32))
    (Host.reduce FloatOps.maximumf Lg (constant (F := Ideal) S_ .f32 0xFF800000#32) reducesTo_S50000x40_S50000_d1 h_S_)

/-- The logits with each row's maximum subtracted. -/
def referenceShifted (Lg : FVec Ideal S50000x40 .f32) : FVec Ideal S50000x40 .f32 :=
  subf Lg
    (broadcastInDim S50000x40 ![0, 1] bcast_S50000x1_S50000x40_0_1
      (broadcastInDim S50000x1 ![0] bcast_S50000_S50000x1_0 (referenceRowMax Lg)))

/-- The reference's log-softmax along rows: the shifted logits minus the logarithm of each row's sum of their exponentials. -/
def referenceLogSoftmax (Lg : FVec Ideal S50000x40 .f32) : FVec Ideal S50000x40 .f32 :=
  subf (referenceShifted Lg)
    (broadcastInDim S50000x40 ![0, 1] bcast_S50000x1_S50000x40_0_1
      (Host.log (F := Ideal)
        (broadcastInDim S50000x1 ![0] bcast_S50000_S50000x1_0
          (Host.reduceAdd (F := Ideal) (Host.exp (F := Ideal) (referenceShifted Lg))
            (constant (F := Ideal) S_ .f32 0x00000000#32) reducesTo_S50000x40_S50000_d1 h_S_))))

/-! ## The layout operations, read at an index -/

/-- A vector laid as a column reads, in row `r`, the vector's entry `r`. -/
theorem columnOf_apply (m : FVec Ideal S50000 .f32) (r : Fin 50000) (u : Fin 1) :
    broadcastInDim S50000x1 ![0] bcast_S50000_S50000x1_0 m (ix2 r u) = m (ix1 r) :=
  broadcastInDim_apply _ bcast_S50000_S50000x1_0 m (ix2 r u) (ix1 r) (fun a => match a with
    | ⟨0, _⟩ => by show r.val = if (50000 : Nat) = 1 then 0 else r.val; rw [if_neg (by decide)])

/-- A column copied along the rows reads, at `(r, q)`, the column's entry in row `r`. -/
theorem alongRows_apply (v : FVec Ideal S50000x1 .f32) (r : Fin 50000) (q : Fin 40) :
    broadcastInDim S50000x40 ![0, 1] bcast_S50000x1_S50000x40_0_1 v (ix2 r q) = v (ix2 r (⟨0, Nat.one_pos⟩ : Fin 1)) :=
  broadcastInDim_apply _ bcast_S50000x1_S50000x40_0_1 v (ix2 r q) (ix2 r (⟨0, Nat.one_pos⟩ : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- The bias laid as a row and copied down the rows reads, at `(r, q)`, the bias's entry `q`. -/
theorem biasRows_apply (bl : FVec Ideal S40 .f32) (r : Fin 50000) (q : Fin 40) :
    broadcastInDim S50000x40 ![0, 1] bcast_S1x40_S50000x40_0_1 (broadcastInDim S1x40 ![1] bcast_S40_S1x40_1 bl) (ix2 r q)
      = bl (ix1 q) := by
  refine (broadcastInDim_apply _ bcast_S1x40_S50000x40_0_1 _ (ix2 r q) (ix2 (⟨0, Nat.one_pos⟩ : Fin 1) q) (fun a => match a with
    | ⟨0, _⟩ => by show 0 = if (1 : Nat) = 1 then 0 else r.val; rw [if_pos rfl]
    | ⟨1, _⟩ => by show q.val = if (40 : Nat) = 1 then 0 else q.val; rw [if_neg (by decide)])).trans ?_
  exact broadcastInDim_apply _ bcast_S40_S1x40_1 bl (ix2 (⟨0, Nat.one_pos⟩ : Fin 1) q) (ix1 q) (fun a => match a with
    | ⟨0, _⟩ => by show q.val = if (40 : Nat) = 1 then 0 else q.val; rw [if_neg (by decide)])

/-- The bias reshaped to a row reads, at `(0, q)`, the bias's entry `q`: both positions have row-major offset `q`. -/
theorem biasRow_apply (bl : FVec Ideal S40 .f32) (hrow : S40.ShapeCasts S1x40) (q : Fin 40) :
    shapeCast S1x40 bl hrow (ix2 (⟨0, Nat.one_pos⟩ : Fin 1) q) = bl (ix1 q) :=
  shapeCast_apply bl hrow _ _ (by
    rw [Shape.rowMajor_val_two, Shape.rowMajor_val_one]
    show q.val = 0 * 40 + q.val
    rw [Nat.zero_mul, Nat.zero_add])

/-! ## The logits -/

/-- The left operand's index of the head's matrix product: row of the output index, … -/
theorem dotLhs_0 (i : S50000x40.Idx) (k : dot_S50000x128_S128x40_S50000x40_1_0_0_1_n_n.contr.Idx) :
    (dot_S50000x128_S128x40_S50000x40_1_0_0_1_n_n.lhsIdx i k 0).val = (i 0).val := by
  unfold DotDims.lhsIdx
  rw [dif_neg (show ¬(0 : Fin S50000x128.rank) ∈ dot_S50000x128_S128x40_S50000x40_1_0_0_1_n_n.lhsBatch by decide),
    dif_pos (show (0 : Fin S50000x128.rank) ∈ dot_S50000x128_S128x40_S50000x40_1_0_0_1_n_n.lhsNonContracting by decide)]
  rfl
/-- … column the contraction position. -/
theorem dotLhs_1 (i : S50000x40.Idx) (k : dot_S50000x128_S128x40_S50000x40_1_0_0_1_n_n.contr.Idx) :
    (dot_S50000x128_S128x40_S50000x40_1_0_0_1_n_n.lhsIdx i k 1).val = (k ⟨0, by decide⟩).val :=
  dot_S50000x128_S128x40_S50000x40_1_0_0_1_n_n.lhsIdx_val_of_single rfl i k
/-- The right operand's index: row the contraction position, … -/
theorem dotRhs_0 (i : S50000x40.Idx) (k : dot_S50000x128_S128x40_S50000x40_1_0_0_1_n_n.contr.Idx) :
    (dot_S50000x128_S128x40_S50000x40_1_0_0_1_n_n.rhsIdx i k 0).val = (k ⟨0, by decide⟩).val :=
  dot_S50000x128_S128x40_S50000x40_1_0_0_1_n_n.rhsIdx_val_of_single rfl i k
/-- … column that of the output index. -/
theorem dotRhs_1 (i : S50000x40.Idx) (k : dot_S50000x128_S128x40_S50000x40_1_0_0_1_n_n.contr.Idx) :
    (dot_S50000x128_S128x40_S50000x40_1_0_0_1_n_n.rhsIdx i k 1).val = (i 1).val := by
  unfold DotDims.rhsIdx
  rw [dif_neg (show ¬(1 : Fin S128x40.rank) ∈ dot_S50000x128_S128x40_S50000x40_1_0_0_1_n_n.rhsBatch by decide),
    dif_pos (show (1 : Fin S128x40.rank) ∈ dot_S50000x128_S128x40_S50000x40_1_0_0_1_n_n.rhsNonContracting by decide)]
  rfl

/-- At output index `(r, q)` and contraction coordinate `k` the left operand is read at `(r, k)` … -/
theorem dotLhs_eq (r : Fin 50000) (q : Fin 40) (k : Fin 128) :
    dot_S50000x128_S128x40_S50000x40_1_0_0_1_n_n.lhsIdx (ix2 r q)
        ((contrEquiv1 dot_S50000x128_S128x40_S50000x40_1_0_0_1_n_n 128 rfl rfl).symm k) = ix2 r k :=
  funext fun a => Fin.ext (by
    have hk := contrEquiv1_symm_val dot_S50000x128_S128x40_S50000x40_1_0_0_1_n_n 128 rfl rfl k
    match a with
    | ⟨0, _⟩ => exact dotLhs_0 _ _
    | ⟨1, _⟩ => exact (dotLhs_1 _ _).trans hk)
/-- … and the right operand at `(k, q)`. -/
theorem dotRhs_eq (r : Fin 50000) (q : Fin 40) (k : Fin 128) :
    dot_S50000x128_S128x40_S50000x40_1_0_0_1_n_n.rhsIdx (ix2 r q)
        ((contrEquiv1 dot_S50000x128_S128x40_S50000x40_1_0_0_1_n_n 128 rfl rfl).symm k) = ix2 k q :=
  funext fun a => Fin.ext (by
    have hk := contrEquiv1_symm_val dot_S50000x128_S128x40_S50000x40_1_0_0_1_n_n 128 rfl rfl k
    match a with
    | ⟨0, _⟩ => exact (dotRhs_0 _ _).trans hk
    | ⟨1, _⟩ => exact dotRhs_1 _ _)

/-- THE LOGITS: the layer function `logits`, of the activations, the transposed head weights (narrowed: the identity on
    extended reals) and the bias as a row, is the reference's logits. -/
theorem logits_eq (A : FVec Ideal S50000x128 .f32) (Wl : FVec Ideal S40x128 .f32) (bl : FVec Ideal S40 .f32)
    (hrow : S40.ShapeCasts S1x40) (hbits : FTy.bf16.bits < FTy.f32.bits) :
    logits (R := 50000) (K := 128) (Q := 40) A
        (truncf .bf16 (transpose S128x40 [1, 0] Wl transposes_S40x128_S128x40_1_0) hbits) (shapeCast S1x40 bl hrow)
      = referenceLogits A Wl bl := by
  funext j
  obtain ⟨r, q, rfl⟩ : ∃ (r : Fin 50000) (q : Fin 40), j = ix2 r q := ⟨j 0, j 1, eq_ix2 j⟩
  rw [logits_apply]
  unfold referenceLogits
  refine ((addf_apply _ _ (ix2 r q)).trans ?_).symm
  refine congrArg₂ (· + ·) ?_ ((biasRows_apply bl r q).trans (biasRow_apply bl hrow q).symm)
  simp only [Host.dotGeneral]
  refine (Ideal.dotGeneral_apply dot_S50000x128_S128x40_S50000x40_1_0_0_1_n_n none _ A _ (ix2 r q)).trans ?_
  refine Cert.LibDotSum.sum_contr_eq dot_S50000x128_S128x40_S50000x40_1_0_0_1_n_n 128 rfl rfl _ _ (ix2 r q)
    (fun k => A (ix2 r k))
    (fun k => (truncf .bf16 (transpose S128x40 [1, 0] Wl transposes_S40x128_S128x40_1_0) hbits : FVec Ideal S128x40 .bf16) (ix2 k q))
    (fun k => ?_) (fun k => ?_)
  · rw [dotLhs_eq r q k]
  · rw [dotRhs_eq r q k]
    rfl

/-! ## The log-softmax -/

/-- The larger of a fold's starting value and the fold of `max` from it is the fold. -/
theorem max_fold_start {ι : Type} (s : Finset ι) (b : EReal) (f : ι → EReal) :
    max b (s.fold max b f) = s.fold max b f :=
  max_eq_right ((Finset.le_fold_max b).2 (Or.inl le_rfl))

/-- THE ROW MAXIMUM: the reference's is the fold of `max` from `−∞` along the row. -/
theorem referenceRowMax_apply (Lg : FVec Ideal S50000x40 .f32) (r : Fin 50000) :
    referenceRowMax Lg (ix1 r) = rowMax (R := 50000) (Q := 40) Lg r := by
  have h : S50000x40.Reduces [1] S50000 := by decide
  have hb : broadcastInDim S50000 ![] bcast_S_S50000 (constant (F := Ideal) S_ .f32 0xFF800000#32) (ix1 r) = negInfWord :=
    broadcastInDim_apply _ bcast_S_S50000 _ (ix1 r) (fun a => a.elim0) (fun a => a.elim0)
  have hf : (Lg ∘ h.lift (ix1 r)) = fun q : Fin 40 => Lg (ix2 r q) :=
    funext fun q => congrArg Lg (funext fun a => Fin.ext (by match a with | ⟨0, _⟩ => rfl | ⟨1, _⟩ => rfl))
  unfold referenceRowMax rowMax
  refine (maximumf_apply _ _ (ix1 r)).trans ?_
  rw [Host.reduce_eq_fold_single FloatOps.maximumf Lg _ reducesTo_S50000x40_S50000_d1 h h_S_ (ix1 r), hb]
  exact (congrArg (fun f : Fin 40 → EReal => max negInfWord (Finset.fold max negInfWord f Finset.univ)) hf).trans
    (max_fold_start _ _ _)

/-- THE ROW SUM: the reference's sum along a row, from the zero word, is the sum of the row's entries. -/
theorem referenceRowSum_apply (X : FVec Ideal S50000x40 .f32) (r : Fin 50000) :
    Host.reduceAdd (F := Ideal) X (constant (F := Ideal) S_ .f32 0x00000000#32) reducesTo_S50000x40_S50000_d1 h_S_ (ix1 r)
      = ∑ q : Fin 40, X (ix2 r q) := by
  simp only [Host.reduceAdd, Ideal.hostReduceAdd_def]
  rw [Ideal.hostReduceAdd_single reducesTo_S50000x40_S50000_d1 (by decide)]
  have hz : constant (F := Ideal) S_ .f32 0x00000000#32 (Shape.Idx.first h_S_) = 0 := Ideal.ofBits_zero_f32
  rw [hz, zero_add]
  exact Finset.sum_congr rfl fun k _ =>
    congrArg X (funext fun a => Fin.ext (by match a with | ⟨0, _⟩ => rfl | ⟨1, _⟩ => rfl))

/-- The shifted logits at `(r, q)`: the logit minus its row's maximum. -/
theorem referenceShifted_apply (Lg : FVec Ideal S50000x40 .f32) (r : Fin 50000) (q : Fin 40) :
    referenceShifted Lg (ix2 r q) = Lg (ix2 r q) - rowMax (R := 50000) (Q := 40) Lg r := by
  unfold referenceShifted
  refine (subf_apply _ _ (ix2 r q)).trans (congrArg (Lg (ix2 r q) - ·) ?_)
  exact (alongRows_apply _ r q).trans ((columnOf_apply _ r _).trans (referenceRowMax_apply Lg r))

/-- The host's logarithm of an array, at an index: the logarithm of the entry. -/
theorem hostLog_apply {s : Shape} (x : FVec Ideal s .f32) (i : s.Idx) : Host.log (F := Ideal) x i = Ideal.log (x i) := rfl

/-- The host's exponential of an array, at an index: the exponential of the entry. -/
theorem hostExp_apply {s : Shape} (x : FVec Ideal s .f32) (i : s.Idx) : Host.exp (F := Ideal) x i = Ideal.exp (x i) := rfl

/-- THE HEAD: the reference's log-softmax is the layer function `logSoftmaxRows`. -/
theorem head_eq (Lg : FVec Ideal S50000x40 .f32) :
    referenceLogSoftmax Lg = logSoftmaxRows (R := 50000) (Q := 40) Lg := by
  funext j
  obtain ⟨r, q, rfl⟩ : ∃ (r : Fin 50000) (q : Fin 40), j = ix2 r q := ⟨j 0, j 1, eq_ix2 j⟩
  rw [logSoftmaxRows_apply]
  unfold referenceLogSoftmax
  refine (subf_apply _ _ (ix2 r q)).trans (congrArg₂ (· - ·) (referenceShifted_apply Lg r q) ?_)
  refine (alongRows_apply _ r q).trans ?_
  refine (hostLog_apply _ _).trans ?_
  refine congrArg Ideal.log ((columnOf_apply _ r _).trans ((referenceRowSum_apply _ r).trans ?_))
  exact Finset.sum_congr rfl fun q' _ =>
    (hostExp_apply _ _).trans (congrArg Ideal.exp (referenceShifted_apply Lg r q'))

end Cert.ReferenceIdeal.HeadBridge

end
-- ==== Proof.ValueBridge.lean ====
/-
  The kernel's result and the reference's result are one function of the eight arguments.

  Both programs build the same source and destination index columns, the same degrees and the same node scale `d` from
  the edge list; these are the same operation trees, written once over each program's names for the shapes. A layer of the
  kernel — rows of `A · Wᵀ` pre-scaled by `d`, aggregated over the edges, post-scaled, shifted by the bias and rectified —
  is the reference's layer, whose aggregation multiplies each gathered row by its edge's weight `d (source) · d (destination)`,
  because `d` lies in `[0, ⊤)`. The head's logits are the same sums, and the log-softmax along rows is the same function of
  the logits. So the two results agree, layer by layer.
-/
import proofs.«177027_j7722351198605_2_alg».proof.Proof.KernelValue
import proofs.«177027_j7722351198605_2_alg».proof.Proof.ReferenceTerms
import proofs.«177027_j7722351198605_2_alg».proof.Proof.LayerBridge
import proofs.«177027_j7722351198605_2_alg».proof.Proof.HeadBridge
import Idealize.ShloMosaic.PureOps.Ideal

noncomputable section

namespace Cert.Proof.ValueBridge

open Idealize.ShloMosaic Cert.GraphLayers

/-! ## The host-side values: the same operation trees under the two programs' names -/

theorem srcWords_eq (EI : IVec KernelIdeal.S2x600000 32) :
    KernelIdeal.HostValues.srcWords EI = ReferenceIdeal.Terms.srcWords EI := rfl

theorem dstWords_eq (EI : IVec KernelIdeal.S2x600000 32) :
    KernelIdeal.HostValues.dstWords EI = ReferenceIdeal.Terms.dstWords EI := rfl

theorem indexColumn_eq (v : IVec KernelIdeal.S650000 32) :
    KernelIdeal.HostValues.indexColumn v = ReferenceIdeal.Terms.indexColumn v := rfl

theorem zeroNodes_eq : KernelIdeal.HostValues.zeroNodes = ReferenceIdeal.Terms.zeroNodes := rfl

theorem zeroRows_eq : KernelIdeal.HostValues.zeroRows = ReferenceIdeal.Terms.zeroRows := rfl

/-- The source column. -/
theorem srcColumn_eq (EI : IVec KernelIdeal.S2x600000 32) :
    KernelIdeal.HostValues.indexColumn (KernelIdeal.HostValues.srcWords EI)
      = ReferenceIdeal.Terms.indexColumn (ReferenceIdeal.Terms.srcWords EI) := by
  rw [srcWords_eq, indexColumn_eq]

/-- The destination column. -/
theorem dstColumn_eq (EI : IVec KernelIdeal.S2x600000 32) :
    KernelIdeal.HostValues.indexColumn (KernelIdeal.HostValues.dstWords EI)
      = ReferenceIdeal.Terms.indexColumn (ReferenceIdeal.Terms.dstWords EI) := by
  rw [dstWords_eq, indexColumn_eq]

/-- The degrees. -/
theorem degree_eq (EI : IVec KernelIdeal.S2x600000 32) :
    KernelIdeal.HostValues.degree EI
      = ReferenceIdeal.Terms.degree (ReferenceIdeal.Terms.indexColumn (ReferenceIdeal.Terms.dstWords EI)) := by
  unfold KernelIdeal.HostValues.degree
  rw [dstColumn_eq, zeroNodes_eq]
  rfl

/-- The node scale. -/
theorem nodeScale_eq (EI : IVec KernelIdeal.S2x600000 32) :
    KernelIdeal.HostValues.nodeScale EI
      = ReferenceIdeal.Terms.nodeScale (ReferenceIdeal.Terms.indexColumn (ReferenceIdeal.Terms.dstWords EI)) := by
  unfold KernelIdeal.HostValues.nodeScale
  rw [degree_eq, zeroNodes_eq]
  rfl

/-- The aggregation over the edges: rows gathered at the sources, scattered by destination, accumulating, into zeros. -/
theorem aggregate_eq (EI : IVec KernelIdeal.S2x600000 32) (P : FVec Ideal KernelIdeal.S50000x128 .f32) :
    KernelIdeal.HostValues.aggregate EI P
      = Host.scatterAdd (F := Ideal) ReferenceIdeal.scatter_S50000x128_S650000x1_S650000x128_1_0_0_1 ReferenceIdeal.Terms.zeroRows
          (ReferenceIdeal.Terms.indexColumn (ReferenceIdeal.Terms.dstWords EI))
          (Host.gather ReferenceIdeal.gather_S50000x128_S650000x1_S650000x128_1_0_n_n_0_1_1128 P
            (ReferenceIdeal.Terms.indexColumn (ReferenceIdeal.Terms.srcWords EI))) := by
  unfold KernelIdeal.HostValues.aggregate
  rw [dstColumn_eq, srcColumn_eq, zeroRows_eq]
  rfl

/-! ## The reference's layer and head, under their two spellings -/

theorem referenceLayer_eq (S T : IVec ReferenceIdeal.S650000x1 32) (d : FVec Ideal ReferenceIdeal.S50000 .f32)
    (A : FVec Ideal ReferenceIdeal.S50000x128 .f32) (W : FVec Ideal ReferenceIdeal.S128x128 .f32)
    (b : FVec Ideal ReferenceIdeal.S128 .f32) :
    ReferenceIdeal.Terms.referenceLayer S T d A W b = ReferenceIdeal.LayerBridge.referenceLayer S T d A W b := rfl

theorem referenceLogits_eq (A : FVec Ideal ReferenceIdeal.S50000x128 .f32) (Wl : FVec Ideal ReferenceIdeal.S40x128 .f32)
    (bl : FVec Ideal ReferenceIdeal.S40 .f32) :
    ReferenceIdeal.Terms.referenceLogits A Wl bl = ReferenceIdeal.HeadBridge.referenceLogits A Wl bl := rfl

theorem referenceLogSoftmax_eq (Lg : FVec Ideal ReferenceIdeal.S50000x40 .f32) :
    ReferenceIdeal.Terms.referenceLogSoftmax Lg = ReferenceIdeal.HeadBridge.referenceLogSoftmax Lg := rfl

/-! ## A layer -/

/-- The kernel's layer of any array of node rows is the reference's layer of it. -/
theorem layer_eq (EI : IVec KernelIdeal.S2x600000 32) (A : FVec Ideal KernelIdeal.S50000x128 .f32)
    (W : FVec Ideal KernelIdeal.S128x128 .f32) (b : FVec Ideal KernelIdeal.S128 .f32) :
    activation (R := 50000) (K := 128) (KernelIdeal.HostValues.scaleColumn EI)
        (KernelIdeal.HostValues.aggregate EI
          (scaledProduct (R := 50000) (K := 128) (Q := 128) (KernelIdeal.HostValues.scaleColumn EI) A
            (KernelIdeal.HostValues.transposedWeights W)))
        (KernelIdeal.HostValues.biasRow b)
      = ReferenceIdeal.Terms.referenceLayer (ReferenceIdeal.Terms.indexColumn (ReferenceIdeal.Terms.srcWords EI))
          (ReferenceIdeal.Terms.indexColumn (ReferenceIdeal.Terms.dstWords EI))
          (ReferenceIdeal.Terms.nodeScale (ReferenceIdeal.Terms.indexColumn (ReferenceIdeal.Terms.dstWords EI))) A W b := by
  have hd : ∀ i, 0 ≤ ReferenceIdeal.Terms.nodeScale (ReferenceIdeal.Terms.indexColumn (ReferenceIdeal.Terms.dstWords EI)) i
      ∧ ReferenceIdeal.Terms.nodeScale (ReferenceIdeal.Terms.indexColumn (ReferenceIdeal.Terms.dstWords EI)) i ≠ ⊤ := fun i => by
    have h := KernelIdeal.HostValues.nodeScale_bounds EI i
    rw [nodeScale_eq] at h
    exact h
  have hZ : ∀ i, ReferenceIdeal.Terms.zeroRows i = 0 := fun i => by
    have h := KernelIdeal.HostValues.zeroRows_apply i
    rw [zeroRows_eq] at h
    exact h
  rw [aggregate_eq]
  unfold KernelIdeal.HostValues.scaleColumn KernelIdeal.HostValues.biasRow KernelIdeal.HostValues.transposedWeights
  rw [nodeScale_eq, referenceLayer_eq]
  exact ReferenceIdeal.LayerBridge.layer_eq _ _ _ hd A W b ReferenceIdeal.Terms.zeroRows hZ _ _ _

/-! ## The result -/

theorem result_eq (X : FVec Ideal Cert.KernelIdeal.S50000x128 .f32) (EI : IVec Cert.KernelIdeal.S2x600000 32)
    (W1 : FVec Ideal Cert.KernelIdeal.S128x128 .f32) (b1 : FVec Ideal Cert.KernelIdeal.S128 .f32)
    (W2 : FVec Ideal Cert.KernelIdeal.S128x128 .f32) (b2 : FVec Ideal Cert.KernelIdeal.S128 .f32)
    (Wl : FVec Ideal Cert.KernelIdeal.S40x128 .f32) (bl : FVec Ideal Cert.KernelIdeal.S40 .f32) :
    Cert.KernelIdeal.ResultValue.result X EI W1 b1 W2 b2 Wl bl = Cert.ReferenceIdeal.Terms.referenceResult X EI W1 b1 W2 b2 Wl bl := by
  have h1 : KernelIdeal.ResultValue.firstActivation X EI W1 b1
      = ReferenceIdeal.Terms.referenceLayer (ReferenceIdeal.Terms.indexColumn (ReferenceIdeal.Terms.srcWords EI))
          (ReferenceIdeal.Terms.indexColumn (ReferenceIdeal.Terms.dstWords EI))
          (ReferenceIdeal.Terms.nodeScale (ReferenceIdeal.Terms.indexColumn (ReferenceIdeal.Terms.dstWords EI))) X W1 b1 := by
    unfold KernelIdeal.ResultValue.firstActivation KernelIdeal.ResultValue.firstProduct
    exact layer_eq EI X W1 b1
  have h2 : KernelIdeal.ResultValue.secondActivation X EI W1 b1 W2 b2
      = ReferenceIdeal.Terms.referenceLayer (ReferenceIdeal.Terms.indexColumn (ReferenceIdeal.Terms.srcWords EI))
          (ReferenceIdeal.Terms.indexColumn (ReferenceIdeal.Terms.dstWords EI))
          (ReferenceIdeal.Terms.nodeScale (ReferenceIdeal.Terms.indexColumn (ReferenceIdeal.Terms.dstWords EI)))
          (KernelIdeal.ResultValue.firstActivation X EI W1 b1) W2 b2 := by
    unfold KernelIdeal.ResultValue.secondActivation KernelIdeal.ResultValue.secondProduct
    exact layer_eq EI _ W2 b2
  unfold KernelIdeal.ResultValue.result ReferenceIdeal.Terms.referenceResult
  unfold KernelIdeal.HostValues.transposedHead KernelIdeal.HostValues.headBiasRow
  rw [h2, h1, referenceLogSoftmax_eq, referenceLogits_eq, ReferenceIdeal.HeadBridge.head_eq]
  exact congrArg (logSoftmaxRows (R := 50000) (Q := 40)) (ReferenceIdeal.HeadBridge.logits_eq _ Wl bl _ _)

end Cert.Proof.ValueBridge

end
-- ==== Proof.lean ====
/-
  A two-layer graph convolution with a linear head and a log-softmax: three pipelined kernels against a plain reference.

  THE PROGRAMS. With `d` the node scale `where (deg > 0) (rsqrt deg) 0`, `agg` the aggregation over the edges (gather the
  source rows, scatter them, accumulating, by destination; every node carries a self loop) and `Wᵀ` a transposed weight:
    kernel      P₁ = d ⊙ (X · W₁ᵀ);  H₁ = max (d ⊙ agg P₁ + b₁) 0;  P₂ = d ⊙ (H₁ · W₂ᵀ);  H₂ = max (d ⊙ agg P₂ + b₂) 0;
    reference   H₁ = max (agg' (X · W₁ᵀ) + b₁) 0;  H₂ = max (agg' (H₁ · W₂ᵀ) + b₂) 0,
  where `agg'` multiplies each edge's source row by the edge weight `d (source) · d (destination)` before scattering; both end
  with `logsoftmax (H₂ · Wₗᵀ + bₗ)` along rows (the row maximum subtracted first).

  WHY THEY AGREE on the extended reals. For an edge that lands on node `r` the destination's scale is `d r`, so the reference's
  sum over those edges is `Σ (row · (d (source) · d r))` and the kernel's is `d r · Σ (d (source) · row)`. A factor in `[0, ⊤)`
  distributes over every finite sum of extended reals, and the node scale is such a factor for EVERY degree (proof/Proof/
  ScaledAggregation.lean): the two sums are equal with no entry of the rows having to be finite, so the precondition is never
  opened. Matrix products, row maxima and row sums are the same sums and folds on both sides.

  HOW THE CLAIMS ARE MET. The kernel's run is the generated launch over its segments with the result buffer kept
  (Proof/KernelRun.lean); each region's output array is a closed form of the arrays it is entered with (Proof/Region*.lean),
  those arrays are what the host operations before the region leave (Proof/HostValues.lean), and together they give the result
  as one function of the arguments (Proof/KernelValue.lean). The reference's run is its operation list evaluated stretch by
  stretch (Proof/ReferenceStages.lean, Proof/ReferenceValue.lean). The two functions are equal (Proof/LayerBridge.lean,
  Proof/HeadBridge.lean, Proof/ValueBridge.lean). The frames of the two kernels are the generated ones; the reference's frame is
  its run with the result dropped; the idealization rewrote nothing, so `preserves` is trivial.
-/
import proofs.«177027_j7722351198605_2_alg».proof.Defs
import proofs.«177027_j7722351198605_2_alg».proof.Proof.Gen.Kernel
import proofs.«177027_j7722351198605_2_alg».proof.Proof.Gen.Kernel.Skeleton
import proofs.«177027_j7722351198605_2_alg».proof.Proof.Gen.Kernel.Launch
import proofs.«177027_j7722351198605_2_alg».proof.Proof.Gen.Kernel.Points
import proofs.«177027_j7722351198605_2_alg».proof.Proof.Gen.Kernel.Frame
import proofs.«177027_j7722351198605_2_alg».proof.Proof.Gen.KernelIdeal
import proofs.«177027_j7722351198605_2_alg».proof.Proof.Gen.KernelIdeal.Skeleton
import proofs.«177027_j7722351198605_2_alg».proof.Proof.Gen.KernelIdeal.Launch
import proofs.«177027_j7722351198605_2_alg».proof.Proof.Gen.KernelIdeal.Points
import proofs.«177027_j7722351198605_2_alg».proof.Proof.Gen.KernelIdeal.Frame
import proofs.«177027_j7722351198605_2_alg».proof.Proof.Gen.ReferenceIdeal
import proofs.«177027_j7722351198605_2_alg».proof.Proof.Gen.Pre_finite_inputs
import proofs.«177027_j7722351198605_2_alg».proof.Proof.KernelValue
import proofs.«177027_j7722351198605_2_alg».proof.Proof.ReferenceValue
import proofs.«177027_j7722351198605_2_alg».proof.Proof.ValueBridge
import Idealize.ShloMosaic.Adequacy
import Idealize.ShloMosaic.Init

noncomputable section

namespace Cert.Proof

open Idealize.ShloMosaic Idealize.SL.Sem

/-- The word-level kernel runs and leaves its arguments as launched: the generated frame. -/
theorem frame_kernel : Cert.frame_Kernel := fun m ρ _ => Cert.Kernel.Gen.frame m ρ

/-- The idealized kernel runs and leaves its arguments as launched: the generated frame. -/
theorem frame_kernelIdeal : Cert.frame_KernelIdeal := fun m ρ _ => Cert.KernelIdeal.Gen.frame m ρ

/-- The idealized reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.RunValue.run_after m ρ)

/-- At the ideal instance, from memories that agree on the arguments, both programs run and end with the same result: the
    kernel's result function of the arguments, which is the reference's. -/
theorem algebraic : Cert.algebraic_KernelIdeal_ReferenceIdeal := by
  intro m ρ m' ρ' _ hagree
  refine ⟨fun c => Cert.KernelIdeal.ResultValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.ResultValue.run m ρ, ?_⟩
  refine (θ_run Cert.ReferenceIdeal.defs _ _).mono (fun _ h c => ⟨(h c).1.trans ?_, (h c).2⟩)
    (Cert.ReferenceIdeal.RunValue.run_after m' ρ')
  rw [Cert.ReferenceIdeal.RunValue.result_value]
  show Cert.ReferenceIdeal.Terms.referenceResult
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Proof.ValueBridge.result_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
